-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩
abbrev S1x320000 : Shape := ⟨2, ![1, 320000]⟩
abbrev S320000 : Shape := ⟨1, ![320000]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_

variable [Facts]

def fn_part4 {F : FTy → Type} [FloatOps F] (main_arg1 : IVec S2x320000 32) (main_arg15 : FVec F S256x64 .f32) (main_v63 : IVec S_ 1) (main_v67 : IVec S_ 1) : IVec S_ 1 :=
  let main_v68 : IVec S_ 1 := andi main_v63 main_v67
  let main_v69 : FVec F S256x64 .f32 := Host.absf main_arg15
  let main_cst_26 : FVec F S_ .f32 := constant S_ .f32 0x7F800000#32
  let main_v70 : FVec F S256x64 .f32 := broadcastInDim S256x64 ![] bcast_S_S256x64 main_cst_26
  let main_v71 : IVec S256x64 1 := cmpf .olt main_v69 main_v70
  let main_c_27 : IVec S_ 1 := constantI S_ 1 1#1
  let main_v72 : IVec S_ 1 := (fun x v => Host.reduce IntOp.andi x v reducesTo_S256x64_S_d0_1 h_S_) main_v71 main_c_27
  let main_v73 : IVec S_ 1 := andi main_v68 main_v72
  let main_v74 : IVec S1x320000 32 := (extractStridedSlice S1x320000 ![0, 0] · slices_S2x320000_S1x320000_0_0) main_arg1
  let main_v75 : IVec S320000 32 := shapeCast S320000 main_v74 shapeCasts_S1x320000_S320000
  let main_c_28 : IVec S_ 32 := constantI S_ 32 0#32
  let main_v76 : IVec S320000 32 := broadcastInDim S320000 ![] bcast_S_S320000 main_c_28
  let main_v77 : IVec S320000 1 := cmpi .sge main_v75 main_v76
  let main_c_29 : IVec S_ 1 := constantI S_ 1 1#1
  let main_v78 : IVec S_ 1 := (fun x v => Host.reduce IntOp.andi x v reducesTo_S320000_S_d0 h_S_) main_v77 main_c_29
  let main_v79 : IVec S_ 1 := andi main_v73 main_v78
  let main_v80 : IVec S1x320000 32 := (extractStridedSlice S1x320000 ![0, 0] · slices_S2x320000_S1x320000_0_0) main_arg1
  let main_v81 : IVec S320000 32 := shapeCast S320000 main_v80 shapeCasts_S1x320000_S320000
  let main_c_30 : IVec S_ 32 := constantI S_ 32 20000#32
  let main_v82 : IVec S320000 32 := broadcastInDim S320000 ![] bcast_S_S320000 main_c_30
  let main_v83 : IVec S320000 1 := cmpi .slt main_v81 main_v82
  let main_c_31 : IVec S_ 1 := constantI S_ 1 1#1
  let main_v84 : IVec S_ 1 := (fun x v => Host.reduce IntOp.andi x v reducesTo_S320000_S_d0 h_S_) main_v83 main_c_31
  let main_v85 : IVec S_ 1 := andi main_v79 main_v84
  main_v85

def fn_part3 {F : FTy → Type} [FloatOps F] (main_arg1 : IVec S2x320000 32) (main_arg12 : FVec F S256x64 .f32) (main_arg13 : FVec F S256x64 .f32) (main_arg14 : FVec F S64 .f32) (main_arg15 : FVec F S256x64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S256x64 .f32 := Host.absf main_arg12
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S256x64 .f32 := Host.absf main_arg13
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg15 main_v63 main_v67

def fn_part2 {F : FTy → Type} [FloatOps F] (main_arg1 : IVec S2x320000 32) (main_arg8 : FVec F S128x256 .f32) (main_arg9 : FVec F S256 .f32) (main_arg10 : FVec F S256x64 .f32) (main_arg11 : FVec F S64 .f32) (main_arg12 : FVec F S256x64 .f32) (main_arg13 : FVec F S256x64 .f32) (main_arg14 : FVec F S64 .f32) (main_arg15 : FVec F S256x64 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x64 .f32 := Host.absf main_arg10
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_arg15 main_v48 main_v49 main_v50

def fn_part1 {F : FTy → Type} [FloatOps F] (main_arg1 : IVec S2x320000 32) (main_arg5 : FVec F S256x256 .f32) (main_arg6 : FVec F S256 .f32) (main_arg7 : FVec F S256x256 .f32) (main_arg8 : FVec F S128x256 .f32) (main_arg9 : FVec F S256 .f32) (main_arg10 : FVec F S256x64 .f32) (main_arg11 : FVec F S64 .f32) (main_arg12 : FVec F S256x64 .f32) (main_arg13 : FVec F S256x64 .f32) (main_arg14 : FVec F S64 .f32) (main_arg15 : FVec F S256x64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S20000x128 .f32) (main_arg1 : IVec S2x320000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S128x256 .f32) (main_arg9 : FVec F S256 .f32) (main_arg10 : FVec F S256x64 .f32) (main_arg11 : FVec F S64 .f32) (main_arg12 : FVec F S256x64 .f32) (main_arg13 : FVec F S256x64 .f32) (main_arg14 : FVec F S64 .f32) (main_arg15 : FVec F S256x64 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S20000x128 : Shape := ⟨2, ![20000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x320000 : Shape := ⟨2, ![1, 320000]⟩
abbrev S320000 : Shape := ⟨1, ![320000]⟩
abbrev S_ : Shape := ⟨0, ![]⟩
abbrev S20000 : Shape := ⟨1, ![20000]⟩
abbrev S320000x1 : Shape := ⟨2, ![320000, 1]⟩
abbrev S20000x1 : Shape := ⟨2, ![20000, 1]⟩
abbrev S1 : Shape := ⟨1, ![1]⟩
abbrev S1x1 : Shape := ⟨2, ![1, 1]⟩
abbrev S320000x128 : Shape := ⟨2, ![320000, 128]⟩
abbrev S1x256 : Shape := ⟨2, ![1, 256]⟩
abbrev S20000x256 : Shape := ⟨2, ![20000, 256]⟩
abbrev S4000x128 : Shape := ⟨2, ![4000, 128]⟩
abbrev S4000x1 : Shape := ⟨2, ![4000, 1]⟩
abbrev S4000x256 : Shape := ⟨2, ![4000, 256]⟩
abbrev S320000x256 : Shape := ⟨2, ![320000, 256]⟩
abbrev S256x128 : Shape := ⟨2, ![256, 128]⟩
abbrev S1x64 : Shape := ⟨2, ![1, 64]⟩
abbrev S4000x64 : Shape := ⟨2, ![4000, 64]⟩
abbrev S20000x64 : Shape := ⟨2, ![20000, 64]⟩

abbrev nBuf : Space → Nat
  | .hbm => 126
  | .vmem => 43
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S128x256, .f32⟩
  | .hbm, ⟨9, _⟩ => ⟨S256, .f32⟩
  | .hbm, ⟨10, _⟩ => ⟨S256x64, .f32⟩
  | .hbm, ⟨11, _⟩ => ⟨S64, .f32⟩
  | .hbm, ⟨12, _⟩ => ⟨S256x64, .f32⟩
  | .hbm, ⟨13, _⟩ => ⟨S256x64, .f32⟩
  | .hbm, ⟨14, _⟩ => ⟨S64, .f32⟩
  | .hbm, ⟨15, _⟩ => ⟨S256x64, .f32⟩
  | .hbm, ⟨16, _⟩ => ⟨S1x320000, .i32⟩
  | .hbm, ⟨17, _⟩ => ⟨S320000, .i32⟩
  | .hbm, ⟨18, _⟩ => ⟨S1x320000, .i32⟩
  | .hbm, ⟨19, _⟩ => ⟨S320000, .i32⟩
  | .hbm, ⟨20, _⟩ => ⟨S_, .f32⟩
  | .hbm, ⟨21, _⟩ => ⟨S320000, .f32⟩
  | .hbm, ⟨22, _⟩ => ⟨S_, .f32⟩
  | .hbm, ⟨23, _⟩ => ⟨S20000, .f32⟩
  | .hbm, ⟨24, _⟩ => ⟨S320000x1, .i32⟩
  | .hbm, ⟨25, _⟩ => ⟨S20000, .f32⟩
  | .hbm, ⟨26, _⟩ => ⟨S_, .f32⟩
  | .hbm, ⟨27, _⟩ => ⟨S20000, .f32⟩
  | .hbm, ⟨28, _⟩ => ⟨S20000, .f32⟩
  | .hbm, ⟨29, _⟩ => ⟨S_, .f32⟩
  | .hbm, ⟨30, _⟩ => ⟨S20000, .f32⟩
  | .hbm, ⟨31, _⟩ => ⟨S20000, .f32⟩
  | .hbm, ⟨32, _⟩ => ⟨S20000x1, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S1, .i32⟩
  | .hbm, ⟨42, _⟩ => ⟨S_, .i32⟩
  | .hbm, ⟨43, _⟩ => ⟨S320000x1, .i32⟩
  | .hbm, ⟨44, _⟩ => ⟨S320000x1, .i1⟩
  | .hbm, ⟨45, _⟩ => ⟨S1x1, .i32⟩
  | .hbm, ⟨46, _⟩ => ⟨S320000x1, .i32⟩
  | .hbm, ⟨47, _⟩ => ⟨S320000x1, .i1⟩
  | .hbm, ⟨48, _⟩ => ⟨S320000x1, .i1⟩
  | .hbm, ⟨49, _⟩ => ⟨S_, .i1⟩
  | .hbm, ⟨50, _⟩ => ⟨S320000, .i1⟩
  | .hbm, ⟨51, _⟩ => ⟨S320000x128, .f32⟩
  | .hbm, ⟨52, _⟩ => ⟨S320000x128, .i1⟩
  | .hbm, ⟨53, _⟩ => ⟨S_, .f32⟩
  | .hbm, ⟨54, _⟩ => ⟨S320000x128, .f32⟩
  | .hbm, ⟨55, _⟩ => ⟨S320000x128, .f32⟩
  | .hbm, ⟨56, _⟩ => ⟨S_, .f32⟩
  | .hbm, ⟨57, _⟩ => ⟨S20000x128, .f32⟩
  | .hbm, ⟨58, _⟩ => ⟨S320000x1, .i32⟩
  | .hbm, ⟨59, _⟩ => ⟨S20000x128, .f32⟩
  | .hbm, ⟨60, _⟩ => ⟨S1x256, .f32⟩
  | .hbm, ⟨61, _⟩ => ⟨S20000x256, .f32⟩
  | .hbm, ⟨62, _⟩ => ⟨S_, .i32⟩
  | .hbm, ⟨63, _⟩ => ⟨S320000, .i32⟩
  | .hbm, ⟨64, _⟩ => ⟨S320000, .i1⟩
  | .hbm, ⟨65, _⟩ => ⟨S_, .i32⟩
  | .hbm, ⟨66, _⟩ => ⟨S320000, .i32⟩
  | .hbm, ⟨67, _⟩ => ⟨S320000, .i32⟩
  | .hbm, ⟨68, _⟩ => ⟨S320000, .i32⟩
  | .hbm, ⟨69, _⟩ => ⟨S320000x1, .i32⟩
  | .hbm, ⟨70, _⟩ => ⟨S1, .i32⟩
  | .hbm, ⟨71, _⟩ => ⟨S_, .i32⟩
  | .hbm, ⟨72, _⟩ => ⟨S320000x1, .i32⟩
  | .hbm, ⟨73, _⟩ => ⟨S320000x1, .i1⟩
  | .hbm, ⟨74, _⟩ => ⟨S1x1, .i32⟩
  | .hbm, ⟨75, _⟩ => ⟨S320000x1, .i32⟩
  | .hbm, ⟨76, _⟩ => ⟨S320000x1, .i1⟩
  | .hbm, ⟨77, _⟩ => ⟨S320000x1, .i1⟩
  | .hbm, ⟨78, _⟩ => ⟨S_, .i1⟩
  | .hbm, ⟨79, _⟩ => ⟨S320000, .i1⟩
  | .hbm, ⟨80, _⟩ => ⟨S320000x256, .f32⟩
  | .hbm, ⟨81, _⟩ => ⟨S320000x256, .i1⟩
  | .hbm, ⟨82, _⟩ => ⟨S_, .f32⟩
  | .hbm, ⟨83, _⟩ => ⟨S320000x256, .f32⟩
  | .hbm, ⟨84, _⟩ => ⟨S320000x256, .f32⟩
  | .hbm, ⟨85, _⟩ => ⟨S_, .f32⟩
  | .hbm, ⟨86, _⟩ => ⟨S20000x256, .f32⟩
  | .hbm, ⟨87, _⟩ => ⟨S320000x1, .i32⟩
  | .hbm, ⟨88, _⟩ => ⟨S20000x256, .f32⟩
  | .hbm, ⟨89, _⟩ => ⟨S1x256, .f32⟩
  | .hbm, ⟨90, _⟩ => ⟨S1x256, .f32⟩
  | .hbm, ⟨91, _⟩ => ⟨S20000x256, .f32⟩
  | .hbm, ⟨92, _⟩ => ⟨S256x128, .f32⟩
  | .hbm, ⟨93, _⟩ => ⟨S20000x128, .f32⟩
  | .hbm, ⟨94, _⟩ => ⟨S_, .i32⟩
  | .hbm, ⟨95, _⟩ => ⟨S320000, .i32⟩
  | .hbm, ⟨96, _⟩ => ⟨S320000, .i1⟩
  | .hbm, ⟨97, _⟩ => ⟨S_, .i32⟩
  | .hbm, ⟨98, _⟩ => ⟨S320000, .i32⟩
  | .hbm, ⟨99, _⟩ => ⟨S320000, .i32⟩
  | .hbm, ⟨100, _⟩ => ⟨S320000, .i32⟩
  | .hbm, ⟨101, _⟩ => ⟨S320000x1, .i32⟩
  | .hbm, ⟨102, _⟩ => ⟨S1, .i32⟩
  | .hbm, ⟨103, _⟩ => ⟨S_, .i32⟩
  | .hbm, ⟨104, _⟩ => ⟨S320000x1, .i32⟩
  | .hbm, ⟨105, _⟩ => ⟨S320000x1, .i1⟩
  | .hbm, ⟨106, _⟩ => ⟨S1x1, .i32⟩
  | .hbm, ⟨107, _⟩ => ⟨S320000x1, .i32⟩
  | .hbm, ⟨108, _⟩ => ⟨S320000x1, .i1⟩
  | .hbm, ⟨109, _⟩ => ⟨S320000x1, .i1⟩
  | .hbm, ⟨110, _⟩ => ⟨S_, .i1⟩
  | .hbm, ⟨111, _⟩ => ⟨S320000, .i1⟩
  | .hbm, ⟨112, _⟩ => ⟨S320000x128, .f32⟩
  | .hbm, ⟨113, _⟩ => ⟨S320000x128, .i1⟩
  | .hbm, ⟨114, _⟩ => ⟨S_, .f32⟩
  | .hbm, ⟨115, _⟩ => ⟨S320000x128, .f32⟩
  | .hbm, ⟨116, _⟩ => ⟨S320000x128, .f32⟩
  | .hbm, ⟨117, _⟩ => ⟨S_, .f32⟩
  | .hbm, ⟨118, _⟩ => ⟨S20000x128, .f32⟩
  | .hbm, ⟨119, _⟩ => ⟨S320000x1, .i32⟩
  | .hbm, ⟨120, _⟩ => ⟨S20000x128, .f32⟩
  | .hbm, ⟨121, _⟩ => ⟨S1x64, .f32⟩
  | .hbm, ⟨122, _⟩ => ⟨S1x64, .f32⟩
  | .hbm, ⟨123, _⟩ => ⟨S20000x128, .f32⟩
  | .hbm, ⟨124, _⟩ => ⟨S20000x64, .f32⟩
  | .hbm, ⟨125, _⟩ => ⟨S20000x64, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S4000x1, .f32⟩
  | .local _ .vmem, ⟨14, _⟩ => ⟨S4000x1, .f32⟩
  | .local _ .vmem, ⟨15, _⟩ => ⟨S4000x256, .f32⟩
  | .local _ .vmem, ⟨16, _⟩ => ⟨S4000x256, .f32⟩
  | .local _ .vmem, ⟨17, _⟩ => ⟨S4000x128, .f32⟩
  | .local _ .vmem, ⟨18, _⟩ => ⟨S4000x128, .f32⟩
  | .local _ .vmem, ⟨19, _⟩ => ⟨S256x256, .f32⟩
  | .local _ .vmem, ⟨20, _⟩ => ⟨S256x256, .f32⟩
  | .local _ .vmem, ⟨21, _⟩ => ⟨S128x256, .f32⟩
  | .local _ .vmem, ⟨22, _⟩ => ⟨S1x256, .f32⟩
  | .local _ .vmem, ⟨23, _⟩ => ⟨S1x256, .f32⟩
  | .local _ .vmem, ⟨24, _⟩ => ⟨S4000x256, .f32⟩
  | .local _ .vmem, ⟨25, _⟩ => ⟨S4000x256, .f32⟩
  | .local _ .vmem, ⟨26, _⟩ => ⟨S4000x256, .f32⟩
  | .local _ .vmem, ⟨27, _⟩ => ⟨S4000x256, .f32⟩
  | .local _ .vmem, ⟨28, _⟩ => ⟨S256x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x1, .f32⟩
  | .local _ .vmem, ⟨34, _⟩ => ⟨S4000x1, .f32⟩
  | .local _ .vmem, ⟨35, _⟩ => ⟨S4000x256, .f32⟩
  | .local _ .vmem, ⟨36, _⟩ => ⟨S4000x256, .f32⟩
  | .local _ .vmem, ⟨37, _⟩ => ⟨S256x64, .f32⟩
  | .local _ .vmem, ⟨38, _⟩ => ⟨S256x64, .f32⟩
  | .local _ .vmem, ⟨39, _⟩ => ⟨S1x64, .f32⟩
  | .local _ .vmem, ⟨40, _⟩ => ⟨S1x64, .f32⟩
  | .local _ .vmem, ⟨41, _⟩ => ⟨S4000x128, .f32⟩
  | .local _ .vmem, ⟨42, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v13 : Ref sig .tc := ⟨.hbm, 55, rfl⟩
abbrev main_cst_3 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v19 : Ref sig .tc := ⟨.hbm, 84, rfl⟩
abbrev main_cst_4 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_cst : Ref sig .tc := ⟨.hbm, 114, rfl⟩
abbrev main_call2_v15 : Ref sig .tc := ⟨.hbm, 115, rfl⟩
abbrev main_v28 : Ref sig .tc := ⟨.hbm, 116, rfl⟩
abbrev main_cst_5 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg7_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem7_1 : DmaSem sig := 42

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  shapeCasts_S20000_S20000x1 : S20000.ShapeCasts S20000x1
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S_S20000x128 : S_.BroadcastsInDim S20000x128 (![] : Fin 0 → Fin S20000x128.rank)
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S320000_S320000x256_0 : S320000.BroadcastsInDim S320000x256 (![0] : Fin 1 → Fin S320000x256.rank)
  bcast_S_S320000x256 : S_.BroadcastsInDim S320000x256 (![] : Fin 0 → Fin S320000x256.rank)
  bcast_S_S20000x256 : S_.BroadcastsInDim S20000x256 (![] : Fin 0 → Fin S20000x256.rank)
  shapeCasts_S4000x256_S4000x256 : S4000x256.ShapeCasts S4000x256
  broadcasts_S4000x1_S4000x256 : S4000x1.Broadcasts S4000x256
  inb_S256x256_S256x256_0_0 : ∀ a, (![0, 0] : Fin 2 → Nat) a + S256x256.size a ≤ S256x256.size a
  h_S256x256 : 0 < S256x256.numel
  concatenates_S256x64_S256x64_S256x128_d1 : Shape.Concatenates [S256x64, S256x64] S256x128 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S64_S1x64 : S64.ShapeCasts S1x64
  slices_S4000x128_o0_0_S4000x64 : S4000x128.Slices ![0, 0] S4000x64
  slices_S4000x128_o0_64_S4000x64 : S4000x128.Slices ![0, 64] S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S256x64_S256x64_0_0 : ∀ a, (![0, 0] : Fin 2 → Nat) a + S256x64.size a ≤ S256x64.size a
  h_S256x64 : 0 < S256x64.numel
  concatenates_S4000x64_S4000x64_S4000x128_d1 : Shape.Concatenates [S4000x64, S4000x64] S4000x128 1
  slices_S20000x128_S20000x64_0_0 : S20000x128.Slices ![0, 0] S20000x64
  slices_S20000x128_S20000x64_0_64 : S20000x128.Slices ![0, 64] S20000x64
  scatter_S20000_S320000x1_S320000_n_0_0_1_wf : ScatterDims.WF S20000 S320000x1 S320000 [] [0] [0] 1
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S4000x128_S128x256_S4000x256_1_0_0_1_n_n_wf : DotDims.WF S4000x128 S128x256 S4000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  dot_S4000x256_S256x64_S4000x64_1_0_0_1_n_n_wf : DotDims.WF S4000x256 S256x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S20000x128.size a
  hwx0_0 : ∀ i : grid0.Coords, EltTy.bits .f32 = 32 ∨ (Rect.block (s := S20000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S20000x1.size a
  hwx0_1 : ∀ i : grid0.Coords, EltTy.bits .f32 = 32 ∨ (Rect.block (s := S20000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S20000x128.size a
  hwx0_2 : ∀ i : grid0.Coords, EltTy.bits .f32 = 32 ∨ (Rect.block (s := S20000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S20000x256.size a
  hwx0_6 : ∀ i : grid0.Coords, EltTy.bits .f32 = 32 ∨ (Rect.block (s := S20000x256) S4000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S20000x256.size a
  hwx1_0 : ∀ i : grid1.Coords, EltTy.bits .f32 = 32 ∨ (Rect.block (s := S20000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S20000x1.size a
  hwx1_1 : ∀ i : grid1.Coords, EltTy.bits .f32 = 32 ∨ (Rect.block (s := S20000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S20000x256.size a
  hwx1_2 : ∀ i : grid1.Coords, EltTy.bits .f32 = 32 ∨ (Rect.block (s := S20000x256) S4000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S20000x128.size a
  hwx1_3 : ∀ i : grid1.Coords, EltTy.bits .f32 = 32 ∨ (Rect.block (s := S20000x128) S4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x256.size a ≤ S20000x256.size a
  hwx1_9 : ∀ i : grid1.Coords, EltTy.bits .f32 = 32 ∨ (Rect.block (s := S20000x256) S4000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S20000x256.size a
  hwx2_0 : ∀ i : grid2.Coords, EltTy.bits .f32 = 32 ∨ (Rect.block (s := S20000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S20000x128.size a
  hwx2_2 : ∀ i : grid2.Coords, EltTy.bits .f32 = 32 ∨ (Rect.block (s := S20000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .f32 = 32 ∨ (Rect.block (s := S20000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S20000x1.size a
  hwx3_1 : ∀ i : grid3.Coords, EltTy.bits .f32 = 32 ∨ (Rect.block (s := S20000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x256.size a ≤ S20000x256.size a
  hwx3_2 : ∀ i : grid3.Coords, EltTy.bits .f32 = 32 ∨ (Rect.block (s := S20000x256) S4000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x64.size a ≤ S256x64.size a
  hwx3_3 : ∀ i : grid3.Coords, EltTy.bits .f32 = 32 ∨ (Rect.block (s := S256x64) S256x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x64.size a ≤ S256x64.size a
  hwx3_4 : ∀ i : grid3.Coords, EltTy.bits .f32 = 32 ∨ (Rect.block (s := S256x64) S256x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S20000x128.size a
  hwx3_7 : ∀ i : grid3.Coords, EltTy.bits .f32 = 32 ∨ (Rect.block (s := S20000x128) S4000x128.size (cc3_transform_7 i) (hinb3_7 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf

abbrev win0_0 : Pipeline.Window sig grid0 :=
  Pipeline.Window.ofSpec (Memref.whole main_v16) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S4000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S4000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v25) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v31) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S4000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S256x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S256x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v34) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S20000 : Shape := ⟨1, ![20000]⟩
abbrev S20000x1 : Shape := ⟨2, ![20000, 1]⟩
abbrev S20000x256 : Shape := ⟨2, ![20000, 256]⟩
abbrev S1x256 : Shape := ⟨2, ![1, 256]⟩
abbrev S320000x256 : Shape := ⟨2, ![320000, 256]⟩
abbrev S20000x64 : Shape := ⟨2, ![20000, 64]⟩
abbrev S1x64 : Shape := ⟨2, ![1, 64]⟩

abbrev nBuf : Space → Nat
  | .hbm => 155
  | .vmem => 0
  | .smem => 0
  | _ => 0

abbrev hbmTy0_0 (i : Nat) : BufTy := match i % 128 with
  | 0 => ⟨S20000x128, .f32⟩
  | 1 => ⟨S2x320000, .i32⟩
  | 2 => ⟨S128x256, .f32⟩
  | 3 => ⟨S256, .f32⟩
  | 4 => ⟨S128x256, .f32⟩
  | 5 => ⟨S256x256, .f32⟩
  | 6 => ⟨S256, .f32⟩
  | 7 => ⟨S256x256, .f32⟩
  | 8 => ⟨S128x256, .f32⟩
  | 9 => ⟨S256, .f32⟩
  | 10 => ⟨S256x64, .f32⟩
  | 11 => ⟨S64, .f32⟩
  | 12 => ⟨S256x64, .f32⟩
  | 13 => ⟨S256x64, .f32⟩
  | 14 => ⟨S64, .f32⟩
  | 15 => ⟨S256x64, .f32⟩
  | 16 => ⟨S1x320000, .i32⟩
  | 17 => ⟨S320000, .i32⟩
  | 18 => ⟨S1x320000, .i32⟩
  | 19 => ⟨S320000, .i32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x128, .f32⟩
  | 29 => ⟨S_, .f32⟩
  | 30 => ⟨S20000x128, .f32⟩
  | 31 => ⟨S320000x1, .i32⟩
  | 32 => ⟨S20000x128, .f32⟩
  | 33 => ⟨S_, .f32⟩
  | 34 => ⟨S320000, .f32⟩
  | 35 => ⟨S_, .f32⟩
  | 36 => ⟨S20000, .f32⟩
  | 37 => ⟨S320000x1, .i32⟩
  | 38 => ⟨S20000, .f32⟩
  | 39 => ⟨S_, .f32⟩
  | 40 => ⟨S20000, .f32⟩
  | 41 => ⟨S20000, .f32⟩
  | 42 => ⟨S20000x1, .f32⟩
  | 43 => ⟨S20000x128, .f32⟩
  | 44 => ⟨S20000x128, .f32⟩
  | 45 => ⟨S20000x256, .f32⟩
  | 46 => ⟨S1x256, .f32⟩
  | 47 => ⟨S20000x256, .f32⟩
  | 48 => ⟨S20000x256, .f32⟩
  | 49 => ⟨S20000x256, .f32⟩
  | 50 => ⟨S20000x256, .f32⟩
  | 51 => ⟨S_, .f32⟩
  | 52 => ⟨S20000x256, .f32⟩
  | 53 => ⟨S20000x256, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S320000x256, .f32⟩
  | 63 => ⟨S_, .f32⟩
  | 64 => ⟨S20000x256, .f32⟩
  | 65 => ⟨S320000x1, .i32⟩
  | 66 => ⟨S20000x256, .f32⟩
  | 67 => ⟨S_, .f32⟩
  | 68 => ⟨S320000, .f32⟩
  | 69 => ⟨S_, .f32⟩
  | 70 => ⟨S20000, .f32⟩
  | 71 => ⟨S320000x1, .i32⟩
  | 72 => ⟨S20000, .f32⟩
  | 73 => ⟨S_, .f32⟩
  | 74 => ⟨S20000, .f32⟩
  | 75 => ⟨S20000, .f32⟩
  | 76 => ⟨S20000x1, .f32⟩
  | 77 => ⟨S20000x256, .f32⟩
  | 78 => ⟨S20000x256, .f32⟩
  | 79 => ⟨S20000x256, .f32⟩
  | 80 => ⟨S1x256, .f32⟩
  | 81 => ⟨S20000x256, .f32⟩
  | 82 => ⟨S20000x256, .f32⟩
  | 83 => ⟨S20000x256, .f32⟩
  | 84 => ⟨S20000x256, .f32⟩
  | 85 => ⟨S_, .f32⟩
  | 86 => ⟨S20000x256, .f32⟩
  | 87 => ⟨S20000x256, .f32⟩
  | 88 => ⟨S20000x256, .f32⟩
  | 89 => ⟨S1x256, .f32⟩
  | 90 => ⟨S20000x256, .f32⟩
  | 91 => ⟨S20000x256, .f32⟩
  | 92 => ⟨S20000x256, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x256, .f32⟩
  | 102 => ⟨S_, .f32⟩
  | 103 => ⟨S20000x256, .f32⟩
  | 104 => ⟨S320000x1, .i32⟩
  | 105 => ⟨S20000x256, .f32⟩
  | 106 => ⟨S_, .f32⟩
  | 107 => ⟨S320000, .f32⟩
  | 108 => ⟨S_, .f32⟩
  | 109 => ⟨S20000, .f32⟩
  | 110 => ⟨S320000x1, .i32⟩
  | 111 => ⟨S20000, .f32⟩
  | 112 => ⟨S_, .f32⟩
  | 113 => ⟨S20000, .f32⟩
  | 114 => ⟨S20000, .f32⟩
  | 115 => ⟨S20000x1, .f32⟩
  | 116 => ⟨S20000x256, .f32⟩
  | 117 => ⟨S20000x256, .f32⟩
  | 118 => ⟨S20000x64, .f32⟩
  | 119 => ⟨S1x64, .f32⟩
  | 120 => ⟨S20000x64, .f32⟩
  | 121 => ⟨S20000x64, .f32⟩
  | 122 => ⟨S20000x64, .f32⟩
  | 123 => ⟨S20000x64, .f32⟩
  | 124 => ⟨S_, .i32⟩
  | 125 => ⟨S320000, .i32⟩
  | 126 => ⟨S320000, .i1⟩
  | 127 => ⟨S_, .i32⟩
  | _ => ⟨S20000x128, .f32⟩

abbrev hbmTy0_1 (i : Nat) : BufTy := match i % 128 with
  | 0 => ⟨S320000, .i32⟩
  | 1 => ⟨S320000, .i32⟩
  | 2 => ⟨S320000, .i32⟩
  | 3 => ⟨S320000x1, .i32⟩
  | 4 => ⟨S320000x256, .f32⟩
  | 5 => ⟨S_, .f32⟩
  | 6 => ⟨S20000x256, .f32⟩
  | 7 => ⟨S320000x1, .i32⟩
  | 8 => ⟨S20000x256, .f32⟩
  | 9 => ⟨S_, .f32⟩
  | 10 => ⟨S320000, .f32⟩
  | 11 => ⟨S_, .f32⟩
  | 12 => ⟨S20000, .f32⟩
  | 13 => ⟨S320000x1, .i32⟩
  | 14 => ⟨S20000, .f32⟩
  | 15 => ⟨S_, .f32⟩
  | 16 => ⟨S20000, .f32⟩
  | 17 => ⟨S20000, .f32⟩
  | 18 => ⟨S20000x1, .f32⟩
  | 19 => ⟨S20000x256, .f32⟩
  | 20 => ⟨S20000x256, .f32⟩
  | 21 => ⟨S20000x64, .f32⟩
  | 22 => ⟨S1x64, .f32⟩
  | 23 => ⟨S20000x64, .f32⟩
  | 24 => ⟨S20000x64, .f32⟩
  | 25 => ⟨S20000x64, .f32⟩
  | 26 => ⟨S20000x64, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call1_cst : Ref sig .tc := ⟨.hbm, 85, rfl⟩
abbrev main_call1_v0 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_10 : Ref sig .tc := ⟨.hbm, 93, rfl⟩
abbrev main_v61 : Ref sig .tc := ⟨.hbm, 94, rfl⟩
abbrev main_v62 : Ref sig .tc := ⟨.hbm, 95, rfl⟩
abbrev main_c_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_cst_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_16 : Ref sig .tc := ⟨.hbm, 124, rfl⟩
abbrev main_v86 : Ref sig .tc := ⟨.hbm, 125, rfl⟩
abbrev main_v87 : Ref sig .tc := ⟨.hbm, 126, rfl⟩
abbrev main_c_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_18 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_19 : Ref sig .tc := ⟨.hbm, 137, rfl⟩
abbrev main_v96 : Ref sig .tc := ⟨.hbm, 138, rfl⟩
abbrev main_cst_20 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  scatter_S20000_S320000x1_S320000_n_0_0_1_wf : ScatterDims.WF S20000 S320000x1 S320000 [] [0] [0] 1
  dot_S20000x128_S128x256_S20000x256_1_0_0_1_n_n_wf : DotDims.WF S20000x128 S128x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []
  dot_S20000x256_S256x64_S20000x64_1_0_0_1_n_n_wf : DotDims.WF S20000x256 S256x64 S20000x64 [1] [0] [0] [1] [] []

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x256_S256x64_S20000x64_1_0_0_1_n_n : DotDims S20000x256 S256x64 S20000x64 where
  lhsContracting := [1]
  rhsContracting := [0]
  lhsNonContracting := [0]
  rhsNonContracting := [1]
  lhsBatch := []
  rhsBatch := []
  wf := dot_S20000x256_S256x64_S20000x64_1_0_0_1_n_n_wf

class Facts : Prop extends Facts₀ where

variable [Facts]
-- ==== Proof.LibTypedRefs.lean ====
/-
  The typed references of an outlined host function.

  A long line of host operations is best read segment by segment (the library's `StableHlo.after_append`), each segment
  from ANY contents it starts from (a variable), which keeps every term small: a buffer the segment does not write
  keeps its contents, and the segment's result is its operations applied to the contents of the buffers it reads. A
  segment that is an outlined function's body needs one thing more:

  * The operations of an outlined function (`TRef.unary`, `TRef.binary`, …) read a buffer's contents at the type of the
    tensor value it holds (`ofBuf`) and write results back at the buffer's own type (`toBuf`). The two types are equal
    by an equation that holds by computation on a literal reference, so both are transports along it: reading what was
    written is the identity (`ofBuf_toBuf`), writing what was read is the identity (`toBuf_ofBuf`), and a write holds
    the value, a read the contents (`toBuf_heq`, `ofBuf_heq`: heterogeneous equations, the two sides' types being equal
    only by computation). With these a fold through an outlined function's operations loses its transports by
    REWRITING: restate each buffer read from outside as a write of its value (`h' : U b = x.toBuf v := h`, one transport,
    which unfolds at once), let `simp only [h', …, ofBuf_toBuf]` cancel every read against a write, and close the one
    write left at the result by `exact eq_of_heq (toBuf_heq _ _)`. Stated at the extended reals, the instance the
    value claims are read at. Imports only the library.
-/
import Idealize.ShloMosaic.Lib.StableHlo.Run
import Idealize.ShloMosaic.PureOps.Ideal

namespace Idealize.ShloMosaic.TypedRefs

open Idealize.ShloMosaic Idealize.ShloMosaic.StableHlo

variable {sig : RefSig}

/-- Reading at the value's type what was just written is the identity. -/
theorem ofBuf_toBuf {T : BufTy} (x : TRef sig T) (v : T.Contents (Elt Ideal)) : x.ofBuf (x.toBuf v) = v := by
  obtain ⟨r, h, h2, h3⟩ := x
  subst h
  rfl

/-- Writing back what was just read is the identity. -/
theorem toBuf_ofBuf {T : BufTy} (x : TRef sig T) (v : x.ref.ty.Contents (Elt Ideal)) : x.toBuf (x.ofBuf v) = v := by
  obtain ⟨r, h, h2, h3⟩ := x
  subst h
  rfl

/-- What is written is the value. -/
theorem toBuf_heq {T : BufTy} (x : TRef sig T) (v : T.Contents (Elt Ideal)) : HEq (x.toBuf v) v := by
  obtain ⟨r, h, h2, h3⟩ := x
  subst h
  rfl

/-- What is read is the contents. -/
theorem ofBuf_heq {T : BufTy} (x : TRef sig T) (v : x.ref.ty.Contents (Elt Ideal)) : HEq (x.ofBuf v) v := by
  obtain ⟨r, h, h2, h3⟩ := x
  subst h
  rfl

end Idealize.ShloMosaic.TypedRefs
-- ==== Proof.HostStretches.lean ====
/-
  The host operations between the kernel regions, one stretch at a time, from ANY buffer contents U the stretch starts
  from: the edge list's two columns, the reciprocal degrees, a guarded row gather (rows whose index is outside the table
  are replaced by a fill value), the neighbours' sums, and the small reshapes.
-/
import proofs.«124056_j2044404433054_2_alg».proof.Proof.Gen.KernelIdeal.Frame
import Idealize.ShloMosaic.Lib.StableHlo.Run
import Idealize.ShloMosaic.PureOps.Ideal.Laws
import proofs.«124056_j2044404433054_2_alg».proof.Proof.LibTypedRefs

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

/-- Row 0 and row 1 of the edge list as vectors of 320000 words. -/
def srcV (a1 : IVec S2x320000 32) : IVec S320000 32 :=
  shapeCast S320000 (extractStridedSlice S1x320000 ![0, 0] a1 slices_S2x320000_S1x320000_0_0) shapeCasts_S1x320000_S320000
def dstV (a1 : IVec S2x320000 32) : IVec S320000 32 :=
  shapeCast S320000 (extractStridedSlice S1x320000 ![1, 0] a1 slices_S2x320000_S1x320000_1_0) shapeCasts_S1x320000_S320000

/-- The destination column. -/
def dstIdx (dv : IVec S320000 32) : IVec S320000x1 32 := broadcastInDim S320000x1 ![0] bcast_S320000_S320000x1_0 dv

/-- The reciprocal of max (degree, 1), as a column. -/
def invd (dv : IVec S320000 32) : FVec Ideal S20000x1 .f32 :=
  shapeCast S20000x1 (Host.divf (broadcastInDim S20000 ![] bcast_S_S20000 (constant (F := Ideal) S_ .f32 0x3F800000#32))
    (maximumf (Host.scatterAdd (F := Ideal) scatter_S20000_S320000x1_S320000_n_0_0_1
        (broadcastInDim S20000 ![] bcast_S_S20000 (constant (F := Ideal) S_ .f32 0x00000000#32)) (dstIdx dv)
        (broadcastInDim S320000 ![] bcast_S_S320000 (constant (F := Ideal) S_ .f32 0x3F800000#32)))
      (broadcastInDim S20000 ![] bcast_S_S20000 (constant (F := Ideal) S_ .f32 0x3F800000#32)))) shapeCasts_S20000_S20000x1

/-- The source column with negative indices wrapped. -/
def takeIdx (sv : IVec S320000 32) : IVec S320000x1 32 :=
  broadcastInDim S320000x1 ![0] bcast_S320000_S320000x1_0
    (select (cmpi .slt sv (broadcastInDim S320000 ![] bcast_S_S320000 (constantI S_ 32 0#32)))
      (addi sv (broadcastInDim S320000 ![] bcast_S_S320000 (constantI S_ 32 20000#32))) sv)

/-- One bit per edge: the wrapped source index is a row of the table. -/
def takeMask (sv : IVec S320000 32) : IVec S320000 1 :=
  Host.reduce IntOp.andi
    (andi (cmpi .sge (takeIdx sv) (broadcastInDim S320000x1 ![] bcast_S_S320000x1 (constantI S_ 32 0#32)))
      (cmpi .sle (takeIdx sv) (broadcastInDim S320000x1 ![0, 1] bcast_S1x1_S320000x1_0_1
        (broadcastInDim S1x1 ![1] bcast_S1_S1x1_1 (constantI S1 32 19999#32)))))
    (constantI S_ 1 1#1) reducesTo_S320000x1_S320000_d1 h_S_

/-- The guarded gather of the rows of a 128-column table. -/
def take128 (y : FVec Ideal S20000x128 .f32) (sv : IVec S320000 32) : FVec Ideal S320000x128 .f32 :=
  select (broadcastInDim S320000x128 ![0] bcast_S320000_S320000x128_0 (takeMask sv))
    (Host.gather gather_S20000x128_S320000x1_S320000x128_1_0_n_n_0_1_1128 y (takeIdx sv))
    (broadcastInDim S320000x128 ![] bcast_S_S320000x128 (constant (F := Ideal) S_ .f32 0x7FC00000#32))

/-- The guarded gather of the rows of a 256-column table. -/
def take256 (y : FVec Ideal S20000x256 .f32) (sv : IVec S320000 32) : FVec Ideal S320000x256 .f32 :=
  select (broadcastInDim S320000x256 ![0] bcast_S320000_S320000x256_0 (takeMask sv))
    (Host.gather gather_S20000x256_S320000x1_S320000x256_1_0_n_n_0_1_1256 y (takeIdx sv))
    (broadcastInDim S320000x256 ![] bcast_S_S320000x256 (constant (F := Ideal) S_ .f32 0x7FC00000#32))

/-- Rows added into zeros at their destination. -/
def seg128 (u : FVec Ideal S320000x128 .f32) (dv : IVec S320000 32) : FVec Ideal S20000x128 .f32 :=
  Host.scatterAdd (F := Ideal) scatter_S20000x128_S320000x1_S320000x128_1_0_0_1
    (broadcastInDim S20000x128 ![] bcast_S_S20000x128 (constant (F := Ideal) S_ .f32 0x00000000#32)) (dstIdx dv) u
def seg256 (u : FVec Ideal S320000x256 .f32) (dv : IVec S320000 32) : FVec Ideal S20000x256 .f32 :=
  Host.scatterAdd (F := Ideal) scatter_S20000x256_S320000x1_S320000x256_1_0_0_1
    (broadcastInDim S20000x256 ![] bcast_S_S20000x256 (constant (F := Ideal) S_ .f32 0x00000000#32)) (dstIdx dv) u

variable (U : Valuation τ sig (Elt Ideal))

set_option maxHeartbeats 2000000 in
theorem seg0_v1 : after hostOps0 U (Proc.devRef .tc main_v1) = srcV (U (Proc.devRef .tc main_arg1)) := by
  simp only [hostOps0]; after_results_simp; try rfl
set_option maxHeartbeats 2000000 in
theorem seg0_v3 : after hostOps0 U (Proc.devRef .tc main_v3) = dstV (U (Proc.devRef .tc main_arg1)) := by
  simp only [hostOps0]; after_results_simp; try rfl
set_option maxHeartbeats 2000000 in
theorem seg0_v12 : after hostOps0 U (Proc.devRef .tc main_v12) = invd (dstV (U (Proc.devRef .tc main_arg1))) := by
  simp only [hostOps0]; after_results_simp; try rfl
set_option maxHeartbeats 4000000 in
theorem seg0_1_v13 : after hostOps0_1 U (Proc.devRef .tc main_v13) = take128 (U (Proc.devRef .tc main_arg0)) (U (Proc.devRef .tc main_v1)) := by
  simp only [hostOps0_1]; after_results_simp; simp only [TypedRefs.ofBuf_toBuf]
  have e1 : ∀ h1 h2 h3, (TRef.of (T := ⟨S320000, .i32⟩) main_v1 h1 h2 h3).ofBuf (Val := Elt Ideal) (U (Proc.devRef .tc main_v1))
      = (U (Proc.devRef .tc main_v1) : IVec S320000 32) := fun _ _ _ => rfl
  have e0 : ∀ h1 h2 h3, (TRef.of (T := ⟨S20000x128, .f32⟩) main_arg0 h1 h2 h3).ofBuf (Val := Elt Ideal) (U (Proc.devRef .tc main_arg0))
      = (U (Proc.devRef .tc main_arg0) : FVec Ideal S20000x128 .f32) := fun _ _ _ => rfl
  have eT : ∀ h1 h2 h3 (w : FVec Ideal S320000x128 .f32), (TRef.of (T := ⟨S320000x128, .f32⟩) main_v13 h1 h2 h3).toBuf (Val := Elt Ideal) w = w :=
    fun _ _ _ _ => rfl
  simp only [e1, e0, eT]
  rfl
set_option maxHeartbeats 2000000 in
theorem seg0_2_v16 : after hostOps0_2 U (Proc.devRef .tc main_v16) = seg128 (U (Proc.devRef .tc main_v13)) (U (Proc.devRef .tc main_v3)) := by
  simp only [hostOps0_2]; after_results_simp; try rfl
set_option maxHeartbeats 2000000 in
theorem seg0_2_v17 : after hostOps0_2 U (Proc.devRef .tc main_v17) = shapeCast S1x256 (U (Proc.devRef .tc main_arg3)) shapeCasts_S256_S1x256 := by
  simp only [hostOps0_2]; after_results_simp; try rfl
set_option maxHeartbeats 4000000 in
theorem seg1_v19 : after hostOps1 U (Proc.devRef .tc main_v19) = take256 (U (Proc.devRef .tc main_v18)) (U (Proc.devRef .tc main_v1)) := by
  simp only [hostOps1]; after_results_simp; simp only [TypedRefs.ofBuf_toBuf]
  have e1 : ∀ h1 h2 h3, (TRef.of (T := ⟨S320000, .i32⟩) main_v1 h1 h2 h3).ofBuf (Val := Elt Ideal) (U (Proc.devRef .tc main_v1))
      = (U (Proc.devRef .tc main_v1) : IVec S320000 32) := fun _ _ _ => rfl
  have e0 : ∀ h1 h2 h3, (TRef.of (T := ⟨S20000x256, .f32⟩) main_v18 h1 h2 h3).ofBuf (Val := Elt Ideal) (U (Proc.devRef .tc main_v18))
      = (U (Proc.devRef .tc main_v18) : FVec Ideal S20000x256 .f32) := fun _ _ _ => rfl
  have eT : ∀ h1 h2 h3 (w : FVec Ideal S320000x256 .f32), (TRef.of (T := ⟨S320000x256, .f32⟩) main_v19 h1 h2 h3).toBuf (Val := Elt Ideal) w = w :=
    fun _ _ _ _ => rfl
  simp only [e1, e0, eT]
  rfl
set_option maxHeartbeats 2000000 in
theorem seg1_1_v22 : after hostOps1_1 U (Proc.devRef .tc main_v22) = seg256 (U (Proc.devRef .tc main_v19)) (U (Proc.devRef .tc main_v3)) := by
  simp only [hostOps1_1]; after_results_simp; try rfl
set_option maxHeartbeats 2000000 in
theorem seg1_1_v23 : after hostOps1_1 U (Proc.devRef .tc main_v23) = shapeCast S1x256 (U (Proc.devRef .tc main_arg6)) shapeCasts_S256_S1x256 := by
  simp only [hostOps1_1]; after_results_simp; try rfl
set_option maxHeartbeats 2000000 in
theorem seg1_1_v24 : after hostOps1_1 U (Proc.devRef .tc main_v24) = shapeCast S1x256 (U (Proc.devRef .tc main_arg9)) shapeCasts_S256_S1x256 := by
  simp only [hostOps1_1]; after_results_simp; try rfl
set_option maxHeartbeats 2000000 in
theorem seg2_v26 : after hostOps2 U (Proc.devRef .tc main_v26)
    = concatenate S256x128 1 [⟨S256x64, U (Proc.devRef .tc main_arg10)⟩, ⟨S256x64, U (Proc.devRef .tc main_arg13)⟩] concatenates_S256x64_S256x64_S256x128_d1 := by
  simp only [hostOps2]; after_results_simp; try rfl
set_option maxHeartbeats 4000000 in
theorem seg3_v28 : after hostOps3 U (Proc.devRef .tc main_v28) = take128 (U (Proc.devRef .tc main_v27)) (U (Proc.devRef .tc main_v1)) := by
  simp only [hostOps3]; after_results_simp; simp only [TypedRefs.ofBuf_toBuf]
  have e1 : ∀ h1 h2 h3, (TRef.of (T := ⟨S320000, .i32⟩) main_v1 h1 h2 h3).ofBuf (Val := Elt Ideal) (U (Proc.devRef .tc main_v1))
      = (U (Proc.devRef .tc main_v1) : IVec S320000 32) := fun _ _ _ => rfl
  have e0 : ∀ h1 h2 h3, (TRef.of (T := ⟨S20000x128, .f32⟩) main_v27 h1 h2 h3).ofBuf (Val := Elt Ideal) (U (Proc.devRef .tc main_v27))
      = (U (Proc.devRef .tc main_v27) : FVec Ideal S20000x128 .f32) := fun _ _ _ => rfl
  have eT : ∀ h1 h2 h3 (w : FVec Ideal S320000x128 .f32), (TRef.of (T := ⟨S320000x128, .f32⟩) main_v28 h1 h2 h3).toBuf (Val := Elt Ideal) w = w :=
    fun _ _ _ _ => rfl
  simp only [e1, e0, eT]
  rfl
set_option maxHeartbeats 2000000 in
theorem seg3_1_v31 : after hostOps3_1 U (Proc.devRef .tc main_v31) = seg128 (U (Proc.devRef .tc main_v28)) (U (Proc.devRef .tc main_v3)) := by
  simp only [hostOps3_1]; after_results_simp; try rfl
set_option maxHeartbeats 2000000 in
theorem seg3_1_v32 : after hostOps3_1 U (Proc.devRef .tc main_v32) = shapeCast S1x64 (U (Proc.devRef .tc main_arg11)) shapeCasts_S64_S1x64 := by
  simp only [hostOps3_1]; after_results_simp; try rfl
set_option maxHeartbeats 2000000 in
theorem seg3_1_v33 : after hostOps3_1 U (Proc.devRef .tc main_v33) = shapeCast S1x64 (U (Proc.devRef .tc main_arg14)) shapeCasts_S64_S1x64 := by
  simp only [hostOps3_1]; after_results_simp; try rfl
set_option maxHeartbeats 2000000 in
theorem seg4_v35 : after hostOps4 U (Proc.devRef .tc main_v35) = extractStridedSlice S20000x64 ![0, 0] (U (Proc.devRef .tc main_v34)) slices_S20000x128_S20000x64_0_0 := by
  simp only [hostOps4]; after_results_simp; try rfl
set_option maxHeartbeats 2000000 in
theorem seg4_v36 : after hostOps4 U (Proc.devRef .tc main_v36) = extractStridedSlice S20000x64 ![0, 64] (U (Proc.devRef .tc main_v34)) slices_S20000x128_S20000x64_0_64 := by
  simp only [hostOps4]; after_results_simp; try rfl

end Cert.KernelIdeal.Stages

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibColumnBroadcast.lean ====
/-
  Columns, read at an entry.

  An [a, 1] array broadcast to [a, b] reads, at (p, c), the column's entry at (p, 0): every entry of row p of the
  result is the one number the column holds for that row (the companion of the library's one-row form [1, b] → [a, b]).
  A vector [a] cast to a column [a, 1] reads, at (i, 0), the vector's entry at i (the companion of the library's row
  form [a] → [1, a]). Any extents and element type; imports only the library.
-/
import Idealize.ShloMosaic.Lib.Pipeline.Value
import Idealize.ShloMosaic.Lib.ValueIdx

namespace Idealize.ShloMosaic.ColumnBroadcast

open Idealize.ShloMosaic Idealize.ShloMosaic.ValueIdx

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ColumnBroadcast
-- ==== Proof.LibJoinColumns.lean ====
/-
  Two matrices with the same number of rows joined side by side, read at an entry.

  A concatenation along the column axis of an `[R, a]` matrix and an `[R, b]` matrix into an `[R, n]` one reads, at
  `(r, k')`, the first matrix at `(r, k)` when `k' = k` is one of its `a` columns, and the second at `(r, k)` when
  `k' = a + k`. Any extents and element type; imports only the library.
-/
import Idealize.ShloMosaic.Lib.Pipeline.Value
import Idealize.ShloMosaic.Lib.ValueIdx

namespace Idealize.ShloMosaic.JoinColumns

open Idealize.ShloMosaic Idealize.ShloMosaic.ValueIdx

variable {α : Type}

/-- A column of the first matrix. -/
theorem left_apply {R a b n : ℕ} (x : (⟨2, ![R, a]⟩ : Shape).Idx → α) (y : (⟨2, ![R, b]⟩ : Shape).Idx → α)
    (h : Shape.Concatenates [(⟨2, ![R, a]⟩ : Shape), ⟨2, ![R, b]⟩] ⟨2, ![R, n]⟩ (1 : Fin 2))
    (r : Fin R) (k : Fin a) (k' : Fin n) (hk : k'.val = k.val) :
    concatenate ⟨2, ![R, n]⟩ (1 : Fin 2) [⟨⟨2, ![R, a]⟩, x⟩, ⟨⟨2, ![R, b]⟩, y⟩] h (ix2 r k') = x (ix2 r k) :=
  concatenate_pair_apply_left (1 : Fin 2) x y h (ix2 r k') rfl (ix2 r k) (fun c => match c with
    | ⟨0, _⟩ => rfl
    | ⟨1, _⟩ => hk.symm)

/-- A column of the second matrix. -/
theorem right_apply {R a b n : ℕ} (x : (⟨2, ![R, a]⟩ : Shape).Idx → α) (y : (⟨2, ![R, b]⟩ : Shape).Idx → α)
    (h : Shape.Concatenates [(⟨2, ![R, a]⟩ : Shape), ⟨2, ![R, b]⟩] ⟨2, ![R, n]⟩ (1 : Fin 2))
    (r : Fin R) (k : Fin b) (k' : Fin n) (hk : k'.val = a + k.val) :
    concatenate ⟨2, ![R, n]⟩ (1 : Fin 2) [⟨⟨2, ![R, a]⟩, x⟩, ⟨⟨2, ![R, b]⟩, y⟩] h (ix2 r k') = y (ix2 r k) :=
  concatenate_pair_apply_right (1 : Fin 2) x y h (ix2 r k') rfl rfl (ix2 r k)
    (fun c hc => match c, hc with
      | ⟨0, _⟩, _ => rfl
      | ⟨1, _⟩, hc => absurd rfl hc)
    (by show k.val + a = k'.val; omega)

end Idealize.ShloMosaic.JoinColumns
-- ==== Proof.LibRealSums.lean ====
import Idealize.ShloMosaic.PureOps.Ideal

/-!
# Finite sums of real numbers inside the extended reals

On the extended reals multiplication does not distribute over addition at the infinities
(`(⊤ + ⊥) * c` and `⊤ * c + ⊥ * c` differ, and a product with `0` forgets an infinity), so
the usual rearrangements of a weighted finite sum hold only when every entry is a real number.
This file names that hypothesis, `IsReal`, shows that it is kept by the arithmetic that builds
a weighted sum, and proves the two rearrangements of a weighted sum that a normalised graph
convolution needs:

* a factor common to all terms may be applied after the sum instead of inside it
  (`sum_mul_mul_right`);
* a linear map applied to a weighted sum of vectors is the weighted sum of the images
  (`sum_proj_of_sum_scaled`): distributivity together with the exchange of two finite sums.
-/

open scoped BigOperators

namespace RealSums

/-- An extended real is *real* when it is the image of a real number, that is, neither
    `⊤` nor `⊥`. -/
def IsReal (a : EReal) : Prop := ∃ r : ℝ, a = (r : EReal)

/-! ### Closure of the real numbers under the arithmetic of a weighted sum -/

/-- The image of a real number in the extended reals is real. -/
theorem isReal_coe (r : ℝ) : IsReal (r : EReal) := ⟨r, rfl⟩

/-- Zero is real. -/
theorem isReal_zero : IsReal 0 := ⟨0, EReal.coe_zero.symm⟩

/-- One is real. -/
theorem isReal_one : IsReal 1 := ⟨1, EReal.coe_one.symm⟩

/-- A real extended real is not `⊤`. -/
theorem IsReal.ne_top {a : EReal} (ha : IsReal a) : a ≠ ⊤ := by
  obtain ⟨x, rfl⟩ := ha
  exact EReal.coe_ne_top x

/-- A real extended real is not `⊥`. -/
theorem IsReal.ne_bot {a : EReal} (ha : IsReal a) : a ≠ ⊥ := by
  obtain ⟨x, rfl⟩ := ha
  exact EReal.coe_ne_bot x

/-- An extended real is real exactly when it is neither `⊥` nor `⊤`. -/
theorem isReal_iff_ne {a : EReal} : IsReal a ↔ a ≠ ⊥ ∧ a ≠ ⊤ :=
  ⟨fun h => ⟨h.ne_bot, h.ne_top⟩, fun h => ⟨a.toReal, (EReal.coe_toReal h.2 h.1).symm⟩⟩

/-- The sum of two real numbers is real. -/
theorem isReal_add {a b : EReal} (ha : IsReal a) (hb : IsReal b) : IsReal (a + b) := by
  obtain ⟨x, rfl⟩ := ha
  obtain ⟨y, rfl⟩ := hb
  exact ⟨x + y, (EReal.coe_add x y).symm⟩

/-- The product of two real numbers is real. -/
theorem isReal_mul {a b : EReal} (ha : IsReal a) (hb : IsReal b) : IsReal (a * b) := by
  obtain ⟨x, rfl⟩ := ha
  obtain ⟨y, rfl⟩ := hb
  exact ⟨x * y, (EReal.coe_mul x y).symm⟩

/-- The negative of a real number is real. -/
theorem isReal_neg {a : EReal} (ha : IsReal a) : IsReal (-a) := by
  obtain ⟨x, rfl⟩ := ha
  exact ⟨-x, (EReal.coe_neg x).symm⟩

/-- The difference of two real numbers is real. -/
theorem isReal_sub {a b : EReal} (ha : IsReal a) (hb : IsReal b) : IsReal (a - b) := by
  obtain ⟨x, rfl⟩ := ha
  obtain ⟨y, rfl⟩ := hb
  exact ⟨x - y, (EReal.coe_sub x y).symm⟩

/-- The larger of two real numbers is real (it is one of the two). -/
theorem isReal_max {a b : EReal} (ha : IsReal a) (hb : IsReal b) : IsReal (max a b) := by
  rcases le_total a b with h | h
  · rw [max_eq_right h]; exact hb
  · rw [max_eq_left h]; exact ha

/-- The smaller of two real numbers is real (it is one of the two). -/
theorem isReal_min {a b : EReal} (ha : IsReal a) (hb : IsReal b) : IsReal (min a b) := by
  rcases le_total a b with h | h
  · rw [min_eq_left h]; exact ha
  · rw [min_eq_right h]; exact hb

/-- A finite sum of real numbers is real. -/
theorem isReal_sum {ι : Type*} (s : Finset ι) (f : ι → EReal)
    (h : ∀ i ∈ s, IsReal (f i)) : IsReal (∑ i ∈ s, f i) :=
  Finset.sum_induction f IsReal (fun _ _ => isReal_add) isReal_zero h

/-- A sum of real numbers over all of a finite type is real. -/
theorem isReal_sum_univ {κ : Type*} [Fintype κ] (f : κ → EReal)
    (h : ∀ k, IsReal (f k)) : IsReal (∑ k, f k) :=
  isReal_sum Finset.univ f (fun k _ => h k)

/-- A natural number is real. -/
theorem isReal_natCast (n : ℕ) : IsReal ((n : ℕ) : EReal) :=
  ⟨(n : ℝ), (EReal.coe_natCast (n := n)).symm⟩

/-- A count, written as a sum of ones over a finite set, is real. -/
theorem isReal_sum_one {ι : Type*} (s : Finset ι) : IsReal (∑ _i ∈ s, (1 : EReal)) :=
  isReal_sum s (fun _ => 1) (fun _ _ => isReal_one)

/-- The reciprocal square root of a positive real number is the real number `(√r)⁻¹`. -/
theorem rsqrt_coe_of_pos (r : ℝ) (hr : 0 < r) :
    Idealize.ShloMosaic.Ideal.rsqrt (r : EReal) = (((Real.sqrt r)⁻¹ : ℝ) : EReal) := by
  rw [Idealize.ShloMosaic.Ideal.rsqrt_coe, if_neg (not_lt.mpr hr.le), if_neg hr.ne']

/-- The reciprocal square root of a positive real number is real. -/
theorem isReal_rsqrt_coe (r : ℝ) (hr : 0 < r) :
    IsReal (Idealize.ShloMosaic.Ideal.rsqrt (r : EReal)) :=
  ⟨(Real.sqrt r)⁻¹, rsqrt_coe_of_pos r hr⟩

/-- The reciprocal square root of a positive real extended real is real. -/
theorem isReal_rsqrt {a : EReal} (ha : IsReal a) (hpos : 0 < a) :
    IsReal (Idealize.ShloMosaic.Ideal.rsqrt a) := by
  obtain ⟨x, rfl⟩ := ha
  exact isReal_rsqrt_coe x (EReal.coe_pos.mp hpos)

/-! ### The coercion from the reals commutes with finite sums -/

/-- The image in the extended reals of a finite sum of real numbers is the sum of the images. -/
theorem coe_sum {ι : Type*} (s : Finset ι) (f : ι → ℝ) :
    ((∑ i ∈ s, f i : ℝ) : EReal) = ∑ i ∈ s, (f i : EReal) := by
  classical
  refine Finset.induction_on s ?_ ?_
  · simp only [Finset.sum_empty, EReal.coe_zero]
  · intro a t hat ih
    rw [Finset.sum_insert hat, Finset.sum_insert hat, EReal.coe_add, ih]

/-! ### Distributivity over real numbers -/

/-- Multiplication on the right distributes over the sum of two real numbers. -/
theorem add_mul_of_isReal {a b c : EReal} (ha : IsReal a) (hb : IsReal b) (hc : IsReal c) :
    (a + b) * c = a * c + b * c := by
  obtain ⟨x, rfl⟩ := ha
  obtain ⟨y, rfl⟩ := hb
  obtain ⟨z, rfl⟩ := hc
  rw [← EReal.coe_add, ← EReal.coe_mul, ← EReal.coe_mul, ← EReal.coe_mul, ← EReal.coe_add,
    add_mul]

/-- Multiplication on the left distributes over the sum of two real numbers. -/
theorem mul_add_of_isReal {a b c : EReal} (ha : IsReal a) (hb : IsReal b) (hc : IsReal c) :
    a * (b + c) = a * b + a * c := by
  rw [mul_comm a (b + c), add_mul_of_isReal hb hc ha, mul_comm b a, mul_comm c a]

/-- A real factor on the right distributes over a finite sum of real numbers. -/
theorem sum_mul_of_isReal {ι : Type*} (s : Finset ι) (f : ι → EReal) (d : EReal)
    (hf : ∀ i ∈ s, IsReal (f i)) (hd : IsReal d) :
    (∑ i ∈ s, f i) * d = ∑ i ∈ s, f i * d := by
  classical
  revert hf
  refine Finset.induction_on s ?_ ?_
  · intro _
    simp only [Finset.sum_empty, zero_mul]
  · intro a t hat ih hf
    have hft : ∀ i ∈ t, IsReal (f i) := fun i hi => hf i (Finset.mem_insert_of_mem hi)
    rw [Finset.sum_insert hat, Finset.sum_insert hat,
      add_mul_of_isReal (hf a (Finset.mem_insert_self a t)) (isReal_sum t f hft) hd, ih hft]

/-- A real factor on the left distributes over a finite sum of real numbers. -/
theorem mul_sum_of_isReal {ι : Type*} (s : Finset ι) (f : ι → EReal) (d : EReal)
    (hf : ∀ i ∈ s, IsReal (f i)) (hd : IsReal d) :
    d * (∑ i ∈ s, f i) = ∑ i ∈ s, d * f i := by
  rw [mul_comm, sum_mul_of_isReal s f d hf hd]
  exact Finset.sum_congr rfl (fun i _ => mul_comm (f i) d)

/-! ### The two rearrangements of a weighted sum -/

/-- A common real factor may be applied after a weighted sum of real numbers instead of to
    each term: `(∑ₑ aₑ bₑ) d = ∑ₑ aₑ (bₑ d)`. -/
theorem sum_mul_mul_right {ι : Type*} (s : Finset ι) (a b : ι → EReal) (d : EReal)
    (ha : ∀ e ∈ s, IsReal (a e)) (hb : ∀ e ∈ s, IsReal (b e)) (hd : IsReal d) :
    (∑ e ∈ s, a e * b e) * d = ∑ e ∈ s, a e * (b e * d) := by
  rw [sum_mul_of_isReal s (fun e => a e * b e) d (fun e he => isReal_mul (ha e he) (hb e he)) hd]
  exact Finset.sum_congr rfl (fun e _ => mul_assoc (a e) (b e) d)

/-- A linear functional applied to a scaled weighted sum of real vectors is the weighted sum
    of its values on the vectors:
    `∑_f ((∑ₑ xₑ_f bₑ) d) w_f = ∑ₑ (∑_f xₑ_f w_f) (bₑ d)`,
    by distributivity over real numbers and the exchange of the two finite sums. -/
theorem sum_proj_of_sum_scaled {ι κ : Type*} [Fintype κ] (s : Finset ι) (x : ι → κ → EReal)
    (b : ι → EReal) (d : EReal) (w : κ → EReal)
    (hx : ∀ e ∈ s, ∀ f, IsReal (x e f)) (hb : ∀ e ∈ s, IsReal (b e)) (hd : IsReal d)
    (hw : ∀ f, IsReal (w f)) :
    ∑ f, ((∑ e ∈ s, x e f * b e) * d) * w f = ∑ e ∈ s, (∑ f, x e f * w f) * (b e * d) := by
  have hL : ∀ f, ((∑ e ∈ s, x e f * b e) * d) * w f = ∑ e ∈ s, (x e f * w f) * (b e * d) := by
    intro f
    rw [mul_assoc,
      sum_mul_of_isReal s (fun e => x e f * b e) (d * w f)
        (fun e he => isReal_mul (hx e he f) (hb e he)) (isReal_mul hd (hw f))]
    refine Finset.sum_congr rfl (fun e _ => ?_)
    rw [mul_comm d (w f), mul_mul_mul_comm]
  have hR : ∀ e ∈ s, (∑ f, x e f * w f) * (b e * d) = ∑ f, (x e f * w f) * (b e * d) := by
    intro e he
    exact sum_mul_of_isReal Finset.univ (fun f => x e f * w f) (b e * d)
      (fun f _ => isReal_mul (hx e he f) (hw f)) (isReal_mul (hb e he) hd)
  rw [Finset.sum_congr rfl (fun f _ => hL f), Finset.sum_congr rfl hR]
  exact Finset.sum_comm

end RealSums
-- ==== Proof.LibMeanScale.lean ====
/-
  The two arithmetic facts that join the kernel's layer to the reference's, on the extended reals.

  The mean over a node's incoming edges divides a sum `s` by `max cnt 1`. The reference divides; the kernel
  multiplies by the reciprocal `1 / max cnt 1` computed once. The divisor is at least one, hence not zero, and off
  zero the quotient is the product with the inverse, so both are `s · (max cnt 1)⁻¹` whatever `s` and `cnt` are,
  infinite or not. The layer then adds its bias before the second product (the reference) or after it (the kernel):
  addition of extended reals is commutative and associative. Imports only the library.
-/
import Idealize.ShloMosaic.PureOps.Ideal.Laws

namespace Idealize.ShloMosaic.MeanScale

open Idealize.ShloMosaic

/-- The f32 word of 1.0 denotes the real number one. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]
    norm_num
  rw [h, EReal.coe_one]

/-- A maximum with one is not zero. -/
theorem max_one_ne_zero (c : EReal) : max c (1 : EReal) ≠ 0 :=
  ne_of_gt (lt_of_lt_of_le zero_lt_one (le_max_right c 1))

/-- Multiplying by the reciprocal of `max c 1` is dividing by it, for every extended real `s` and `c`. -/
theorem mul_recip_eq_div (s c : EReal) :
    s * Ideal.div (Ideal.ofBits .f32 0x3F800000#32) (max c (Ideal.ofBits .f32 0x3F800000#32))
      = Ideal.div s (max c (Ideal.ofBits .f32 0x3F800000#32)) := by
  rw [ofBits_one]
  unfold Ideal.div
  rw [if_neg (max_one_ne_zero c), if_neg (max_one_ne_zero c), one_mul]

/-- The bias added after the second product or before it. -/
theorem bias_last (a x b : EReal) : (a + x) + b = (a + b) + x := add_right_comm a x b

end Idealize.ShloMosaic.MeanScale
-- ==== Proof.LibMeanLayers.lean ====
/-
  Two layers of mean-aggregation graph convolution and two linear heads, entry by entry on the extended reals.

  A graph on N nodes with E edges is given by the set `inE v` of edges that land on node v and the source node
  `src e` of edge e. For a table y (N rows) the aggregate at (v, k) is the sum over the edges into v of
  y (src e) k; the degree of v is the number of those edges, the mean divides the aggregate by max (degree, 1).
  A layer is  lin (mean y) Wl + b + lin y Wr  (lin a W q = sum over k of a k * W k q), the first two layers pass
  through the rectifier and the second adds a linear image of the input features.

  The second program multiplies the aggregate by the reciprocal 1 / max (degree, 1) instead of dividing, and adds
  the bias last: the same extended real, whatever the entries are. For the heads it aggregates the PROJECTED table
  (rows of y times Wl) and scales afterwards: the same number when every entry is a real number, because a finite sum of
  reals commutes with a product.
-/
import Idealize.ShloMosaic.PureOps.Ideal.Laws
import proofs.«124056_j2044404433054_2_alg».proof.Proof.LibRealSums
import proofs.«124056_j2044404433054_2_alg».proof.Proof.LibMeanScale

open scoped BigOperators

namespace Cert.Sage

open Idealize.ShloMosaic RealSums

/-- The f32 words of 1.0 and 0.0, kept as words so that a printed constant meets them unevaluated. -/
noncomputable abbrev one : EReal := Ideal.ofBits .f32 0x3F800000#32
noncomputable abbrev zero : EReal := Ideal.ofBits .f32 0x00000000#32

theorem one_eq : one = 1 := MeanScale.ofBits_one
theorem zero_eq : zero = 0 := Ideal.ofBits_zero_f32

/-- The edges into each node and each edge's source node. -/
structure Graph (N E : ℕ) where
  inE : Fin N → Finset (Fin E)
  src : Fin E → Fin N

variable {N E : ℕ} (g : Graph N E)

/-- The sum over the edges into v of the table at the edge's source row (added to the zero word). -/
noncomputable def agg {C : ℕ} (y : Fin N → Fin C → EReal) (v : Fin N) (k : Fin C) : EReal :=
  zero + ∑ e ∈ g.inE v, y (g.src e) k

/-- The number of edges into v, as a sum of ones. -/
noncomputable def deg (v : Fin N) : EReal := zero + ∑ _e ∈ g.inE v, one

/-- max (degree, 1). -/
noncomputable def mdeg (v : Fin N) : EReal := max (deg g v) one

/-- The reciprocal 1 / max (degree, 1). -/
noncomputable def rdeg (v : Fin N) : EReal := Ideal.div one (mdeg g v)

/-- A row times a matrix. -/
noncomputable def lin {K M : ℕ} (a : Fin K → EReal) (W : Fin K → Fin M → EReal) (q : Fin M) : EReal :=
  ∑ k, a k * W k q

/-- One layer before the activation: the mean of the neighbours times Wl, plus the bias, plus the node times Wr. -/
noncomputable def conv {K M : ℕ} (y : Fin N → Fin K → EReal) (Wl : Fin K → Fin M → EReal) (b : Fin M → EReal)
    (Wr : Fin K → Fin M → EReal) (p : Fin N) (q : Fin M) : EReal :=
  (lin (fun k => Ideal.div (agg g y p k) (mdeg g p)) Wl q + b q) + lin (y p) Wr q

/-- The same layer with the aggregate scaled by the reciprocal and the bias added last. -/
noncomputable def convScaled {K M : ℕ} (y : Fin N → Fin K → EReal) (Wl : Fin K → Fin M → EReal) (b : Fin M → EReal)
    (Wr : Fin K → Fin M → EReal) (p : Fin N) (q : Fin M) : EReal :=
  (lin (fun k => agg g y p k * rdeg g p) Wl q + lin (y p) Wr q) + b q

theorem convScaled_eq {K M : ℕ} (y : Fin N → Fin K → EReal) (Wl : Fin K → Fin M → EReal) (b : Fin M → EReal)
    (Wr : Fin K → Fin M → EReal) (p : Fin N) (q : Fin M) : convScaled g y Wl b Wr p q = conv g y Wl b Wr p q := by
  unfold convScaled conv rdeg mdeg
  simp only [MeanScale.mul_recip_eq_div]
  exact add_right_comm _ _ _

/-- The head computed from the aggregate of the projected table, scaled afterwards, bias before the own term. -/
noncomputable def headProjected {K M : ℕ} (y : Fin N → Fin K → EReal) (Wl : Fin K → Fin M → EReal) (b : Fin M → EReal)
    (Wr : Fin K → Fin M → EReal) (p : Fin N) (c : Fin M) : EReal :=
  (agg g (fun v c => lin (y v) Wl c) p c * rdeg g p + b c) + lin (y p) Wr c

/-! ### Real entries -/

theorem isReal_zero' : IsReal zero := zero_eq ▸ isReal_zero
theorem isReal_one' : IsReal one := one_eq ▸ isReal_one

theorem isReal_agg {C : ℕ} (y : Fin N → Fin C → EReal) (hy : ∀ v k, IsReal (y v k)) (v : Fin N) (k : Fin C) :
    IsReal (agg g y v k) :=
  isReal_add isReal_zero' (isReal_sum _ _ fun e _ => hy _ _)

theorem isReal_deg (v : Fin N) : IsReal (deg g v) :=
  isReal_add isReal_zero' (isReal_sum _ _ fun _ _ => isReal_one')

theorem isReal_mdeg (v : Fin N) : IsReal (mdeg g v) := isReal_max (isReal_deg g v) isReal_one'

/-- The quotient of a real by max (c, 1) is real. -/
theorem isReal_div_max {a c : EReal} (ha : IsReal a) (hc : IsReal c) : IsReal (Ideal.div a (max c one)) := by
  have hm : IsReal (max c one) := isReal_max hc isReal_one'
  obtain ⟨x, rfl⟩ := ha
  obtain ⟨z, hz⟩ := hm
  have hz0 : z ≠ 0 := by
    intro h0
    have : max c one ≠ 0 := by rw [one_eq]; exact MeanScale.max_one_ne_zero c
    exact this (by rw [hz, h0, EReal.coe_zero])
  rw [hz, Ideal.div_coe hz0, ← EReal.coe_mul]
  exact isReal_coe _

theorem isReal_rdeg (v : Fin N) : IsReal (rdeg g v) := isReal_div_max isReal_one' (isReal_deg g v)

theorem isReal_lin {K M : ℕ} (a : Fin K → EReal) (W : Fin K → Fin M → EReal) (ha : ∀ k, IsReal (a k))
    (hW : ∀ k q, IsReal (W k q)) (q : Fin M) : IsReal (lin a W q) :=
  isReal_sum_univ _ fun k => isReal_mul (ha k) (hW k q)

theorem isReal_conv {K M : ℕ} (y : Fin N → Fin K → EReal) (Wl : Fin K → Fin M → EReal) (b : Fin M → EReal)
    (Wr : Fin K → Fin M → EReal) (hy : ∀ v k, IsReal (y v k)) (hWl : ∀ k q, IsReal (Wl k q)) (hb : ∀ q, IsReal (b q))
    (hWr : ∀ k q, IsReal (Wr k q)) (p : Fin N) (q : Fin M) : IsReal (conv g y Wl b Wr p q) :=
  isReal_add (isReal_add (isReal_lin _ _ (fun k => isReal_div_max (isReal_agg g y hy p k) (isReal_deg g p)) hWl q) (hb q))
    (isReal_lin _ _ (hy p) hWr q)

/-- AGGREGATE THE PROJECTED TABLE, THEN SCALE = TAKE THE MEAN, THEN PROJECT, for real entries. -/
theorem headProjected_eq {K M : ℕ} (y : Fin N → Fin K → EReal) (Wl : Fin K → Fin M → EReal) (b : Fin M → EReal)
    (Wr : Fin K → Fin M → EReal) (hy : ∀ v k, IsReal (y v k)) (hWl : ∀ k q, IsReal (Wl k q)) (p : Fin N) (c : Fin M) :
    headProjected g y Wl b Wr p c = conv g y Wl b Wr p c := by
  unfold headProjected conv
  refine congrArg (· + lin (y p) Wr c) (congrArg (· + b c) ?_)
  have hr : IsReal (rdeg g p) := isReal_rdeg g p
  have hR : ∀ k, Ideal.div (agg g y p k) (mdeg g p) = (∑ e ∈ g.inE p, y (g.src e) k) * rdeg g p := by
    intro k
    unfold agg rdeg mdeg
    rw [MeanScale.mul_recip_eq_div, zero_eq, zero_add]
  have hA : agg g (fun v c => lin (y v) Wl c) p c = ∑ e ∈ g.inE p, ∑ k, y (g.src e) k * Wl k c := by
    unfold agg lin
    rw [zero_eq, zero_add]
  have hL : ∀ k, (∑ e ∈ g.inE p, y (g.src e) k) * rdeg g p * Wl k c
      = ∑ e ∈ g.inE p, y (g.src e) k * Wl k c * rdeg g p := by
    intro k
    rw [sum_mul_of_isReal _ _ _ (fun e _ => hy _ _) hr,
      sum_mul_of_isReal _ _ _ (fun e _ => isReal_mul (hy _ _) hr) (hWl k c)]
    exact Finset.sum_congr rfl fun e _ => by rw [mul_assoc, mul_comm (rdeg g p), ← mul_assoc]
  rw [hA]
  show _ = ∑ k, Ideal.div (agg g y p k) (mdeg g p) * Wl k c
  simp only [hR, hL]
  conv_rhs => rw [Finset.sum_comm]
  rw [sum_mul_of_isReal _ _ _ (fun e _ => isReal_sum_univ _ fun k => isReal_mul (hy _ _) (hWl _ _)) hr]
  refine Finset.sum_congr rfl fun e _ => ?_
  exact sum_mul_of_isReal _ _ _ (fun k _ => isReal_mul (hy _ _) (hWl _ _)) hr

end Cert.Sage
-- ==== Proof.KernelBodies.lean ====
/-
  The four kernel bodies read at an entry of their block, on the extended reals.

  Each body works on a block of 4000 rows. Row p of the result reads row p of the row-blocked operands and all of the
  weight matrices: the first two are one graph-convolution layer with the neighbours' sum scaled by the reciprocal
  degree (the second adds a linear image of the input features after the rectifier), the third a plain product,
  the fourth two 64-column heads side by side, column c of the left head and column 64 + c of the right one.
-/
import proofs.«124056_j2044404433054_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«124056_j2044404433054_2_alg».proof.Proof.LibMatmulRowsByCols
import proofs.«124056_j2044404433054_2_alg».proof.Proof.LibColumnBroadcast
import proofs.«124056_j2044404433054_2_alg».proof.Proof.LibJoinColumns
import proofs.«124056_j2044404433054_2_alg».proof.Proof.LibMeanLayers

noncomputable section

open scoped BigOperators

namespace Cert.KernelIdeal.Body

open Cert.KernelIdeal Idealize.ShloMosaic Idealize.ShloMosaic.ValueIdx Cert.Sage

/-- The four facts a product's dimension record owes, for a record that contracts the left operand's columns with the
    right operand's rows. -/
macro "dot_facts" D:term : tactic => `(tactic| (
  refine ⟨?_, ?_, ?_, ?_⟩
  · intro j q
    unfold DotDims.lhsIdx
    rw [dif_neg (show ¬(0 : Fin 2) ∈ ($D).lhsBatch by decide), dif_pos (show (0 : Fin 2) ∈ ($D).lhsNonContracting by decide)]
    rfl
  · exact fun j q => ($D).lhsIdx_val_of_single rfl j q
  · exact fun j q => ($D).rhsIdx_val_of_single rfl j q
  · intro j q
    unfold DotDims.rhsIdx
    rw [dif_neg (show ¬(1 : Fin 2) ∈ ($D).rhsBatch by decide), dif_pos (show (1 : Fin 2) ∈ ($D).rhsNonContracting by decide)]
    rfl))

theorem mmA (l : FVec Ideal S4000x128 .f32) (r : FVec Ideal S128x256 .f32) (p : Fin 4000) (q : Fin 256) :
    matmul dot_S4000x128_S128x256_S4000x256_1_0_0_1_n_n (some .fp32) l r (constant (F := Ideal) S4000x256 .f32 0x00000000#32) (ix2 p q)
      = ∑ k : Fin 128, l (ix2 p k) * r (ix2 k q) := by
  have h : (∀ (j : S4000x256.Idx) (q : dot_S4000x128_S128x256_S4000x256_1_0_0_1_n_n.contr.Idx), (dot_S4000x128_S128x256_S4000x256_1_0_0_1_n_n.lhsIdx j q 0).val = (j 0).val)
      ∧ (∀ (j : S4000x256.Idx) (q : dot_S4000x128_S128x256_S4000x256_1_0_0_1_n_n.contr.Idx), (dot_S4000x128_S128x256_S4000x256_1_0_0_1_n_n.lhsIdx j q 1).val = (q ⟨0, by decide⟩).val)
      ∧ (∀ (j : S4000x256.Idx) (q : dot_S4000x128_S128x256_S4000x256_1_0_0_1_n_n.contr.Idx), (dot_S4000x128_S128x256_S4000x256_1_0_0_1_n_n.rhsIdx j q 0).val = (q ⟨0, by decide⟩).val)
      ∧ (∀ (j : S4000x256.Idx) (q : dot_S4000x128_S128x256_S4000x256_1_0_0_1_n_n.contr.Idx), (dot_S4000x128_S128x256_S4000x256_1_0_0_1_n_n.rhsIdx j q 1).val = (j 1).val) := by
    dot_facts dot_S4000x128_S128x256_S4000x256_1_0_0_1_n_n
  exact MatmulRowsByCols.matmul_zero_apply dot_S4000x128_S128x256_S4000x256_1_0_0_1_n_n rfl rfl h.1 h.2.1 h.2.2.1 h.2.2.2 _ l r p q

theorem mmB (l : FVec Ideal S4000x256 .f32) (r : FVec Ideal S256x256 .f32) (p : Fin 4000) (q : Fin 256) :
    matmul dot_S4000x256_S256x256_S4000x256_1_0_0_1_n_n (some .fp32) l r (constant (F := Ideal) S4000x256 .f32 0x00000000#32) (ix2 p q)
      = ∑ k : Fin 256, l (ix2 p k) * r (ix2 k q) := by
  have h : (∀ (j : S4000x256.Idx) (q : dot_S4000x256_S256x256_S4000x256_1_0_0_1_n_n.contr.Idx), (dot_S4000x256_S256x256_S4000x256_1_0_0_1_n_n.lhsIdx j q 0).val = (j 0).val)
      ∧ (∀ (j : S4000x256.Idx) (q : dot_S4000x256_S256x256_S4000x256_1_0_0_1_n_n.contr.Idx), (dot_S4000x256_S256x256_S4000x256_1_0_0_1_n_n.lhsIdx j q 1).val = (q ⟨0, by decide⟩).val)
      ∧ (∀ (j : S4000x256.Idx) (q : dot_S4000x256_S256x256_S4000x256_1_0_0_1_n_n.contr.Idx), (dot_S4000x256_S256x256_S4000x256_1_0_0_1_n_n.rhsIdx j q 0).val = (q ⟨0, by decide⟩).val)
      ∧ (∀ (j : S4000x256.Idx) (q : dot_S4000x256_S256x256_S4000x256_1_0_0_1_n_n.contr.Idx), (dot_S4000x256_S256x256_S4000x256_1_0_0_1_n_n.rhsIdx j q 1).val = (j 1).val) := by
    dot_facts dot_S4000x256_S256x256_S4000x256_1_0_0_1_n_n
  exact MatmulRowsByCols.matmul_zero_apply dot_S4000x256_S256x256_S4000x256_1_0_0_1_n_n rfl rfl h.1 h.2.1 h.2.2.1 h.2.2.2 _ l r p q

theorem mmC (l : FVec Ideal S4000x256 .f32) (r : FVec Ideal S256x128 .f32) (p : Fin 4000) (q : Fin 128) :
    matmul dot_S4000x256_S256x128_S4000x128_1_0_0_1_n_n (some .fp32) l r (constant (F := Ideal) S4000x128 .f32 0x00000000#32) (ix2 p q)
      = ∑ k : Fin 256, l (ix2 p k) * r (ix2 k q) := by
  have h : (∀ (j : S4000x128.Idx) (q : dot_S4000x256_S256x128_S4000x128_1_0_0_1_n_n.contr.Idx), (dot_S4000x256_S256x128_S4000x128_1_0_0_1_n_n.lhsIdx j q 0).val = (j 0).val)
      ∧ (∀ (j : S4000x128.Idx) (q : dot_S4000x256_S256x128_S4000x128_1_0_0_1_n_n.contr.Idx), (dot_S4000x256_S256x128_S4000x128_1_0_0_1_n_n.lhsIdx j q 1).val = (q ⟨0, by decide⟩).val)
      ∧ (∀ (j : S4000x128.Idx) (q : dot_S4000x256_S256x128_S4000x128_1_0_0_1_n_n.contr.Idx), (dot_S4000x256_S256x128_S4000x128_1_0_0_1_n_n.rhsIdx j q 0).val = (q ⟨0, by decide⟩).val)
      ∧ (∀ (j : S4000x128.Idx) (q : dot_S4000x256_S256x128_S4000x128_1_0_0_1_n_n.contr.Idx), (dot_S4000x256_S256x128_S4000x128_1_0_0_1_n_n.rhsIdx j q 1).val = (j 1).val) := by
    dot_facts dot_S4000x256_S256x128_S4000x128_1_0_0_1_n_n
  exact MatmulRowsByCols.matmul_zero_apply dot_S4000x256_S256x128_S4000x128_1_0_0_1_n_n rfl rfl h.1 h.2.1 h.2.2.1 h.2.2.2 _ l r p q

theorem mmD (l : FVec Ideal S4000x256 .f32) (r : FVec Ideal S256x64 .f32) (p : Fin 4000) (q : Fin 64) :
    matmul dot_S4000x256_S256x64_S4000x64_1_0_0_1_n_n (some .fp32) l r (constant (F := Ideal) S4000x64 .f32 0x00000000#32) (ix2 p q)
      = ∑ k : Fin 256, l (ix2 p k) * r (ix2 k q) := by
  have h : (∀ (j : S4000x64.Idx) (q : dot_S4000x256_S256x64_S4000x64_1_0_0_1_n_n.contr.Idx), (dot_S4000x256_S256x64_S4000x64_1_0_0_1_n_n.lhsIdx j q 0).val = (j 0).val)
      ∧ (∀ (j : S4000x64.Idx) (q : dot_S4000x256_S256x64_S4000x64_1_0_0_1_n_n.contr.Idx), (dot_S4000x256_S256x64_S4000x64_1_0_0_1_n_n.lhsIdx j q 1).val = (q ⟨0, by decide⟩).val)
      ∧ (∀ (j : S4000x64.Idx) (q : dot_S4000x256_S256x64_S4000x64_1_0_0_1_n_n.contr.Idx), (dot_S4000x256_S256x64_S4000x64_1_0_0_1_n_n.rhsIdx j q 0).val = (q ⟨0, by decide⟩).val)
      ∧ (∀ (j : S4000x64.Idx) (q : dot_S4000x256_S256x64_S4000x64_1_0_0_1_n_n.contr.Idx), (dot_S4000x256_S256x64_S4000x64_1_0_0_1_n_n.rhsIdx j q 1).val = (j 1).val) := by
    dot_facts dot_S4000x256_S256x64_S4000x64_1_0_0_1_n_n
  exact MatmulRowsByCols.matmul_zero_apply dot_S4000x256_S256x64_S4000x64_1_0_0_1_n_n rfl rfl h.1 h.2.1 h.2.2.1 h.2.2.2 _ l r p q

/-- Layer 1 on a block. -/
theorem pay0_apply (v0 : Vec Ideal S4000x128 .f32) (v2 : Vec Ideal S4000x1 .f32) (v6 : Vec Ideal S128x256 .f32)
    (v8 : Vec Ideal S4000x128 .f32) (v9 : Vec Ideal S128x256 .f32) (v12 : Vec Ideal S1x256 .f32) (p : Fin 4000) (q : Fin 256) :
    Gen.k0_pay1 (F := Ideal) v0 v2 v6 v8 v9 v12 (ix2 p q)
      = max ((∑ k : Fin 128, (v0 (ix2 p k) * v2 (ix2 p (0 : Fin 1))) * v6 (ix2 k q) + ∑ k : Fin 128, v8 (ix2 p k) * v9 (ix2 k q))
          + v12 (ix2 (0 : Fin 1) q)) zero := by
  unfold Gen.k0_pay1
  simp only [shapeCast_self]
  show max ((matmul (F := Ideal) _ _ (mulf (F := Ideal) v0 (broadcastTo S4000x128 v2 _)) v6 _ (ix2 p q) + matmul (F := Ideal) _ _ v8 v9 _ (ix2 p q))
      + broadcastTo S4000x256 v12 _ (ix2 p q)) zero = _
  rw [mmA, mmA, broadcastTo_1b_ab_apply]
  refine congrArg (fun s => max ((s + _) + _) zero) (Finset.sum_congr rfl fun k _ => ?_)
  show (v0 (ix2 p k) * broadcastTo S4000x128 v2 _ (ix2 p k)) * _ = _
  rw [ColumnBroadcast.broadcastTo_a1_ab_apply]

/-- Layer 2 with its residual on a block. -/
theorem pay1_apply (v0 : Vec Ideal S4000x256 .f32) (v2 : Vec Ideal S4000x1 .f32) (v6 : Vec Ideal S256x256 .f32)
    (v8 : Vec Ideal S4000x256 .f32) (v10 : Vec Ideal S256x256 .f32) (v13 : Vec Ideal S1x256 .f32)
    (v17 : Vec Ideal S4000x128 .f32) (v18 : Vec Ideal S128x256 .f32) (v20 : Vec Ideal S1x256 .f32) (p : Fin 4000) (q : Fin 256) :
    Gen.k1_pay1 (F := Ideal) v0 v2 v6 v8 v10 v13 v17 v18 v20 (ix2 p q)
      = max ((∑ k : Fin 256, (v0 (ix2 p k) * v2 (ix2 p (0 : Fin 1))) * v6 (ix2 k q) + ∑ k : Fin 256, v8 (ix2 p k) * v10 (ix2 k q))
          + v13 (ix2 (0 : Fin 1) q)) zero
        + (∑ k : Fin 128, v17 (ix2 p k) * v18 (ix2 k q) + v20 (ix2 (0 : Fin 1) q)) := by
  unfold Gen.k1_pay1
  simp only [shapeCast_self]
  show max ((matmul (F := Ideal) _ _ (mulf (F := Ideal) v0 (broadcastTo S4000x256 v2 _)) v6 _ (ix2 p q) + matmul (F := Ideal) _ _ v8 v10 _ (ix2 p q))
      + broadcastTo S4000x256 v13 _ (ix2 p q)) zero
      + (matmul (F := Ideal) _ _ v17 v18 _ (ix2 p q) + broadcastTo S4000x256 v20 _ (ix2 p q)) = _
  rw [mmB, mmB, mmA, broadcastTo_1b_ab_apply, broadcastTo_1b_ab_apply]
  refine congrArg (fun s => max ((s + _) + _) zero + _) (Finset.sum_congr rfl fun k _ => ?_)
  show (v0 (ix2 p k) * broadcastTo S4000x256 v2 _ (ix2 p k)) * _ = _
  rw [ColumnBroadcast.broadcastTo_a1_ab_apply]

/-- The projection on a block. -/
theorem pay2_apply (v0 : Vec Ideal S4000x256 .f32) (v2 : Vec Ideal S256x128 .f32) (p : Fin 4000) (q : Fin 128) :
    Gen.k2_pay1 (F := Ideal) v0 v2 (ix2 p q) = ∑ k : Fin 256, v0 (ix2 p k) * v2 (ix2 k q) := by
  unfold Gen.k2_pay1
  simp only [shapeCast_self]
  exact mmC v0 v2 p q

/-- The two heads on a block: a column of the left head. -/
theorem pay3_left (v0 : Vec Ideal S4000x128 .f32) (v2 : Vec Ideal S4000x1 .f32) (v8 : Vec Ideal S1x64 .f32)
    (v12 : Vec Ideal S4000x256 .f32) (v14 : Vec Ideal S256x64 .f32) (v17 : Vec Ideal S1x64 .f32)
    (v21 : Vec Ideal S4000x256 .f32) (v23 : Vec Ideal S256x64 .f32) (p : Fin 4000) (c : Fin 64) (c' : Fin 128) (hc : c'.val = c.val) :
    Gen.k3_pay1 (F := Ideal) v0 v2 v8 v12 v14 v17 v21 v23 (ix2 p c')
      = ((v0 (ix2 p c') * v2 (ix2 p (0 : Fin 1))) + v8 (ix2 (0 : Fin 1) c)) + ∑ k : Fin 256, v12 (ix2 p k) * v14 (ix2 k c) := by
  unfold Gen.k3_pay1
  simp only [shapeCast_self]
  refine (JoinColumns.left_apply _ _ _ p c c' hc).trans ?_
  show (extractStridedSlice S4000x64 ![0, 0] (mulf (F := Ideal) v0 (broadcastTo S4000x128 v2 _)) _ (ix2 p c)
      + broadcastTo S4000x64 v8 _ (ix2 p c)) + matmul (F := Ideal) _ _ v12 v14 _ (ix2 p c) = _
  rw [slice2_axis1_apply 0 _ _ p c c' (by omega), mmD, broadcastTo_1b_ab_apply]
  show (v0 (ix2 p c') * broadcastTo S4000x128 v2 _ (ix2 p c')) + _ + _ = _
  rw [ColumnBroadcast.broadcastTo_a1_ab_apply]

/-- The two heads on a block: a column of the right head. -/
theorem pay3_right (v0 : Vec Ideal S4000x128 .f32) (v2 : Vec Ideal S4000x1 .f32) (v8 : Vec Ideal S1x64 .f32)
    (v12 : Vec Ideal S4000x256 .f32) (v14 : Vec Ideal S256x64 .f32) (v17 : Vec Ideal S1x64 .f32)
    (v21 : Vec Ideal S4000x256 .f32) (v23 : Vec Ideal S256x64 .f32) (p : Fin 4000) (c : Fin 64) (c' : Fin 128) (hc : c'.val = 64 + c.val) :
    Gen.k3_pay1 (F := Ideal) v0 v2 v8 v12 v14 v17 v21 v23 (ix2 p c')
      = ((v0 (ix2 p c') * v2 (ix2 p (0 : Fin 1))) + v17 (ix2 (0 : Fin 1) c)) + ∑ k : Fin 256, v21 (ix2 p k) * v23 (ix2 k c) := by
  unfold Gen.k3_pay1
  simp only [shapeCast_self]
  refine (JoinColumns.right_apply _ _ _ p c c' hc).trans ?_
  show (extractStridedSlice S4000x64 ![0, 64] (mulf (F := Ideal) v0 (broadcastTo S4000x128 v2 _)) _ (ix2 p c)
      + broadcastTo S4000x64 v17 _ (ix2 p c)) + matmul (F := Ideal) _ _ v21 v23 _ (ix2 p c) = _
  rw [slice2_axis1_apply 64 _ _ p c c' (by omega), mmD, broadcastTo_1b_ab_apply]
  show (v0 (ix2 p c') * broadcastTo S4000x128 v2 _ (ix2 p c')) + _ + _ = _
  rw [ColumnBroadcast.broadcastTo_a1_ab_apply]

end Cert.KernelIdeal.Body

end
-- ==== Proof.Region0.lean ====
/-
  The first layer's kernel over its five blocks of 4000 rows: the array it leaves, entry by entry.
-/
import proofs.«124056_j2044404433054_2_alg».proof.Proof.Gen.KernelIdeal.Frame
import proofs.«124056_j2044404433054_2_alg».proof.Proof.KernelBodies
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.ValueIdx Idealize.ShloMosaic.TcCoe Idealize.SL.Sem Cert.Sage
open Idealize.ShloMosaic.Pipeline (Dat Cfg Window)

theorem hz : (![0, 0] : Fin 2 → Nat) = fun _ => 0 := funext fun a => by fin_cases a <;> rfl

/-- Entry (P, q) of the layer as a function of the whole arrays: the neighbours' sum scaled by the reciprocal degree
    times Wl, the node's row times Wr, the bias, the rectifier. -/
def G (s : S20000x128.Idx → EReal) (d : S20000x1.Idx → EReal) (x : S20000x128.Idx → EReal) (wl wr : S128x256.Idx → EReal)
    (b : S1x256.Idx → EReal) : S20000x256.Idx → EReal := fun i =>
  max ((∑ k : Fin 128, (s (ix2 (⟨(i 0).val, (i 0).isLt⟩ : Fin 20000) k) * d (ix2 (⟨(i 0).val, (i 0).isLt⟩ : Fin 20000) (0 : Fin 1)))
          * wl (ix2 k (⟨(i 1).val, (i 1).isLt⟩ : Fin 256))
        + ∑ k : Fin 128, x (ix2 (⟨(i 0).val, (i 0).isLt⟩ : Fin 20000) k) * wr (ix2 k (⟨(i 1).val, (i 1).isLt⟩ : Fin 256)))
      + b (ix2 (0 : Fin 1) (⟨(i 1).val, (i 1).isLt⟩ : Fin 256))) zero

/-- The block's entry (p, q) is G at the entry (P, Q) of the arrays whose rows and columns the block's operands read. -/
theorem pay_eq_G (s : S20000x128.Idx → EReal) (d : S20000x1.Idx → EReal) (x : S20000x128.Idx → EReal) (wl wr : S128x256.Idx → EReal)
    (b : S1x256.Idx → EReal) (v0 : Vec Ideal S4000x128 .f32) (v2 : Vec Ideal S4000x1 .f32) (v6 : Vec Ideal S128x256 .f32)
    (v8 : Vec Ideal S4000x128 .f32) (v9 : Vec Ideal S128x256 .f32) (v12 : Vec Ideal S1x256 .f32)
    (p : Fin 4000) (q : Fin 256) (i : S20000x256.Idx)
    (h0 : ∀ k : Fin 128, v0 (ix2 p k) = s (ix2 (⟨(i 0).val, (i 0).isLt⟩ : Fin 20000) k))
    (h1 : v2 (ix2 p (0 : Fin 1)) = d (ix2 (⟨(i 0).val, (i 0).isLt⟩ : Fin 20000) (0 : Fin 1)))
    (h2 : ∀ k : Fin 128, v8 (ix2 p k) = x (ix2 (⟨(i 0).val, (i 0).isLt⟩ : Fin 20000) k))
    (h3 : ∀ k : Fin 128, v6 (ix2 k q) = wl (ix2 k (⟨(i 1).val, (i 1).isLt⟩ : Fin 256)))
    (h4 : ∀ k : Fin 128, v9 (ix2 k q) = wr (ix2 k (⟨(i 1).val, (i 1).isLt⟩ : Fin 256)))
    (h5 : v12 (ix2 (0 : Fin 1) q) = b (ix2 (0 : Fin 1) (⟨(i 1).val, (i 1).isLt⟩ : Fin 256))) :
    k0_pay1 (F := Ideal) v0 v2 v6 v8 v9 v12 (ix2 p q) = G s d x wl wr b i := by
  rw [Body.pay0_apply]
  simp only [h0, h1, h2, h3, h4, h5]
  rfl

/-- The printed index maps over the grid: a row-blocked window is at block (t, 0), a weight window at block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

variable (V : (c : Dev nD) → (b : Ref sig .tc) → Buf (Elt Ideal) ((c : Thread nD τ).loc b))

set_option maxHeartbeats 4000000 in
/-- WHAT POINT t WRITES BACK is block t of G of the arrays as the region finds them. -/
theorem flushed_eq (c : Dev nD) (t : Fin cfg0.N) :
    (dat0 (F := Ideal) V c).flushed 6 t = ((cfg0.win 6).blk t).view.read (Elt Ideal)
      (G (V c main_v16) (V c main_v12) (V c main_arg0) (V c main_arg2) (V c main_arg4) (V c main_v17)) := by
  show (cfg0.win 6).cut (grid0.coords t) ((dat0 (F := Ideal) V c).after 6 t) = _
  rw [after0_6]
  unfold out0_6
  rw [View.canon_unit_zero hz]
  simp only [View.ld_unit_zero (S := S4000x128) hz, View.ld_unit_zero (S := S4000x1) hz, View.ld_unit_zero (S := S128x256) hz, View.ld_unit_zero (S := S1x256) hz]
  obtain ⟨e00, e01, e10, e11, e20, e21, e30, e31, e40, e41, e50, e51, e60, e61⟩ := idx_facts t
  funext j
  obtain ⟨p, q, rfl⟩ : ∃ (p : Fin 4000) (q : Fin 256), j = ix2 p q := ⟨j 0, j 1, eq_ix2 j⟩
  show k0_pay1 (F := Ideal) (iblk0 V c 0 t) (iblk0 V c 1 t) (iblk0 V c 3 t) (iblk0 V c 2 t) (iblk0 V c 4 t) (iblk0 V c 5 t) (ix2 p q)
    = G (V c main_v16) (V c main_v12) (V c main_arg0) (V c main_arg2) (V c main_arg4) (V c main_v17) (((cfg0.win 6).blk t).view.emb (ix2 p q))
  have r0 : ∀ k : Fin 128, iblk0 V c 0 t (ix2 p k) = V c main_v16 (ix2 (⟨(((cfg0.win 6).blk t).view.emb (ix2 p q) 0).val, (((cfg0.win 6).blk t).view.emb (ix2 p q) 0).isLt⟩ : Fin 20000) k) := by
    intro k
    show V c main_v16 (((cfg0.win 0).blk t).view.emb (ix2 p k)) = _
    refine congrArg (V c main_v16) (funext fun a => Fin.ext ?_)
    match a with
    | ⟨0, _⟩ => show win0_0.index t (0 : Fin 2) * 4000 + 1 * p.val = win0_6.index t (0 : Fin 2) * 4000 + 1 * p.val; omega
    | ⟨1, _⟩ => show win0_0.index t (1 : Fin 2) * 128 + 1 * k.val = k.val; omega
  have r1 : iblk0 V c 1 t (ix2 p (0 : Fin 1)) = V c main_v12 (ix2 (⟨(((cfg0.win 6).blk t).view.emb (ix2 p q) 0).val, (((cfg0.win 6).blk t).view.emb (ix2 p q) 0).isLt⟩ : Fin 20000) (0 : Fin 1)) := by
    show V c main_v12 (((cfg0.win 1).blk t).view.emb (ix2 p (0 : Fin 1))) = _
    refine congrArg (V c main_v12) (funext fun a => Fin.ext ?_)
    match a with
    | ⟨0, _⟩ => show win0_1.index t (0 : Fin 2) * 4000 + 1 * p.val = win0_6.index t (0 : Fin 2) * 4000 + 1 * p.val; omega
    | ⟨1, _⟩ => show win0_1.index t (1 : Fin 2) * 1 + 1 * 0 = 0; omega
  have r2 : ∀ k : Fin 128, iblk0 V c 2 t (ix2 p k) = V c main_arg0 (ix2 (⟨(((cfg0.win 6).blk t).view.emb (ix2 p q) 0).val, (((cfg0.win 6).blk t).view.emb (ix2 p q) 0).isLt⟩ : Fin 20000) k) := by
    intro k
    show V c main_arg0 (((cfg0.win 2).blk t).view.emb (ix2 p k)) = _
    refine congrArg (V c main_arg0) (funext fun a => Fin.ext ?_)
    match a with
    | ⟨0, _⟩ => show win0_2.index t (0 : Fin 2) * 4000 + 1 * p.val = win0_6.index t (0 : Fin 2) * 4000 + 1 * p.val; omega
    | ⟨1, _⟩ => show win0_2.index t (1 : Fin 2) * 128 + 1 * k.val = k.val; omega
  have r3 : ∀ k : Fin 128, iblk0 V c 3 t (ix2 k q) = V c main_arg2 (ix2 k (⟨(((cfg0.win 6).blk t).view.emb (ix2 p q) 1).val, (((cfg0.win 6).blk t).view.emb (ix2 p q) 1).isLt⟩ : Fin 256)) := by
    intro k
    show V c main_arg2 (((cfg0.win 3).blk t).view.emb (ix2 k q)) = _
    refine congrArg (V c main_arg2) (funext fun a => Fin.ext ?_)
    match a with
    | ⟨0, _⟩ => show win0_3.index t (0 : Fin 2) * 128 + 1 * k.val = k.val; omega
    | ⟨1, _⟩ => show win0_3.index t (1 : Fin 2) * 256 + 1 * (q).val = win0_6.index t (1 : Fin 2) * 256 + 1 * q.val; omega
  have r4 : ∀ k : Fin 128, iblk0 V c 4 t (ix2 k q) = V c main_arg4 (ix2 k (⟨(((cfg0.win 6).blk t).view.emb (ix2 p q) 1).val, (((cfg0.win 6).blk t).view.emb (ix2 p q) 1).isLt⟩ : Fin 256)) := by
    intro k
    show V c main_arg4 (((cfg0.win 4).blk t).view.emb (ix2 k q)) = _
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 256 + 1 * (q).val = win0_6.index t (1 : Fin 2) * 256 + 1 * q.val; omega
  have r5 : iblk0 V c 5 t (ix2 (0 : Fin 1) q) = V c main_v17 (ix2 (0 : Fin 1) (⟨(((cfg0.win 6).blk t).view.emb (ix2 p q) 1).val, (((cfg0.win 6).blk t).view.emb (ix2 p q) 1).isLt⟩ : Fin 256)) := by
    show V c main_v17 (((cfg0.win 5).blk t).view.emb (ix2 (0 : Fin 1) q)) = _
    refine congrArg (V c main_v17) (funext fun a => Fin.ext ?_)
    match a with
    | ⟨0, _⟩ => show win0_5.index t (0 : Fin 2) * 1 + 1 * 0 = 0; omega
    | ⟨1, _⟩ => show win0_5.index t (1 : Fin 2) * 256 + 1 * (q).val = win0_6.index t (1 : Fin 2) * 256 + 1 * q.val; omega
  exact pay_eq_G (V c main_v16) (V c main_v12) (V c main_arg0) (V c main_arg2) (V c main_arg4) (V c main_v17)
    (iblk0 V c 0 t) (iblk0 V c 1 t) (iblk0 V c 3 t) (iblk0 V c 2 t) (iblk0 V c 4 t) (iblk0 V c 5 t) p q
    (((cfg0.win 6).blk t).view.emb (ix2 p q)) r0 r1 r2 r3 r4 r5

/-- An index of the array is in point t's block iff each coordinate is in the block's range on its axis. -/
theorem mem_blk (t : Fin cfg0.N) (i : S20000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v18).slice (win0_6.rect t)).set ↔ _
  rw [View.set_slice_whole, Rect.mem_set_unit]
  exact Iff.rfl

/-- Every row of the array is in the block of the point row / 4000. -/
theorem cover (i : S20000x256.Idx) :
    ∃ t : Fin cfg0.N, (cfg0.win 6).flush t = true ∧ i ∈ ((cfg0.win 6).blk t).view.set := by
  have hi0 : (i 0).val < 20000 := (i 0).isLt
  have hi1 : (i 1).val < 256 := (i 1).isLt
  have hN : grid0.N = 5 := N_0
  have ht : (i 0).val / 4000 < cfg0.N := by show _ < grid0.N; rw [hN]; omega
  obtain ⟨e00, e01, e10, e11, e20, e21, e30, e31, e40, e41, e50, e51, e60, e61⟩ := idx_facts ⟨(i 0).val / 4000, ht⟩
  refine ⟨⟨(i 0).val / 4000, ht⟩, flush0_6 _, ?_⟩
  rw [mem_blk]
  intro a
  match a with
  | ⟨0, _⟩ =>
    show win0_6.index ⟨(i 0).val / 4000, ht⟩ (0 : Fin 2) * 4000 ≤ (i 0).val ∧ (i 0).val < win0_6.index ⟨(i 0).val / 4000, ht⟩ (0 : Fin 2) * 4000 + 4000
    rw [e60]
    show (i 0).val / 4000 * 4000 ≤ (i 0).val ∧ (i 0).val < (i 0).val / 4000 * 4000 + 4000
    omega
  | ⟨1, _⟩ =>
    show win0_6.index ⟨(i 0).val / 4000, ht⟩ (1 : Fin 2) * 256 ≤ (i 1).val ∧ (i 1).val < win0_6.index ⟨(i 0).val / 4000, ht⟩ (1 : Fin 2) * 256 + 256
    omega

/-- THE ARRAY the region leaves: G of the arrays it found. -/
theorem final (c : Dev nD) : (dat0 (F := Ideal) V c).arrAt 6 cfg0.N
    = G (V c main_v16) (V c main_v12) (V c main_arg0) (V c main_arg2) (V c main_arg4) (V c main_v17) :=
  (dat0 (F := Ideal) V c).arrAt_eq_of_cover 6 _ (fun t _ => flushed_eq V c t) cover

end Cert.KernelIdeal.Region0

end
-- ==== Proof.Region1.lean ====
/-
  The second layer's kernel (with its linear image of the input features) over its five blocks of 4000 rows: the array it leaves, entry by entry.
-/
import proofs.«124056_j2044404433054_2_alg».proof.Proof.Gen.KernelIdeal.Frame
import proofs.«124056_j2044404433054_2_alg».proof.Proof.KernelBodies
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.ValueIdx Idealize.ShloMosaic.TcCoe Idealize.SL.Sem Cert.Sage
open Idealize.ShloMosaic.Pipeline (Dat Cfg Window)

theorem hz : (![0, 0] : Fin 2 → Nat) = fun _ => 0 := funext fun a => by fin_cases a <;> rfl

/-- Entry (P, q) of the layer as a function of the whole arrays: the rectified layer of the hidden features plus a linear
    image of the input features. -/
def G (s : S20000x256.Idx → EReal) (d : S20000x1.Idx → EReal) (h : S20000x256.Idx → EReal) (x : S20000x128.Idx → EReal)
    (wl wr : S256x256.Idx → EReal) (wres : S128x256.Idx → EReal) (b bres : S1x256.Idx → EReal) : S20000x256.Idx → EReal := fun i =>
  max ((∑ k : Fin 256, (s (ix2 (⟨(i 0).val, (i 0).isLt⟩ : Fin 20000) k) * d (ix2 (⟨(i 0).val, (i 0).isLt⟩ : Fin 20000) (0 : Fin 1))) * wl (ix2 k (⟨(i 1).val, (i 1).isLt⟩ : Fin 256))
        + ∑ k : Fin 256, h (ix2 (⟨(i 0).val, (i 0).isLt⟩ : Fin 20000) k) * wr (ix2 k (⟨(i 1).val, (i 1).isLt⟩ : Fin 256)))
      + b (ix2 (0 : Fin 1) (⟨(i 1).val, (i 1).isLt⟩ : Fin 256))) zero
    + (∑ k : Fin 128, x (ix2 (⟨(i 0).val, (i 0).isLt⟩ : Fin 20000) k) * wres (ix2 k (⟨(i 1).val, (i 1).isLt⟩ : Fin 256)) + bres (ix2 (0 : Fin 1) (⟨(i 1).val, (i 1).isLt⟩ : Fin 256)))

/-- The block's entry (p, q) is G at the entry (P, Q) of the arrays whose rows and columns the block's operands read. -/
theorem pay_eq_G (s : S20000x256.Idx → EReal) (d : S20000x1.Idx → EReal) (h : S20000x256.Idx → EReal) (x : S20000x128.Idx → EReal)
    (wl wr : S256x256.Idx → EReal) (wres : S128x256.Idx → EReal) (b bres : S1x256.Idx → EReal)
    (v0 : Vec Ideal S4000x256 .f32) (v2 : Vec Ideal S4000x1 .f32) (v6 : Vec Ideal S256x256 .f32)
    (v8 : Vec Ideal S4000x256 .f32) (v10 : Vec Ideal S256x256 .f32) (v13 : Vec Ideal S1x256 .f32)
    (v17 : Vec Ideal S4000x128 .f32) (v18 : Vec Ideal S128x256 .f32) (v20 : Vec Ideal S1x256 .f32)
    (p : Fin 4000) (q : Fin 256) (i : S20000x256.Idx)
    (h0 : ∀ k : Fin 256, v0 (ix2 p k) = s (ix2 (⟨(i 0).val, (i 0).isLt⟩ : Fin 20000) k))
    (h1 : v2 (ix2 p (0 : Fin 1)) = d (ix2 (⟨(i 0).val, (i 0).isLt⟩ : Fin 20000) (0 : Fin 1)))
    (h2 : ∀ k : Fin 256, v8 (ix2 p k) = h (ix2 (⟨(i 0).val, (i 0).isLt⟩ : Fin 20000) k))
    (h3 : ∀ k : Fin 128, v17 (ix2 p k) = x (ix2 (⟨(i 0).val, (i 0).isLt⟩ : Fin 20000) k))
    (h4 : ∀ k : Fin 256, v6 (ix2 k q) = wl (ix2 k (⟨(i 1).val, (i 1).isLt⟩ : Fin 256)))
    (h5 : ∀ k : Fin 256, v10 (ix2 k q) = wr (ix2 k (⟨(i 1).val, (i 1).isLt⟩ : Fin 256)))
    (h6 : ∀ k : Fin 128, v18 (ix2 k q) = wres (ix2 k (⟨(i 1).val, (i 1).isLt⟩ : Fin 256)))
    (h7 : v13 (ix2 (0 : Fin 1) q) = b (ix2 (0 : Fin 1) (⟨(i 1).val, (i 1).isLt⟩ : Fin 256)))
    (h8 : v20 (ix2 (0 : Fin 1) q) = bres (ix2 (0 : Fin 1) (⟨(i 1).val, (i 1).isLt⟩ : Fin 256))) :
    k1_pay1 (F := Ideal) v0 v2 v6 v8 v10 v13 v17 v18 v20 (ix2 p q) = G s d h x wl wr wres b bres i := by
  rw [Body.pay1_apply]
  simp only [h0, h1, h2, h3, h4, h5, h6, h7, h8]
  rfl

/-- The printed index maps over the grid: a row-blocked window is at block (t, 0), a weight window at block (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

variable (V : (c : Dev nD) → (b : Ref sig .tc) → Buf (Elt Ideal) ((c : Thread nD τ).loc b))

set_option maxHeartbeats 4000000 in
/-- WHAT POINT t WRITES BACK is block t of G of the arrays as the region finds them. -/
theorem flushed_eq (c : Dev nD) (t : Fin cfg1.N) :
    (dat1 (F := Ideal) V c).flushed 9 t = ((cfg1.win 9).blk t).view.read (Elt Ideal)
      (G (V c main_v22) (V c main_v12) (V c main_v18) (V c main_arg0) (V c main_arg5) (V c main_arg7) (V c main_arg8) (V c main_v23) (V c main_v24)) := by
  show (cfg1.win 9).cut (grid1.coords t) ((dat1 (F := Ideal) V c).after 9 t) = _
  rw [after1_9]
  unfold out1_9
  rw [View.canon_unit_zero hz]
  simp only [View.ld_unit_zero (S := S4000x256) hz, View.ld_unit_zero (S := S4000x1) hz, View.ld_unit_zero (S := S4000x128) hz, View.ld_unit_zero (S := S256x256) hz, View.ld_unit_zero (S := S128x256) hz, View.ld_unit_zero (S := S1x256) hz]
  obtain ⟨e00, e01, e10, e11, e20, e21, e30, e31, e40, e41, e50, e51, e60, e61, e70, e71, e80, e81, e90, e91⟩ := idx_facts t
  funext j
  obtain ⟨p, q, rfl⟩ : ∃ (p : Fin 4000) (q : Fin 256), j = ix2 p q := ⟨j 0, j 1, eq_ix2 j⟩
  show k1_pay1 (F := Ideal) (iblk1 V c 0 t) (iblk1 V c 1 t) (iblk1 V c 4 t) (iblk1 V c 2 t) (iblk1 V c 5 t) (iblk1 V c 7 t) (iblk1 V c 3 t) (iblk1 V c 6 t) (iblk1 V c 8 t) (ix2 p q)
    = G (V c main_v22) (V c main_v12) (V c main_v18) (V c main_arg0) (V c main_arg5) (V c main_arg7) (V c main_arg8) (V c main_v23) (V c main_v24) (((cfg1.win 9).blk t).view.emb (ix2 p q))
  have r0 : ∀ k : Fin 256, iblk1 V c 0 t (ix2 p k) = V c main_v22 (ix2 (⟨(((cfg1.win 9).blk t).view.emb (ix2 p q) 0).val, (((cfg1.win 9).blk t).view.emb (ix2 p q) 0).isLt⟩ : Fin 20000) k) := by
    intro k
    show V c main_v22 (((cfg1.win 0).blk t).view.emb (ix2 p k)) = _
    refine congrArg (V c main_v22) (funext fun a => Fin.ext ?_)
    match a with
    | ⟨0, _⟩ => show win1_0.index t (0 : Fin 2) * 4000 + 1 * p.val = win1_9.index t (0 : Fin 2) * 4000 + 1 * p.val; omega
    | ⟨1, _⟩ => show win1_0.index t (1 : Fin 2) * 256 + 1 * k.val = k.val; omega
  have r1 : iblk1 V c 1 t (ix2 p (0 : Fin 1)) = V c main_v12 (ix2 (⟨(((cfg1.win 9).blk t).view.emb (ix2 p q) 0).val, (((cfg1.win 9).blk t).view.emb (ix2 p q) 0).isLt⟩ : Fin 20000) (0 : Fin 1)) := by
    show V c main_v12 (((cfg1.win 1).blk t).view.emb (ix2 p (0 : Fin 1))) = _
    refine congrArg (V c main_v12) (funext fun a => Fin.ext ?_)
    match a with
    | ⟨0, _⟩ => show win1_1.index t (0 : Fin 2) * 4000 + 1 * p.val = win1_9.index t (0 : Fin 2) * 4000 + 1 * p.val; omega
    | ⟨1, _⟩ => show win1_1.index t (1 : Fin 2) * 1 + 1 * 0 = 0; omega
  have r2 : ∀ k : Fin 256, iblk1 V c 2 t (ix2 p k) = V c main_v18 (ix2 (⟨(((cfg1.win 9).blk t).view.emb (ix2 p q) 0).val, (((cfg1.win 9).blk t).view.emb (ix2 p q) 0).isLt⟩ : Fin 20000) k) := by
    intro k
    show V c main_v18 (((cfg1.win 2).blk t).view.emb (ix2 p k)) = _
    refine congrArg (V c main_v18) (funext fun a => Fin.ext ?_)
    match a with
    | ⟨0, _⟩ => show win1_2.index t (0 : Fin 2) * 4000 + 1 * p.val = win1_9.index t (0 : Fin 2) * 4000 + 1 * p.val; omega
    | ⟨1, _⟩ => show win1_2.index t (1 : Fin 2) * 256 + 1 * k.val = k.val; omega
  have r3 : ∀ k : Fin 128, iblk1 V c 3 t (ix2 p k) = V c main_arg0 (ix2 (⟨(((cfg1.win 9).blk t).view.emb (ix2 p q) 0).val, (((cfg1.win 9).blk t).view.emb (ix2 p q) 0).isLt⟩ : Fin 20000) k) := by
    intro k
    show V c main_arg0 (((cfg1.win 3).blk t).view.emb (ix2 p k)) = _
    refine congrArg (V c main_arg0) (funext fun a => Fin.ext ?_)
    match a with
    | ⟨0, _⟩ => show win1_3.index t (0 : Fin 2) * 4000 + 1 * p.val = win1_9.index t (0 : Fin 2) * 4000 + 1 * p.val; omega
    | ⟨1, _⟩ => show win1_3.index t (1 : Fin 2) * 128 + 1 * k.val = k.val; omega
  have r4 : ∀ k : Fin 256, iblk1 V c 4 t (ix2 k q) = V c main_arg5 (ix2 k (⟨(((cfg1.win 9).blk t).view.emb (ix2 p q) 1).val, (((cfg1.win 9).blk t).view.emb (ix2 p q) 1).isLt⟩ : Fin 256)) := by
    intro k
    show V c main_arg5 (((cfg1.win 4).blk t).view.emb (ix2 k q)) = _
    refine congrArg (V c main_arg5) (funext fun a => Fin.ext ?_)
    match a with
    | ⟨0, _⟩ => show win1_4.index t (0 : Fin 2) * 256 + 1 * k.val = k.val; omega
    | ⟨1, _⟩ => show win1_4.index t (1 : Fin 2) * 256 + 1 * (q).val = win1_9.index t (1 : Fin 2) * 256 + 1 * q.val; omega
  have r5 : ∀ k : Fin 256, iblk1 V c 5 t (ix2 k q) = V c main_arg7 (ix2 k (⟨(((cfg1.win 9).blk t).view.emb (ix2 p q) 1).val, (((cfg1.win 9).blk t).view.emb (ix2 p q) 1).isLt⟩ : Fin 256)) := by
    intro k
    show V c main_arg7 (((cfg1.win 5).blk t).view.emb (ix2 k q)) = _
    refine congrArg (V c main_arg7) (funext fun a => Fin.ext ?_)
    match a with
    | ⟨0, _⟩ => show win1_5.index t (0 : Fin 2) * 256 + 1 * k.val = k.val; omega
    | ⟨1, _⟩ => show win1_5.index t (1 : Fin 2) * 256 + 1 * (q).val = win1_9.index t (1 : Fin 2) * 256 + 1 * q.val; omega
  have r6 : ∀ k : Fin 128, iblk1 V c 6 t (ix2 k q) = V c main_arg8 (ix2 k (⟨(((cfg1.win 9).blk t).view.emb (ix2 p q) 1).val, (((cfg1.win 9).blk t).view.emb (ix2 p q) 1).isLt⟩ : Fin 256)) := by
    intro k
    show V c main_arg8 (((cfg1.win 6).blk t).view.emb (ix2 k q)) = _
    refine congrArg (V c main_arg8) (funext fun a => Fin.ext ?_)
    match a with
    | ⟨0, _⟩ => show win1_6.index t (0 : Fin 2) * 128 + 1 * k.val = k.val; omega
    | ⟨1, _⟩ => show win1_6.index t (1 : Fin 2) * 256 + 1 * (q).val = win1_9.index t (1 : Fin 2) * 256 + 1 * q.val; omega
  have r7 : iblk1 V c 7 t (ix2 (0 : Fin 1) q) = V c main_v23 (ix2 (0 : Fin 1) (⟨(((cfg1.win 9).blk t).view.emb (ix2 p q) 1).val, (((cfg1.win 9).blk t).view.emb (ix2 p q) 1).isLt⟩ : Fin 256)) := by
    show V c main_v23 (((cfg1.win 7).blk t).view.emb (ix2 (0 : Fin 1) q)) = _
    refine congrArg (V c main_v23) (funext fun a => Fin.ext ?_)
    match a with
    | ⟨0, _⟩ => show win1_7.index t (0 : Fin 2) * 1 + 1 * 0 = 0; omega
    | ⟨1, _⟩ => show win1_7.index t (1 : Fin 2) * 256 + 1 * (q).val = win1_9.index t (1 : Fin 2) * 256 + 1 * q.val; omega
  have r8 : iblk1 V c 8 t (ix2 (0 : Fin 1) q) = V c main_v24 (ix2 (0 : Fin 1) (⟨(((cfg1.win 9).blk t).view.emb (ix2 p q) 1).val, (((cfg1.win 9).blk t).view.emb (ix2 p q) 1).isLt⟩ : Fin 256)) := by
    show V c main_v24 (((cfg1.win 8).blk t).view.emb (ix2 (0 : Fin 1) q)) = _
    refine congrArg (V c main_v24) (funext fun a => Fin.ext ?_)
    match a with
    | ⟨0, _⟩ => show win1_8.index t (0 : Fin 2) * 1 + 1 * 0 = 0; omega
    | ⟨1, _⟩ => show win1_8.index t (1 : Fin 2) * 256 + 1 * (q).val = win1_9.index t (1 : Fin 2) * 256 + 1 * q.val; omega
  exact pay_eq_G (V c main_v22) (V c main_v12) (V c main_v18) (V c main_arg0) (V c main_arg5) (V c main_arg7) (V c main_arg8) (V c main_v23) (V c main_v24)
    (iblk1 V c 0 t) (iblk1 V c 1 t) (iblk1 V c 4 t) (iblk1 V c 2 t) (iblk1 V c 5 t) (iblk1 V c 7 t) (iblk1 V c 3 t) (iblk1 V c 6 t) (iblk1 V c 8 t) p q
    (((cfg1.win 9).blk t).view.emb (ix2 p q)) r0 r1 r2 r3 r4 r5 r6 r7 r8

/-- An index of the array is in point t's block iff each coordinate is in the block's range on its axis. -/
theorem mem_blk (t : Fin cfg1.N) (i : S20000x256.Idx) :
    i ∈ ((cfg1.win 9).blk t).view.set ↔ ∀ a : Fin 2, win1_9.index t a * S4000x256.size a ≤ (i a).val ∧ (i a).val < win1_9.index t a * S4000x256.size a + S4000x256.size a := by
  show i ∈ ((View.whole main_v25).slice (win1_9.rect t)).set ↔ _
  rw [View.set_slice_whole, Rect.mem_set_unit]
  exact Iff.rfl

/-- Every row of the array is in the block of the point row / 4000. -/
theorem cover (i : S20000x256.Idx) :
    ∃ t : Fin cfg1.N, (cfg1.win 9).flush t = true ∧ i ∈ ((cfg1.win 9).blk t).view.set := by
  have hi0 : (i 0).val < 20000 := (i 0).isLt
  have hi1 : (i 1).val < 256 := (i 1).isLt
  have hN : grid1.N = 5 := N_1
  have ht : (i 0).val / 4000 < cfg1.N := by show _ < grid1.N; rw [hN]; omega
  obtain ⟨e00, e01, e10, e11, e20, e21, e30, e31, e40, e41, e50, e51, e60, e61, e70, e71, e80, e81, e90, e91⟩ := idx_facts ⟨(i 0).val / 4000, ht⟩
  refine ⟨⟨(i 0).val / 4000, ht⟩, flush1_9 _, ?_⟩
  rw [mem_blk]
  intro a
  match a with
  | ⟨0, _⟩ =>
    show win1_9.index ⟨(i 0).val / 4000, ht⟩ (0 : Fin 2) * 4000 ≤ (i 0).val ∧ (i 0).val < win1_9.index ⟨(i 0).val / 4000, ht⟩ (0 : Fin 2) * 4000 + 4000
    rw [e90]
    show (i 0).val / 4000 * 4000 ≤ (i 0).val ∧ (i 0).val < (i 0).val / 4000 * 4000 + 4000
    omega
  | ⟨1, _⟩ =>
    show win1_9.index ⟨(i 0).val / 4000, ht⟩ (1 : Fin 2) * 256 ≤ (i 1).val ∧ (i 1).val < win1_9.index ⟨(i 0).val / 4000, ht⟩ (1 : Fin 2) * 256 + 256
    omega

/-- THE ARRAY the region leaves: G of the arrays it found. -/
theorem final (c : Dev nD) : (dat1 (F := Ideal) V c).arrAt 9 cfg1.N
    = G (V c main_v22) (V c main_v12) (V c main_v18) (V c main_arg0) (V c main_arg5) (V c main_arg7) (V c main_arg8) (V c main_v23) (V c main_v24) :=
  (dat1 (F := Ideal) V c).arrAt_eq_of_cover 9 _ (fun t _ => flushed_eq V c t) cover

end Cert.KernelIdeal.Region1

end
-- ==== Proof.Region2.lean ====
/-
  The projection kernel over its five blocks of 4000 rows: the array it leaves is the product of the hidden features with the two left weight matrices side by side.
-/
import proofs.«124056_j2044404433054_2_alg».proof.Proof.Gen.KernelIdeal.Frame
import proofs.«124056_j2044404433054_2_alg».proof.Proof.KernelBodies
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.ValueIdx Idealize.ShloMosaic.TcCoe Idealize.SL.Sem Cert.Sage
open Idealize.ShloMosaic.Pipeline (Dat Cfg Window)

theorem hz : (![0, 0] : Fin 2 → Nat) = fun _ => 0 := funext fun a => by fin_cases a <;> rfl

/-- Entry (P, q) of the product. -/
def G (h : S20000x256.Idx → EReal) (w : S256x128.Idx → EReal) : S20000x128.Idx → EReal := fun i =>
  ∑ k : Fin 256, h (ix2 (⟨(i 0).val, (i 0).isLt⟩ : Fin 20000) k) * w (ix2 k (⟨(i 1).val, (i 1).isLt⟩ : Fin 128))

/-- The block's entry (p, q) is G at the entry (P, Q) of the arrays whose rows and columns the block's operands read. -/
theorem pay_eq_G (h : S20000x256.Idx → EReal) (w : S256x128.Idx → EReal) (v0 : Vec Ideal S4000x256 .f32) (v2 : Vec Ideal S256x128 .f32)
    (p : Fin 4000) (q : Fin 128) (i : S20000x128.Idx)
    (h0 : ∀ k : Fin 256, v0 (ix2 p k) = h (ix2 (⟨(i 0).val, (i 0).isLt⟩ : Fin 20000) k))
    (h1 : ∀ k : Fin 256, v2 (ix2 k q) = w (ix2 k (⟨(i 1).val, (i 1).isLt⟩ : Fin 128))) :
    k2_pay1 (F := Ideal) v0 v2 (ix2 p q) = G h w i := by
  rw [Body.pay2_apply]
  simp only [h0, h1]
  rfl

/-- The printed index maps over the grid: a row-blocked window is at block (t, 0), a weight window at block (0, 0). -/
theorem idx_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

variable (V : (c : Dev nD) → (b : Ref sig .tc) → Buf (Elt Ideal) ((c : Thread nD τ).loc b))

set_option maxHeartbeats 4000000 in
/-- WHAT POINT t WRITES BACK is block t of G of the arrays as the region finds them. -/
theorem flushed_eq (c : Dev nD) (t : Fin cfg2.N) :
    (dat2 (F := Ideal) V c).flushed 2 t = ((cfg2.win 2).blk t).view.read (Elt Ideal)
      (G (V c main_v25) (V c main_v26)) := by
  show (cfg2.win 2).cut (grid2.coords t) ((dat2 (F := Ideal) V c).after 2 t) = _
  rw [after2_2]
  unfold out2_2
  rw [View.canon_unit_zero hz]
  simp only [View.ld_unit_zero (S := S4000x256) hz, View.ld_unit_zero (S := S256x128) hz]
  obtain ⟨e00, e01, e10, e11, e20, e21⟩ := idx_facts t
  funext j
  obtain ⟨p, q, rfl⟩ : ∃ (p : Fin 4000) (q : Fin 128), j = ix2 p q := ⟨j 0, j 1, eq_ix2 j⟩
  show k2_pay1 (F := Ideal) (iblk2 V c 0 t) (iblk2 V c 1 t) (ix2 p q)
    = G (V c main_v25) (V c main_v26) (((cfg2.win 2).blk t).view.emb (ix2 p q))
  have r0 : ∀ k : Fin 256, iblk2 V c 0 t (ix2 p k) = V c main_v25 (ix2 (⟨(((cfg2.win 2).blk t).view.emb (ix2 p q) 0).val, (((cfg2.win 2).blk t).view.emb (ix2 p q) 0).isLt⟩ : Fin 20000) k) := by
    intro k
    show V c main_v25 (((cfg2.win 0).blk t).view.emb (ix2 p k)) = _
    refine congrArg (V c main_v25) (funext fun a => Fin.ext ?_)
    match a with
    | ⟨0, _⟩ => show win2_0.index t (0 : Fin 2) * 4000 + 1 * p.val = win2_2.index t (0 : Fin 2) * 4000 + 1 * p.val; omega
    | ⟨1, _⟩ => show win2_0.index t (1 : Fin 2) * 256 + 1 * k.val = k.val; omega
  have r1 : ∀ k : Fin 256, iblk2 V c 1 t (ix2 k q) = V c main_v26 (ix2 k (⟨(((cfg2.win 2).blk t).view.emb (ix2 p q) 1).val, (((cfg2.win 2).blk t).view.emb (ix2 p q) 1).isLt⟩ : Fin 128)) := by
    intro k
    show V c main_v26 (((cfg2.win 1).blk t).view.emb (ix2 k q)) = _
    refine congrArg (V c main_v26) (funext fun a => Fin.ext ?_)
    match a with
    | ⟨0, _⟩ => show win2_1.index t (0 : Fin 2) * 256 + 1 * k.val = k.val; omega
    | ⟨1, _⟩ => show win2_1.index t (1 : Fin 2) * 128 + 1 * (q).val = win2_2.index t (1 : Fin 2) * 128 + 1 * q.val; omega
  exact pay_eq_G (V c main_v25) (V c main_v26) (iblk2 V c 0 t) (iblk2 V c 1 t) p q
    (((cfg2.win 2).blk t).view.emb (ix2 p q)) r0 r1

/-- An index of the array is in point t's block iff each coordinate is in the block's range on its axis. -/
theorem mem_blk (t : Fin cfg2.N) (i : S20000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v27).slice (win2_2.rect t)).set ↔ _
  rw [View.set_slice_whole, Rect.mem_set_unit]
  exact Iff.rfl

/-- Every row of the array is in the block of the point row / 4000. -/
theorem cover (i : S20000x128.Idx) :
    ∃ t : Fin cfg2.N, (cfg2.win 2).flush t = true ∧ i ∈ ((cfg2.win 2).blk t).view.set := by
  have hi0 : (i 0).val < 20000 := (i 0).isLt
  have hi1 : (i 1).val < 128 := (i 1).isLt
  have hN : grid2.N = 5 := N_2
  have ht : (i 0).val / 4000 < cfg2.N := by show _ < grid2.N; rw [hN]; omega
  obtain ⟨e00, e01, e10, e11, e20, e21⟩ := idx_facts ⟨(i 0).val / 4000, ht⟩
  refine ⟨⟨(i 0).val / 4000, ht⟩, flush2_2 _, ?_⟩
  rw [mem_blk]
  intro a
  match a with
  | ⟨0, _⟩ =>
    show win2_2.index ⟨(i 0).val / 4000, ht⟩ (0 : Fin 2) * 4000 ≤ (i 0).val ∧ (i 0).val < win2_2.index ⟨(i 0).val / 4000, ht⟩ (0 : Fin 2) * 4000 + 4000
    rw [e20]
    show (i 0).val / 4000 * 4000 ≤ (i 0).val ∧ (i 0).val < (i 0).val / 4000 * 4000 + 4000
    omega
  | ⟨1, _⟩ =>
    show win2_2.index ⟨(i 0).val / 4000, ht⟩ (1 : Fin 2) * 128 ≤ (i 1).val ∧ (i 1).val < win2_2.index ⟨(i 0).val / 4000, ht⟩ (1 : Fin 2) * 128 + 128
    omega

/-- THE ARRAY the region leaves: G of the arrays it found. -/
theorem final (c : Dev nD) : (dat2 (F := Ideal) V c).arrAt 2 cfg2.N
    = G (V c main_v25) (V c main_v26) :=
  (dat2 (F := Ideal) V c).arrAt_eq_of_cover 2 _ (fun t _ => flushed_eq V c t) cover

end Cert.KernelIdeal.Region2

end
-- ==== Proof.Region3.lean ====
/-
  The two heads' kernel over its five blocks of 4000 rows: the array it leaves holds the mean head in columns 0 to 63 and the log-deviation head in columns 64 to 127.
-/
import proofs.«124056_j2044404433054_2_alg».proof.Proof.Gen.KernelIdeal.Frame
import proofs.«124056_j2044404433054_2_alg».proof.Proof.KernelBodies
import Idealize.ShloMosaic.Lib.Pipeline.Value

set_option maxRecDepth 16384

noncomputable section

open scoped BigOperators

namespace Cert.KernelIdeal.Region3

open Cert.KernelIdeal Cert.KernelIdeal.Gen Idealize.ShloMosaic Idealize.ShloMosaic.ValueIdx Idealize.ShloMosaic.TcCoe Idealize.SL.Sem Cert.Sage
open Idealize.ShloMosaic.Pipeline (Dat Cfg Window)

theorem hz : (![0, 0] : Fin 2 → Nat) = fun _ => 0 := funext fun a => by fin_cases a <;> rfl

/-- Entry (P, q) of the two heads side by side: for q < 64 the left head's column q, otherwise the right head's column
    q - 64; each is the aggregated projection scaled by the reciprocal degree, plus the bias, plus the node's row times
    the head's right weights. -/
def G (s : S20000x128.Idx → EReal) (d : S20000x1.Idx → EReal) (h : S20000x256.Idx → EReal) (wm wl : S256x64.Idx → EReal)
    (bm bl : S1x64.Idx → EReal) : S20000x128.Idx → EReal := fun i =>
  if hlt : (i 1).val < 64 then
    ((s (ix2 (⟨(i 0).val, (i 0).isLt⟩ : Fin 20000) (⟨(i 1).val, (i 1).isLt⟩ : Fin 128)) * d (ix2 (⟨(i 0).val, (i 0).isLt⟩ : Fin 20000) (0 : Fin 1))) + bm (ix2 (0 : Fin 1) (⟨(i 1).val, hlt⟩ : Fin 64)))
      + ∑ k : Fin 256, h (ix2 (⟨(i 0).val, (i 0).isLt⟩ : Fin 20000) k) * wm (ix2 k (⟨(i 1).val, hlt⟩ : Fin 64))
  else
    ((s (ix2 (⟨(i 0).val, (i 0).isLt⟩ : Fin 20000) (⟨(i 1).val, (i 1).isLt⟩ : Fin 128)) * d (ix2 (⟨(i 0).val, (i 0).isLt⟩ : Fin 20000) (0 : Fin 1))) + bl (ix2 (0 : Fin 1) (⟨(i 1).val - 64, by have := (i 1).isLt; have h128 : (i 1).val < 128 := this; omega⟩ : Fin 64)))
      + ∑ k : Fin 256, h (ix2 (⟨(i 0).val, (i 0).isLt⟩ : Fin 20000) k) * wl (ix2 k (⟨(i 1).val - 64, by have := (i 1).isLt; have h128 : (i 1).val < 128 := this; omega⟩ : Fin 64))

/-- The block's entry (p, q) is G at the entry (P, q) of the arrays whose rows the block's operands read. -/
theorem pay_eq_G (s : S20000x128.Idx → EReal) (d : S20000x1.Idx → EReal) (h : S20000x256.Idx → EReal) (wm wl : S256x64.Idx → EReal)
    (bm bl : S1x64.Idx → EReal)
    (v0 : Vec Ideal S4000x128 .f32) (v2 : Vec Ideal S4000x1 .f32) (v8 : Vec Ideal S1x64 .f32)
    (v12 : Vec Ideal S4000x256 .f32) (v14 : Vec Ideal S256x64 .f32) (v17 : Vec Ideal S1x64 .f32)
    (v23 : Vec Ideal S256x64 .f32) (p : Fin 4000) (q : Fin 128) (i : S20000x128.Idx) (hq : (i 1).val = q.val)
    (h0 : ∀ k : Fin 128, v0 (ix2 p k) = s (ix2 (⟨(i 0).val, (i 0).isLt⟩ : Fin 20000) k))
    (h1 : v2 (ix2 p (0 : Fin 1)) = d (ix2 (⟨(i 0).val, (i 0).isLt⟩ : Fin 20000) (0 : Fin 1)))
    (h2 : ∀ k : Fin 256, v12 (ix2 p k) = h (ix2 (⟨(i 0).val, (i 0).isLt⟩ : Fin 20000) k))
    (h3 : ∀ (k : Fin 256) (cc : Fin 64), v14 (ix2 k cc) = wm (ix2 k cc))
    (h4 : ∀ (k : Fin 256) (cc : Fin 64), v23 (ix2 k cc) = wl (ix2 k cc))
    (h5 : ∀ cc : Fin 64, v8 (ix2 (0 : Fin 1) cc) = bm (ix2 (0 : Fin 1) cc))
    (h6 : ∀ cc : Fin 64, v17 (ix2 (0 : Fin 1) cc) = bl (ix2 (0 : Fin 1) cc)) :
    k3_pay1 (F := Ideal) v0 v2 v8 v12 v14 v17 v12 v23 (ix2 p q) = G s d h wm wl bm bl i := by
  have hQ : (⟨(i 1).val, (i 1).isLt⟩ : Fin 128) = q := Fin.ext hq
  unfold G
  split
  · rename_i hlt
    rw [Body.pay3_left v0 v2 v8 v12 v14 v17 v12 v23 p (⟨(i 1).val, hlt⟩ : Fin 64) q hq.symm]
    simp only [h0, h1, h2, h3, h5, hQ]
  · rename_i hge
    rw [Body.pay3_right v0 v2 v8 v12 v14 v17 v12 v23 p (⟨(i 1).val - 64, by have := (i 1).isLt; have h128 : (i 1).val < 128 := this; omega⟩ : Fin 64) q
      (by show q.val = 64 + ((i 1).val - 64); omega)]
    simp only [h0, h1, h2, h4, h6, hQ]

/-- The printed index maps over the grid: a row-blocked window is at block (t, 0), a weight window at block (0, 0). -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = t.val
    ∧ win3_7.index t (1 : Fin 2) = 0 :=
  (by decide +kernel : ∀ t : Fin grid3.N, _)

variable (V : (c : Dev nD) → (b : Ref sig .tc) → Buf (Elt Ideal) ((c : Thread nD τ).loc b))

set_option maxHeartbeats 4000000 in
/-- WHAT POINT t WRITES BACK is block t of G of the arrays as the region finds them. -/
theorem flushed_eq (c : Dev nD) (t : Fin cfg3.N) :
    (dat3 (F := Ideal) V c).flushed 7 t = ((cfg3.win 7).blk t).view.read (Elt Ideal)
      (G (V c main_v31) (V c main_v12) (V c main_v25) (V c main_arg12) (V c main_arg15) (V c main_v32) (V c main_v33)) := by
  show (cfg3.win 7).cut (grid3.coords t) ((dat3 (F := Ideal) V c).after 7 t) = _
  rw [after3_7]
  unfold out3_7
  rw [View.canon_unit_zero hz]
  simp only [View.ld_unit_zero (S := S4000x128) hz, View.ld_unit_zero (S := S4000x1) hz, View.ld_unit_zero (S := S4000x256) hz, View.ld_unit_zero (S := S256x64) hz, View.ld_unit_zero (S := S1x64) hz]
  obtain ⟨e00, e01, e10, e11, e20, e21, e30, e31, e40, e41, e50, e51, e60, e61, e70, e71⟩ := idx_facts t
  funext j
  obtain ⟨p, q, rfl⟩ : ∃ (p : Fin 4000) (q : Fin 128), j = ix2 p q := ⟨j 0, j 1, eq_ix2 j⟩
  show k3_pay1 (F := Ideal) (iblk3 V c 0 t) (iblk3 V c 1 t) (iblk3 V c 5 t) (iblk3 V c 2 t) (iblk3 V c 3 t) (iblk3 V c 6 t) (iblk3 V c 2 t) (iblk3 V c 4 t) (ix2 p q)
    = G (V c main_v31) (V c main_v12) (V c main_v25) (V c main_arg12) (V c main_arg15) (V c main_v32) (V c main_v33) (((cfg3.win 7).blk t).view.emb (ix2 p q))
  have r0 : ∀ k : Fin 128, iblk3 V c 0 t (ix2 p k) = V c main_v31 (ix2 (⟨(((cfg3.win 7).blk t).view.emb (ix2 p q) 0).val, (((cfg3.win 7).blk t).view.emb (ix2 p q) 0).isLt⟩ : Fin 20000) k) := by
    intro k
    show V c main_v31 (((cfg3.win 0).blk t).view.emb (ix2 p k)) = _
    refine congrArg (V c main_v31) (funext fun a => Fin.ext ?_)
    match a with
    | ⟨0, _⟩ => show win3_0.index t (0 : Fin 2) * 4000 + 1 * p.val = win3_7.index t (0 : Fin 2) * 4000 + 1 * p.val; omega
    | ⟨1, _⟩ => show win3_0.index t (1 : Fin 2) * 128 + 1 * k.val = k.val; omega
  have r1 : iblk3 V c 1 t (ix2 p (0 : Fin 1)) = V c main_v12 (ix2 (⟨(((cfg3.win 7).blk t).view.emb (ix2 p q) 0).val, (((cfg3.win 7).blk t).view.emb (ix2 p q) 0).isLt⟩ : Fin 20000) (0 : Fin 1)) := by
    show V c main_v12 (((cfg3.win 1).blk t).view.emb (ix2 p (0 : Fin 1))) = _
    refine congrArg (V c main_v12) (funext fun a => Fin.ext ?_)
    match a with
    | ⟨0, _⟩ => show win3_1.index t (0 : Fin 2) * 4000 + 1 * p.val = win3_7.index t (0 : Fin 2) * 4000 + 1 * p.val; omega
    | ⟨1, _⟩ => show win3_1.index t (1 : Fin 2) * 1 + 1 * 0 = 0; omega
  have r2 : ∀ k : Fin 256, iblk3 V c 2 t (ix2 p k) = V c main_v25 (ix2 (⟨(((cfg3.win 7).blk t).view.emb (ix2 p q) 0).val, (((cfg3.win 7).blk t).view.emb (ix2 p q) 0).isLt⟩ : Fin 20000) k) := by
    intro k
    show V c main_v25 (((cfg3.win 2).blk t).view.emb (ix2 p k)) = _
    refine congrArg (V c main_v25) (funext fun a => Fin.ext ?_)
    match a with
    | ⟨0, _⟩ => show win3_2.index t (0 : Fin 2) * 4000 + 1 * p.val = win3_7.index t (0 : Fin 2) * 4000 + 1 * p.val; omega
    | ⟨1, _⟩ => show win3_2.index t (1 : Fin 2) * 256 + 1 * k.val = k.val; omega
  have r3 : ∀ (k : Fin 256) (cc : Fin 64), iblk3 V c 3 t (ix2 k cc) = V c main_arg12 (ix2 k cc) := by
    intro k cc
    show V c main_arg12 (((cfg3.win 3).blk t).view.emb (ix2 k cc)) = _
    refine congrArg (V c main_arg12) (funext fun a => Fin.ext ?_)
    match a with
    | ⟨0, _⟩ => show win3_3.index t (0 : Fin 2) * 256 + 1 * k.val = k.val; omega
    | ⟨1, _⟩ => show win3_3.index t (1 : Fin 2) * 64 + 1 * cc.val = cc.val; omega
  have r4 : ∀ (k : Fin 256) (cc : Fin 64), iblk3 V c 4 t (ix2 k cc) = V c main_arg15 (ix2 k cc) := by
    intro k cc
    show V c main_arg15 (((cfg3.win 4).blk t).view.emb (ix2 k cc)) = _
    refine congrArg (V c main_arg15) (funext fun a => Fin.ext ?_)
    match a with
    | ⟨0, _⟩ => show win3_4.index t (0 : Fin 2) * 256 + 1 * k.val = k.val; omega
    | ⟨1, _⟩ => show win3_4.index t (1 : Fin 2) * 64 + 1 * cc.val = cc.val; omega
  have r5 : ∀ cc : Fin 64, iblk3 V c 5 t (ix2 (0 : Fin 1) cc) = V c main_v32 (ix2 (0 : Fin 1) cc) := by
    intro cc
    show V c main_v32 (((cfg3.win 5).blk t).view.emb (ix2 (0 : Fin 1) cc)) = _
    refine congrArg (V c main_v32) (funext fun a => Fin.ext ?_)
    match a with
    | ⟨0, _⟩ => show win3_5.index t (0 : Fin 2) * 1 + 1 * 0 = 0; omega
    | ⟨1, _⟩ => show win3_5.index t (1 : Fin 2) * 64 + 1 * cc.val = cc.val; omega
  have r6 : ∀ cc : Fin 64, iblk3 V c 6 t (ix2 (0 : Fin 1) cc) = V c main_v33 (ix2 (0 : Fin 1) cc) := by
    intro cc
    show V c main_v33 (((cfg3.win 6).blk t).view.emb (ix2 (0 : Fin 1) cc)) = _
    refine congrArg (V c main_v33) (funext fun a => Fin.ext ?_)
    match a with
    | ⟨0, _⟩ => show win3_6.index t (0 : Fin 2) * 1 + 1 * 0 = 0; omega
    | ⟨1, _⟩ => show win3_6.index t (1 : Fin 2) * 64 + 1 * cc.val = cc.val; omega
  exact pay_eq_G (V c main_v31) (V c main_v12) (V c main_v25) (V c main_arg12) (V c main_arg15) (V c main_v32) (V c main_v33)
    (iblk3 V c 0 t) (iblk3 V c 1 t) (iblk3 V c 5 t) (iblk3 V c 2 t) (iblk3 V c 3 t) (iblk3 V c 6 t) (iblk3 V c 4 t) p q
    (((cfg3.win 7).blk t).view.emb (ix2 p q))
    (by show win3_7.index t (1 : Fin 2) * 128 + 1 * q.val = q.val; omega) r0 r1 r2 r3 r4 r5 r6

/-- An index of the array is in point t's block iff each coordinate is in the block's range on its axis. -/
theorem mem_blk (t : Fin cfg3.N) (i : S20000x128.Idx) :
    i ∈ ((cfg3.win 7).blk t).view.set ↔ ∀ a : Fin 2, win3_7.index t a * S4000x128.size a ≤ (i a).val ∧ (i a).val < win3_7.index t a * S4000x128.size a + S4000x128.size a := by
  show i ∈ ((View.whole main_v34).slice (win3_7.rect t)).set ↔ _
  rw [View.set_slice_whole, Rect.mem_set_unit]
  exact Iff.rfl

/-- Every row of the array is in the block of the point row / 4000. -/
theorem cover (i : S20000x128.Idx) :
    ∃ t : Fin cfg3.N, (cfg3.win 7).flush t = true ∧ i ∈ ((cfg3.win 7).blk t).view.set := by
  have hi0 : (i 0).val < 20000 := (i 0).isLt
  have hi1 : (i 1).val < 128 := (i 1).isLt
  have hN : grid3.N = 5 := N_3
  have ht : (i 0).val / 4000 < cfg3.N := by show _ < grid3.N; rw [hN]; omega
  obtain ⟨e00, e01, e10, e11, e20, e21, e30, e31, e40, e41, e50, e51, e60, e61, e70, e71⟩ := idx_facts ⟨(i 0).val / 4000, ht⟩
  refine ⟨⟨(i 0).val / 4000, ht⟩, flush3_7 _, ?_⟩
  rw [mem_blk]
  intro a
  match a with
  | ⟨0, _⟩ =>
    show win3_7.index ⟨(i 0).val / 4000, ht⟩ (0 : Fin 2) * 4000 ≤ (i 0).val ∧ (i 0).val < win3_7.index ⟨(i 0).val / 4000, ht⟩ (0 : Fin 2) * 4000 + 4000
    rw [e70]
    show (i 0).val / 4000 * 4000 ≤ (i 0).val ∧ (i 0).val < (i 0).val / 4000 * 4000 + 4000
    omega
  | ⟨1, _⟩ =>
    show win3_7.index ⟨(i 0).val / 4000, ht⟩ (1 : Fin 2) * 128 ≤ (i 1).val ∧ (i 1).val < win3_7.index ⟨(i 0).val / 4000, ht⟩ (1 : Fin 2) * 128 + 128
    omega

/-- THE ARRAY the region leaves: G of the arrays it found. -/
theorem final (c : Dev nD) : (dat3 (F := Ideal) V c).arrAt 7 cfg3.N
    = G (V c main_v31) (V c main_v12) (V c main_v25) (V c main_arg12) (V c main_arg15) (V c main_v32) (V c main_v33) :=
  (dat3 (F := Ideal) V c).arrAt_eq_of_cover 7 _ (fun t _ => flushed_eq V c t) cover

end Cert.KernelIdeal.Region3

end
-- ==== Proof.KernelTerms.lean ====
/-
  The idealized kernel program's stages as functions of its sixteen arguments: neighbours' sums (a guarded gather
  scatter-added by destination), the four kernel regions' arrays, the two heads side by side.
-/
import proofs.«124056_j2044404433054_2_alg».proof.Proof.HostStretches
import proofs.«124056_j2044404433054_2_alg».proof.Proof.Region0
import proofs.«124056_j2044404433054_2_alg».proof.Proof.Region1
import proofs.«124056_j2044404433054_2_alg».proof.Proof.Region2
import proofs.«124056_j2044404433054_2_alg».proof.Proof.Region3

noncomputable section

namespace Cert.KernelIdeal.Stages

open Cert.KernelIdeal Cert.KernelIdeal.Gen Idealize.ShloMosaic

/-! ### The stages as functions of the arguments -/

/-- The neighbours' sums of the input features. -/
def S1k (a0 : FVec Ideal S20000x128 .f32) (a1 : IVec S2x320000 32) : FVec Ideal S20000x128 .f32 := seg128 (take128 a0 (srcV a1)) (dstV a1)
/-- The first hidden layer. -/
def Hk (a0 : FVec Ideal S20000x128 .f32) (a1 : IVec S2x320000 32) (a2 : FVec Ideal S128x256 .f32) (a3 : FVec Ideal S256 .f32) (a4 : FVec Ideal S128x256 .f32) : FVec Ideal S20000x256 .f32 :=
  Region0.G (S1k a0 a1) (invd (dstV a1)) a0 a2 a4 (shapeCast S1x256 a3 shapeCasts_S256_S1x256)
/-- The neighbours' sums of the first hidden layer. -/
def S2k (a0 : FVec Ideal S20000x128 .f32) (a1 : IVec S2x320000 32) (a2 : FVec Ideal S128x256 .f32) (a3 : FVec Ideal S256 .f32) (a4 : FVec Ideal S128x256 .f32) : FVec Ideal S20000x256 .f32 := seg256 (take256 (Hk a0 a1 a2 a3 a4) (srcV a1)) (dstV a1)
/-- The second hidden layer. -/
def H2k (a0 : FVec Ideal S20000x128 .f32) (a1 : IVec S2x320000 32) (a2 : FVec Ideal S128x256 .f32) (a3 : FVec Ideal S256 .f32) (a4 : FVec Ideal S128x256 .f32) (a5 : FVec Ideal S256x256 .f32) (a6 : FVec Ideal S256 .f32) (a7 : FVec Ideal S256x256 .f32) (a8 : FVec Ideal S128x256 .f32) (a9 : FVec Ideal S256 .f32) : FVec Ideal S20000x256 .f32 :=
  Region1.G (S2k a0 a1 a2 a3 a4) (invd (dstV a1)) (Hk a0 a1 a2 a3 a4) a0 a5 a7 a8 (shapeCast S1x256 a6 shapeCasts_S256_S1x256)
    (shapeCast S1x256 a9 shapeCasts_S256_S1x256)
/-- The second hidden layer projected by both heads' left weights. -/
def PJk (a0 : FVec Ideal S20000x128 .f32) (a1 : IVec S2x320000 32) (a2 : FVec Ideal S128x256 .f32) (a3 : FVec Ideal S256 .f32) (a4 : FVec Ideal S128x256 .f32) (a5 : FVec Ideal S256x256 .f32) (a6 : FVec Ideal S256 .f32) (a7 : FVec Ideal S256x256 .f32) (a8 : FVec Ideal S128x256 .f32) (a9 : FVec Ideal S256 .f32) (a10 : FVec Ideal S256x64 .f32) (a13 : FVec Ideal S256x64 .f32) : FVec Ideal S20000x128 .f32 :=
  Region2.G (H2k a0 a1 a2 a3 a4 a5 a6 a7 a8 a9) (concatenate S256x128 1 [⟨S256x64, a10⟩, ⟨S256x64, a13⟩] concatenates_S256x64_S256x64_S256x128_d1)
/-- The neighbours' sums of the projection. -/
def S3k (a0 : FVec Ideal S20000x128 .f32) (a1 : IVec S2x320000 32) (a2 : FVec Ideal S128x256 .f32) (a3 : FVec Ideal S256 .f32) (a4 : FVec Ideal S128x256 .f32) (a5 : FVec Ideal S256x256 .f32) (a6 : FVec Ideal S256 .f32) (a7 : FVec Ideal S256x256 .f32) (a8 : FVec Ideal S128x256 .f32) (a9 : FVec Ideal S256 .f32) (a10 : FVec Ideal S256x64 .f32) (a13 : FVec Ideal S256x64 .f32) : FVec Ideal S20000x128 .f32 :=
  seg128 (take128 (PJk a0 a1 a2 a3 a4 a5 a6 a7 a8 a9 a10 a13) (srcV a1)) (dstV a1)
/-- The two heads side by side. -/
def OUTk (a0 : FVec Ideal S20000x128 .f32) (a1 : IVec S2x320000 32) (a2 : FVec Ideal S128x256 .f32) (a3 : FVec Ideal S256 .f32) (a4 : FVec Ideal S128x256 .f32) (a5 : FVec Ideal S256x256 .f32) (a6 : FVec Ideal S256 .f32) (a7 : FVec Ideal S256x256 .f32) (a8 : FVec Ideal S128x256 .f32) (a9 : FVec Ideal S256 .f32) (a10 : FVec Ideal S256x64 .f32) (a11 : FVec Ideal S64 .f32) (a12 : FVec Ideal S256x64 .f32) (a13 : FVec Ideal S256x64 .f32) (a14 : FVec Ideal S64 .f32) (a15 : FVec Ideal S256x64 .f32) : FVec Ideal S20000x128 .f32 :=
  Region3.G (S3k a0 a1 a2 a3 a4 a5 a6 a7 a8 a9 a10 a13) (invd (dstV a1)) (H2k a0 a1 a2 a3 a4 a5 a6 a7 a8 a9) a12 a15
    (shapeCast S1x64 a11 shapeCasts_S64_S1x64) (shapeCast S1x64 a14 shapeCasts_S64_S1x64)

end Cert.KernelIdeal.Stages

end
-- ==== Proof.KernelRun.lean ====
/-
  The idealized kernel program's run with its results named: what the frame run leaves in the two result buffers is the
  contents of the last segment boundary.
-/
import proofs.«124056_j2044404433054_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with its two results NAMED: every weakly fair execution terminates, nothing faulting, each
    result buffer at the last boundary's contents, and every argument array as launched. -/
theorem run_named : θ_run defs (onTc (τ := τ) (main (F := F))) ⟨m, fun _ => 0, ρ⟩ (fun r => ∀ c : Dev nD,
      r.2.mem ((c.tc : Thread nD τ).loc main_v35) = W13 m ρ c (Proc.devRef .tc main_v35)
      ∧ r.2.mem ((c.tc : Thread nD τ).loc main_v36) = W13 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v35 (by decide)), h c _ (mem_uc main_v36 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c)⟩)

end Cert.KernelIdeal.Named

end
-- ==== Proof.KernelValue.lean ====
/-
  The idealized kernel program's two results as functions of its sixteen arguments: the chain of its host stretches and
  its four kernel regions, each region's array read off its blocks.
-/
import proofs.«124056_j2044404433054_2_alg».proof.Proof.Gen.KernelIdeal.Frame
import proofs.«124056_j2044404433054_2_alg».proof.Proof.KernelTerms
import proofs.«124056_j2044404433054_2_alg».proof.Proof.KernelRun

set_option maxRecDepth 200000

noncomputable section

namespace Cert.KernelIdeal.Stages

open Cert.KernelIdeal Cert.KernelIdeal.Gen Idealize.ShloMosaic Idealize.ShloMosaic.TcCoe Idealize.SL.Sem Idealize.ShloMosaic.StableHlo
open Idealize.ShloMosaic.Pipeline (Dat Cfg Window)

/-- A buffer no operation of the stretch writes keeps its contents. -/
macro "host_keep" ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg)

/-! ### The contents of each segment boundary at the buffers read later -/

theorem W1_arg0 (c : Dev nD) : W1 m ρ c (Proc.devRef .tc main_arg0) = (m ((c : Thread nD τ).loc main_arg0)) :=
  calc W1 m ρ c (Proc.devRef .tc main_arg0)
    _ = W0 m ρ c (Proc.devRef .tc main_arg0) := by host_keep hostOps0
    _ = (m ((c : Thread nD τ).loc main_arg0)) := rfl

theorem W2_arg3 (c : Dev nD) : W2 m ρ c (Proc.devRef .tc main_arg3) = (m ((c : Thread nD τ).loc main_arg3)) :=
  calc W2 m ρ c (Proc.devRef .tc main_arg3)
    _ = W1 m ρ c (Proc.devRef .tc main_arg3) := by host_keep hostOps0_1
    _ = W0 m ρ c (Proc.devRef .tc main_arg3) := by host_keep hostOps0
    _ = (m ((c : Thread nD τ).loc main_arg3)) := rfl

theorem W3_arg0 (c : Dev nD) : W3 m ρ c (Proc.devRef .tc main_arg0) = (m ((c : Thread nD τ).loc main_arg0)) :=
  calc W3 m ρ c (Proc.devRef .tc main_arg0)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = (m ((c : Thread nD τ).loc main_arg0)) := rfl

theorem W3_arg2 (c : Dev nD) : W3 m ρ c (Proc.devRef .tc main_arg2) = (m ((c : Thread nD τ).loc main_arg2)) :=
  calc W3 m ρ c (Proc.devRef .tc main_arg2)
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = (m ((c : Thread nD τ).loc main_arg2)) := rfl

theorem W3_arg4 (c : Dev nD) : W3 m ρ c (Proc.devRef .tc main_arg4) = (m ((c : Thread nD τ).loc main_arg4)) :=
  calc W3 m ρ c (Proc.devRef .tc main_arg4)
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = (m ((c : Thread nD τ).loc main_arg4)) := rfl

theorem W5_arg6 (c : Dev nD) : W5 m ρ c (Proc.devRef .tc main_arg6) = (m ((c : Thread nD τ).loc main_arg6)) :=
  calc W5 m ρ c (Proc.devRef .tc main_arg6)
    _ = W4 m ρ c (Proc.devRef .tc main_arg6) := by host_keep hostOps1
    _ = W3 m ρ c (Proc.devRef .tc main_arg6) := W4_of_ne m ρ c main_arg6 (by decide)
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0
    _ = (m ((c : Thread nD τ).loc main_arg6)) := rfl

theorem W5_arg9 (c : Dev nD) : W5 m ρ c (Proc.devRef .tc main_arg9) = (m ((c : Thread nD τ).loc main_arg9)) :=
  calc W5 m ρ c (Proc.devRef .tc main_arg9)
    _ = W4 m ρ c (Proc.devRef .tc main_arg9) := by host_keep hostOps1
    _ = W3 m ρ c (Proc.devRef .tc main_arg9) := W4_of_ne m ρ c main_arg9 (by decide)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0
    _ = (m ((c : Thread nD τ).loc main_arg9)) := rfl

theorem W6_arg0 (c : Dev nD) : W6 m ρ c (Proc.devRef .tc main_arg0) = (m ((c : Thread nD τ).loc main_arg0)) :=
  calc W6 m ρ c (Proc.devRef .tc main_arg0)
    _ = W5 m ρ c (Proc.devRef .tc main_arg0) := by host_keep hostOps1_1
    _ = W4 m ρ c (Proc.devRef .tc main_arg0) := by host_keep hostOps1
    _ = W3 m ρ c (Proc.devRef .tc main_arg0) := (W4_arr m ρ c 2).trans (((dat0 (V3 m ρ) c).arrAt_in 2 rfl _).trans (A_eq0 (V3 m ρ) c 2))
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = (m ((c : Thread nD τ).loc main_arg0)) := rfl

theorem W6_arg5 (c : Dev nD) : W6 m ρ c (Proc.devRef .tc main_arg5) = (m ((c : Thread nD τ).loc main_arg5)) :=
  calc W6 m ρ c (Proc.devRef .tc main_arg5)
    _ = W5 m ρ c (Proc.devRef .tc main_arg5) := by host_keep hostOps1_1
    _ = W4 m ρ c (Proc.devRef .tc main_arg5) := by host_keep hostOps1
    _ = W3 m ρ c (Proc.devRef .tc main_arg5) := W4_of_ne m ρ c main_arg5 (by decide)
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0
    _ = (m ((c : Thread nD τ).loc main_arg5)) := rfl

theorem W6_arg7 (c : Dev nD) : W6 m ρ c (Proc.devRef .tc main_arg7) = (m ((c : Thread nD τ).loc main_arg7)) :=
  calc W6 m ρ c (Proc.devRef .tc main_arg7)
    _ = W5 m ρ c (Proc.devRef .tc main_arg7) := by host_keep hostOps1_1
    _ = W4 m ρ c (Proc.devRef .tc main_arg7) := by host_keep hostOps1
    _ = W3 m ρ c (Proc.devRef .tc main_arg7) := W4_of_ne m ρ c main_arg7 (by decide)
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0
    _ = (m ((c : Thread nD τ).loc main_arg7)) := rfl

theorem W6_arg8 (c : Dev nD) : W6 m ρ c (Proc.devRef .tc main_arg8) = (m ((c : Thread nD τ).loc main_arg8)) :=
  calc W6 m ρ c (Proc.devRef .tc main_arg8)
    _ = W5 m ρ c (Proc.devRef .tc main_arg8) := by host_keep hostOps1_1
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0
    _ = (m ((c : Thread nD τ).loc main_arg8)) := rfl

theorem W7_arg10 (c : Dev nD) : W7 m ρ c (Proc.devRef .tc main_arg10) = (m ((c : Thread nD τ).loc main_arg10)) :=
  calc W7 m ρ c (Proc.devRef .tc main_arg10)
    _ = W6 m ρ c (Proc.devRef .tc main_arg10) := W7_of_ne m ρ c main_arg10 (by decide)
    _ = W5 m ρ c (Proc.devRef .tc main_arg10) := by host_keep hostOps1_1
    _ = W4 m ρ c (Proc.devRef .tc main_arg10) := by host_keep hostOps1
    _ = W3 m ρ c (Proc.devRef .tc main_arg10) := W4_of_ne m ρ c main_arg10 (by decide)
    _ = W2 m ρ c (Proc.devRef .tc main_arg10) := by host_keep hostOps0_2
    _ = W1 m ρ c (Proc.devRef .tc main_arg10) := by host_keep hostOps0_1
    _ = W0 m ρ c (Proc.devRef .tc main_arg10) := by host_keep hostOps0
    _ = (m ((c : Thread nD τ).loc main_arg10)) := rfl

theorem W7_arg13 (c : Dev nD) : W7 m ρ c (Proc.devRef .tc main_arg13) = (m ((c : Thread nD τ).loc main_arg13)) :=
  calc W7 m ρ c (Proc.devRef .tc main_arg13)
    _ = W6 m ρ c (Proc.devRef .tc main_arg13) := W7_of_ne m ρ c main_arg13 (by decide)
    _ = W5 m ρ c (Proc.devRef .tc main_arg13) := by host_keep hostOps1_1
    _ = W4 m ρ c (Proc.devRef .tc main_arg13) := by host_keep hostOps1
    _ = W3 m ρ c (Proc.devRef .tc main_arg13) := W4_of_ne m ρ c main_arg13 (by decide)
    _ = W2 m ρ c (Proc.devRef .tc main_arg13) := by host_keep hostOps0_2
    _ = W1 m ρ c (Proc.devRef .tc main_arg13) := by host_keep hostOps0_1
    _ = W0 m ρ c (Proc.devRef .tc main_arg13) := by host_keep hostOps0
    _ = (m ((c : Thread nD τ).loc main_arg13)) := rfl

theorem W10_arg11 (c : Dev nD) : W10 m ρ c (Proc.devRef .tc main_arg11) = (m ((c : Thread nD τ).loc main_arg11)) :=
  calc W10 m ρ c (Proc.devRef .tc main_arg11)
    _ = W9 m ρ c (Proc.devRef .tc main_arg11) := by host_keep hostOps3
    _ = W8 m ρ c (Proc.devRef .tc main_arg11) := W9_of_ne m ρ c main_arg11 (by decide)
    _ = W7 m ρ c (Proc.devRef .tc main_arg11) := by host_keep hostOps2
    _ = W6 m ρ c (Proc.devRef .tc main_arg11) := W7_of_ne m ρ c main_arg11 (by decide)
    _ = W5 m ρ c (Proc.devRef .tc main_arg11) := by host_keep hostOps1_1
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0
    _ = (m ((c : Thread nD τ).loc main_arg11)) := rfl

theorem W10_arg14 (c : Dev nD) : W10 m ρ c (Proc.devRef .tc main_arg14) = (m ((c : Thread nD τ).loc main_arg14)) :=
  calc W10 m ρ c (Proc.devRef .tc main_arg14)
    _ = W9 m ρ c (Proc.devRef .tc main_arg14) := by host_keep hostOps3
    _ = W8 m ρ c (Proc.devRef .tc main_arg14) := W9_of_ne m ρ c main_arg14 (by decide)
    _ = W7 m ρ c (Proc.devRef .tc main_arg14) := by host_keep hostOps2
    _ = W6 m ρ c (Proc.devRef .tc main_arg14) := W7_of_ne m ρ c main_arg14 (by decide)
    _ = W5 m ρ c (Proc.devRef .tc main_arg14) := by host_keep hostOps1_1
    _ = W4 m ρ c (Proc.devRef .tc main_arg14) := by host_keep hostOps1
    _ = W3 m ρ c (Proc.devRef .tc main_arg14) := W4_of_ne m ρ c main_arg14 (by decide)
    _ = W2 m ρ c (Proc.devRef .tc main_arg14) := by host_keep hostOps0_2
    _ = W1 m ρ c (Proc.devRef .tc main_arg14) := by host_keep hostOps0_1
    _ = W0 m ρ c (Proc.devRef .tc main_arg14) := by host_keep hostOps0
    _ = (m ((c : Thread nD τ).loc main_arg14)) := rfl

theorem W11_arg12 (c : Dev nD) : W11 m ρ c (Proc.devRef .tc main_arg12) = (m ((c : Thread nD τ).loc main_arg12)) :=
  calc W11 m ρ c (Proc.devRef .tc main_arg12)
    _ = W10 m ρ c (Proc.devRef .tc main_arg12) := by host_keep hostOps3_1
    _ = W9 m ρ c (Proc.devRef .tc main_arg12) := by host_keep hostOps3
    _ = W8 m ρ c (Proc.devRef .tc main_arg12) := W9_of_ne m ρ c main_arg12 (by decide)
    _ = W7 m ρ c (Proc.devRef .tc main_arg12) := by host_keep hostOps2
    _ = W6 m ρ c (Proc.devRef .tc main_arg12) := W7_of_ne m ρ c main_arg12 (by decide)
    _ = W5 m ρ c (Proc.devRef .tc main_arg12) := by host_keep hostOps1_1
    _ = W4 m ρ c (Proc.devRef .tc main_arg12) := by host_keep hostOps1
    _ = W3 m ρ c (Proc.devRef .tc main_arg12) := W4_of_ne m ρ c main_arg12 (by decide)
    _ = W2 m ρ c (Proc.devRef .tc main_arg12) := by host_keep hostOps0_2
    _ = W1 m ρ c (Proc.devRef .tc main_arg12) := by host_keep hostOps0_1
    _ = W0 m ρ c (Proc.devRef .tc main_arg12) := by host_keep hostOps0
    _ = (m ((c : Thread nD τ).loc main_arg12)) := rfl

theorem W11_arg15 (c : Dev nD) : W11 m ρ c (Proc.devRef .tc main_arg15) = (m ((c : Thread nD τ).loc main_arg15)) :=
  calc W11 m ρ c (Proc.devRef .tc main_arg15)
    _ = W10 m ρ c (Proc.devRef .tc main_arg15) := by host_keep hostOps3_1
    _ = W9 m ρ c (Proc.devRef .tc main_arg15) := by host_keep hostOps3
    _ = W8 m ρ c (Proc.devRef .tc main_arg15) := W9_of_ne m ρ c main_arg15 (by decide)
    _ = W7 m ρ c (Proc.devRef .tc main_arg15) := by host_keep hostOps2
    _ = W6 m ρ c (Proc.devRef .tc main_arg15) := W7_of_ne m ρ c main_arg15 (by decide)
    _ = W5 m ρ c (Proc.devRef .tc main_arg15) := by host_keep hostOps1_1
    _ = W4 m ρ c (Proc.devRef .tc main_arg15) := by host_keep hostOps1
    _ = W3 m ρ c (Proc.devRef .tc main_arg15) := W4_of_ne m ρ c main_arg15 (by decide)
    _ = W2 m ρ c (Proc.devRef .tc main_arg15) := by host_keep hostOps0_2
    _ = W1 m ρ c (Proc.devRef .tc main_arg15) := by host_keep hostOps0_1
    _ = W0 m ρ c (Proc.devRef .tc main_arg15) := by host_keep hostOps0
    _ = (m ((c : Thread nD τ).loc main_arg15)) := rfl

theorem W1_v1 (c : Dev nD) : W1 m ρ c (Proc.devRef .tc main_v1) = (srcV (m ((c : Thread nD τ).loc main_arg1))) := seg0_v1 (W0 m ρ c)

theorem W1_v3 (c : Dev nD) : W1 m ρ c (Proc.devRef .tc main_v3) = (dstV (m ((c : Thread nD τ).loc main_arg1))) := seg0_v3 (W0 m ρ c)

theorem W1_v12 (c : Dev nD) : W1 m ρ c (Proc.devRef .tc main_v12) = (invd (dstV (m ((c : Thread nD τ).loc main_arg1)))) := seg0_v12 (W0 m ρ c)

theorem W4_v1 (c : Dev nD) : W4 m ρ c (Proc.devRef .tc main_v1) = (srcV (m ((c : Thread nD τ).loc main_arg1))) :=
  calc W4 m ρ c (Proc.devRef .tc main_v1)
    _ = W3 m ρ c (Proc.devRef .tc main_v1) := W4_of_ne m ρ c main_v1 (by decide)
    _ = W2 m ρ c (Proc.devRef .tc main_v1) := by host_keep hostOps0_2
    _ = W1 m ρ c (Proc.devRef .tc main_v1) := by host_keep hostOps0_1
    _ = (srcV (m ((c : Thread nD τ).loc main_arg1))) := W1_v1 m ρ c

theorem W9_v1 (c : Dev nD) : W9 m ρ c (Proc.devRef .tc main_v1) = (srcV (m ((c : Thread nD τ).loc main_arg1))) :=
  calc W9 m ρ c (Proc.devRef .tc main_v1)
    _ = W8 m ρ c (Proc.devRef .tc main_v1) := W9_of_ne m ρ c main_v1 (by decide)
    _ = W7 m ρ c (Proc.devRef .tc main_v1) := by host_keep hostOps2
    _ = W6 m ρ c (Proc.devRef .tc main_v1) := W7_of_ne m ρ c main_v1 (by decide)
    _ = W5 m ρ c (Proc.devRef .tc main_v1) := by host_keep hostOps1_1
    _ = W4 m ρ c (Proc.devRef .tc main_v1) := by host_keep hostOps1
    _ = W3 m ρ c (Proc.devRef .tc main_v1) := W4_of_ne m ρ c main_v1 (by decide)
    _ = W2 m ρ c (Proc.devRef .tc main_v1) := by host_keep hostOps0_2
    _ = W1 m ρ c (Proc.devRef .tc main_v1) := by host_keep hostOps0_1
    _ = (srcV (m ((c : Thread nD τ).loc main_arg1))) := W1_v1 m ρ c

theorem W2_v3 (c : Dev nD) : W2 m ρ c (Proc.devRef .tc main_v3) = (dstV (m ((c : Thread nD τ).loc main_arg1))) :=
  calc W2 m ρ c (Proc.devRef .tc main_v3)
    _ = W1 m ρ c (Proc.devRef .tc main_v3) := by host_keep hostOps0_1
    _ = (dstV (m ((c : Thread nD τ).loc main_arg1))) := W1_v3 m ρ c

theorem W5_v3 (c : Dev nD) : W5 m ρ c (Proc.devRef .tc main_v3) = (dstV (m ((c : Thread nD τ).loc main_arg1))) :=
  calc W5 m ρ c (Proc.devRef .tc main_v3)
    _ = W4 m ρ c (Proc.devRef .tc main_v3) := by host_keep hostOps1
    _ = W3 m ρ c (Proc.devRef .tc main_v3) := W4_of_ne m ρ c main_v3 (by decide)
    _ = W2 m ρ c (Proc.devRef .tc main_v3) := by host_keep hostOps0_2
    _ = W1 m ρ c (Proc.devRef .tc main_v3) := by host_keep hostOps0_1
    _ = (dstV (m ((c : Thread nD τ).loc main_arg1))) := W1_v3 m ρ c

theorem W10_v3 (c : Dev nD) : W10 m ρ c (Proc.devRef .tc main_v3) = (dstV (m ((c : Thread nD τ).loc main_arg1))) :=
  calc W10 m ρ c (Proc.devRef .tc main_v3)
    _ = W9 m ρ c (Proc.devRef .tc main_v3) := by host_keep hostOps3
    _ = W8 m ρ c (Proc.devRef .tc main_v3) := W9_of_ne m ρ c main_v3 (by decide)
    _ = W7 m ρ c (Proc.devRef .tc main_v3) := by host_keep hostOps2
    _ = W6 m ρ c (Proc.devRef .tc main_v3) := W7_of_ne m ρ c main_v3 (by decide)
    _ = W5 m ρ c (Proc.devRef .tc main_v3) := by host_keep hostOps1_1
    _ = W4 m ρ c (Proc.devRef .tc main_v3) := by host_keep hostOps1
    _ = W3 m ρ c (Proc.devRef .tc main_v3) := W4_of_ne m ρ c main_v3 (by decide)
    _ = W2 m ρ c (Proc.devRef .tc main_v3) := by host_keep hostOps0_2
    _ = W1 m ρ c (Proc.devRef .tc main_v3) := by host_keep hostOps0_1
    _ = (dstV (m ((c : Thread nD τ).loc main_arg1))) := W1_v3 m ρ c

theorem W3_v12 (c : Dev nD) : W3 m ρ c (Proc.devRef .tc main_v12) = (invd (dstV (m ((c : Thread nD τ).loc main_arg1)))) :=
  calc W3 m ρ c (Proc.devRef .tc main_v12)
    _ = W2 m ρ c (Proc.devRef .tc main_v12) := by host_keep hostOps0_2
    _ = W1 m ρ c (Proc.devRef .tc main_v12) := by host_keep hostOps0_1
    _ = (invd (dstV (m ((c : Thread nD τ).loc main_arg1)))) := W1_v12 m ρ c

theorem W6_v12 (c : Dev nD) : W6 m ρ c (Proc.devRef .tc main_v12) = (invd (dstV (m ((c : Thread nD τ).loc main_arg1)))) :=
  calc W6 m ρ c (Proc.devRef .tc main_v12)
    _ = W5 m ρ c (Proc.devRef .tc main_v12) := by host_keep hostOps1_1
    _ = W4 m ρ c (Proc.devRef .tc main_v12) := by host_keep hostOps1
    _ = W3 m ρ c (Proc.devRef .tc main_v12) := (W4_arr m ρ c 1).trans (((dat0 (V3 m ρ) c).arrAt_in 1 rfl _).trans (A_eq0 (V3 m ρ) c 1))
    _ = W2 m ρ c (Proc.devRef .tc main_v12) := by host_keep hostOps0_2
    _ = W1 m ρ c (Proc.devRef .tc main_v12) := by host_keep hostOps0_1
    _ = (invd (dstV (m ((c : Thread nD τ).loc main_arg1)))) := W1_v12 m ρ c

theorem W11_v12 (c : Dev nD) : W11 m ρ c (Proc.devRef .tc main_v12) = (invd (dstV (m ((c : Thread nD τ).loc main_arg1)))) :=
  calc W11 m ρ c (Proc.devRef .tc main_v12)
    _ = W10 m ρ c (Proc.devRef .tc main_v12) := by host_keep hostOps3_1
    _ = W9 m ρ c (Proc.devRef .tc main_v12) := by host_keep hostOps3
    _ = W8 m ρ c (Proc.devRef .tc main_v12) := W9_of_ne m ρ c main_v12 (by decide)
    _ = W7 m ρ c (Proc.devRef .tc main_v12) := by host_keep hostOps2
    _ = W6 m ρ c (Proc.devRef .tc main_v12) := (W7_arr m ρ c 1).trans (((dat1 (V6 m ρ) c).arrAt_in 1 rfl _).trans (A_eq1 (V6 m ρ) c 1))
    _ = W5 m ρ c (Proc.devRef .tc main_v12) := by host_keep hostOps1_1
    _ = W4 m ρ c (Proc.devRef .tc main_v12) := by host_keep hostOps1
    _ = W3 m ρ c (Proc.devRef .tc main_v12) := (W4_arr m ρ c 1).trans (((dat0 (V3 m ρ) c).arrAt_in 1 rfl _).trans (A_eq0 (V3 m ρ) c 1))
    _ = W2 m ρ c (Proc.devRef .tc main_v12) := by host_keep hostOps0_2
    _ = W1 m ρ c (Proc.devRef .tc main_v12) := by host_keep hostOps0_1
    _ = (invd (dstV (m ((c : Thread nD τ).loc main_arg1)))) := W1_v12 m ρ c

theorem W2_v13 (c : Dev nD) : W2 m ρ c (Proc.devRef .tc main_v13) = (take128 (m ((c : Thread nD τ).loc main_arg0)) (srcV (m ((c : Thread nD τ).loc main_arg1)))) := by
  refine (seg0_1_v13 (W1 m ρ c)).trans ?_
  rw [W1_arg0 m ρ c, W1_v1 m ρ c]
  try rfl

theorem W3_v16 (c : Dev nD) : W3 m ρ c (Proc.devRef .tc main_v16) = (S1k (m ((c : Thread nD τ).loc main_arg0)) (m ((c : Thread nD τ).loc main_arg1))) := by
  refine (seg0_2_v16 (W2 m ρ c)).trans ?_
  rw [W2_v13 m ρ c, W2_v3 m ρ c]
  try rfl

theorem W3_v17 (c : Dev nD) : W3 m ρ c (Proc.devRef .tc main_v17) = (shapeCast S1x256 (m ((c : Thread nD τ).loc main_arg3)) shapeCasts_S256_S1x256) := by
  refine (seg0_2_v17 (W2 m ρ c)).trans ?_
  rw [W2_arg3 m ρ c]
  try rfl

theorem W4_v18 (c : Dev nD) : W4 m ρ c (Proc.devRef .tc main_v18) = (Hk (m ((c : Thread nD τ).loc main_arg0)) (m ((c : Thread nD τ).loc main_arg1)) (m ((c : Thread nD τ).loc main_arg2)) (m ((c : Thread nD τ).loc main_arg3)) (m ((c : Thread nD τ).loc main_arg4))) := by
  refine (W4_arr m ρ c 6).trans ((Region0.final (V3 m ρ) c).trans ?_)
  have e0 : V3 m ρ c main_v16 = _ := W3_v16 m ρ c
  have e1 : V3 m ρ c main_v12 = _ := W3_v12 m ρ c
  have e2 : V3 m ρ c main_arg0 = _ := W3_arg0 m ρ c
  have e3 : V3 m ρ c main_arg2 = _ := W3_arg2 m ρ c
  have e4 : V3 m ρ c main_arg4 = _ := W3_arg4 m ρ c
  have e5 : V3 m ρ c main_v17 = _ := W3_v17 m ρ c
  rw [e0, e1, e2, e3, e4, e5]
  try rfl

theorem W5_v19 (c : Dev nD) : W5 m ρ c (Proc.devRef .tc main_v19) = (take256 (Hk (m ((c : Thread nD τ).loc main_arg0)) (m ((c : Thread nD τ).loc main_arg1)) (m ((c : Thread nD τ).loc main_arg2)) (m ((c : Thread nD τ).loc main_arg3)) (m ((c : Thread nD τ).loc main_arg4))) (srcV (m ((c : Thread nD τ).loc main_arg1)))) := by
  refine (seg1_v19 (W4 m ρ c)).trans ?_
  rw [W4_v18 m ρ c, W4_v1 m ρ c]
  try rfl

theorem W6_v22 (c : Dev nD) : W6 m ρ c (Proc.devRef .tc main_v22) = (S2k (m ((c : Thread nD τ).loc main_arg0)) (m ((c : Thread nD τ).loc main_arg1)) (m ((c : Thread nD τ).loc main_arg2)) (m ((c : Thread nD τ).loc main_arg3)) (m ((c : Thread nD τ).loc main_arg4))) := by
  refine (seg1_1_v22 (W5 m ρ c)).trans ?_
  rw [W5_v19 m ρ c, W5_v3 m ρ c]
  try rfl

theorem W6_v23 (c : Dev nD) : W6 m ρ c (Proc.devRef .tc main_v23) = (shapeCast S1x256 (m ((c : Thread nD τ).loc main_arg6)) shapeCasts_S256_S1x256) := by
  refine (seg1_1_v23 (W5 m ρ c)).trans ?_
  rw [W5_arg6 m ρ c]
  try rfl

theorem W6_v24 (c : Dev nD) : W6 m ρ c (Proc.devRef .tc main_v24) = (shapeCast S1x256 (m ((c : Thread nD τ).loc main_arg9)) shapeCasts_S256_S1x256) := by
  refine (seg1_1_v24 (W5 m ρ c)).trans ?_
  rw [W5_arg9 m ρ c]
  try rfl

theorem W6_v18 (c : Dev nD) : W6 m ρ c (Proc.devRef .tc main_v18) = (Hk (m ((c : Thread nD τ).loc main_arg0)) (m ((c : Thread nD τ).loc main_arg1)) (m ((c : Thread nD τ).loc main_arg2)) (m ((c : Thread nD τ).loc main_arg3)) (m ((c : Thread nD τ).loc main_arg4))) :=
  calc W6 m ρ c (Proc.devRef .tc main_v18)
    _ = W5 m ρ c (Proc.devRef .tc main_v18) := by host_keep hostOps1_1
    _ = W4 m ρ c (Proc.devRef .tc main_v18) := by host_keep hostOps1
    _ = (Hk (m ((c : Thread nD τ).loc main_arg0)) (m ((c : Thread nD τ).loc main_arg1)) (m ((c : Thread nD τ).loc main_arg2)) (m ((c : Thread nD τ).loc main_arg3)) (m ((c : Thread nD τ).loc main_arg4))) := W4_v18 m ρ c

theorem W7_v25 (c : Dev nD) : W7 m ρ c (Proc.devRef .tc main_v25) = (H2k (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W7_arr m ρ c 9).trans ((Region1.final (V6 m ρ) c).trans ?_)
  have e0 : V6 m ρ c main_v22 = _ := W6_v22 m ρ c
  have e1 : V6 m ρ c main_v12 = _ := W6_v12 m ρ c
  have e2 : V6 m ρ c main_v18 = _ := W6_v18 m ρ c
  have e3 : V6 m ρ c main_arg0 = _ := W6_arg0 m ρ c
  have e4 : V6 m ρ c main_arg5 = _ := W6_arg5 m ρ c
  have e5 : V6 m ρ c main_arg7 = _ := W6_arg7 m ρ c
  have e6 : V6 m ρ c main_arg8 = _ := W6_arg8 m ρ c
  have e7 : V6 m ρ c main_v23 = _ := W6_v23 m ρ c
  have e8 : V6 m ρ c main_v24 = _ := W6_v24 m ρ c
  rw [e0, e1, e2, e3, e4, e5, e6, e7, e8]
  try rfl

theorem W8_v25 (c : Dev nD) : W8 m ρ c (Proc.devRef .tc main_v25) = (H2k (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  calc W8 m ρ c (Proc.devRef .tc main_v25)
    _ = W7 m ρ c (Proc.devRef .tc main_v25) := by host_keep hostOps2
    _ = (H2k (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := W7_v25 m ρ c

theorem W8_v26 (c : Dev nD) : W8 m ρ c (Proc.devRef .tc main_v26) = (concatenate S256x128 1 [⟨S256x64, (m ((c : Thread nD τ).loc main_arg10))⟩, ⟨S256x64, (m ((c : Thread nD τ).loc main_arg13))⟩] concatenates_S256x64_S256x64_S256x128_d1) := by
  refine (seg2_v26 (W7 m ρ c)).trans ?_
  rw [W7_arg10 m ρ c, W7_arg13 m ρ c]
  try rfl

theorem W9_v27 (c : Dev nD) : W9 m ρ c (Proc.devRef .tc main_v27) = (PJk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13))) := by
  refine (W9_arr m ρ c 2).trans ((Region2.final (V8 m ρ) c).trans ?_)
  have e0 : V8 m ρ c main_v25 = _ := W8_v25 m ρ c
  have e1 : V8 m ρ c main_v26 = _ := W8_v26 m ρ c
  rw [e0, e1]
  try rfl

theorem W10_v28 (c : Dev nD) : W10 m ρ c (Proc.devRef .tc main_v28) = (take128 (PJk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13))) (srcV (m ((c : Thread nD τ).loc main_arg1)))) := by
  refine (seg3_v28 (W9 m ρ c)).trans ?_
  rw [W9_v27 m ρ c, W9_v1 m ρ c]
  try rfl

theorem W11_v31 (c : Dev nD) : W11 m ρ c (Proc.devRef .tc main_v31) = (S3k (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13))) := by
  refine (seg3_1_v31 (W10 m ρ c)).trans ?_
  rw [W10_v28 m ρ c, W10_v3 m ρ c]
  try rfl

theorem W11_v32 (c : Dev nD) : W11 m ρ c (Proc.devRef .tc main_v32) = (shapeCast S1x64 (m ((c : Thread nD τ).loc main_arg11)) shapeCasts_S64_S1x64) := by
  refine (seg3_1_v32 (W10 m ρ c)).trans ?_
  rw [W10_arg11 m ρ c]
  try rfl

theorem W11_v33 (c : Dev nD) : W11 m ρ c (Proc.devRef .tc main_v33) = (shapeCast S1x64 (m ((c : Thread nD τ).loc main_arg14)) shapeCasts_S64_S1x64) := by
  refine (seg3_1_v33 (W10 m ρ c)).trans ?_
  rw [W10_arg14 m ρ c]
  try rfl

theorem W11_v25 (c : Dev nD) : W11 m ρ c (Proc.devRef .tc main_v25) = (H2k (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  calc W11 m ρ c (Proc.devRef .tc main_v25)
    _ = W10 m ρ c (Proc.devRef .tc main_v25) := by host_keep hostOps3_1
    _ = W9 m ρ c (Proc.devRef .tc main_v25) := by host_keep hostOps3
    _ = W8 m ρ c (Proc.devRef .tc main_v25) := (W9_arr m ρ c 0).trans (((dat2 (V8 m ρ) c).arrAt_in 0 rfl _).trans (A_eq2 (V8 m ρ) c 0))
    _ = W7 m ρ c (Proc.devRef .tc main_v25) := by host_keep hostOps2
    _ = (H2k (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := W7_v25 m ρ c

theorem W12_v34 (c : Dev nD) : W12 m ρ c (Proc.devRef .tc main_v34) = (OUTk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine (W12_arr m ρ c 7).trans ((Region3.final (V11 m ρ) c).trans ?_)
  have e0 : V11 m ρ c main_v31 = _ := W11_v31 m ρ c
  have e1 : V11 m ρ c main_v12 = _ := W11_v12 m ρ c
  have e2 : V11 m ρ c main_v25 = _ := W11_v25 m ρ c
  have e3 : V11 m ρ c main_arg12 = _ := W11_arg12 m ρ c
  have e4 : V11 m ρ c main_arg15 = _ := W11_arg15 m ρ c
  have e5 : V11 m ρ c main_v32 = _ := W11_v32 m ρ c
  have e6 : V11 m ρ c main_v33 = _ := W11_v33 m ρ c
  rw [e0, e1, e2, e3, e4, e5, e6]
  try rfl

theorem W13_v35 (c : Dev nD) : W13 m ρ c (Proc.devRef .tc main_v35) = (extractStridedSlice S20000x64 ![0, 0] (OUTk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) slices_S20000x128_S20000x64_0_0) := by
  refine (seg4_v35 (W12 m ρ c)).trans ?_
  rw [W12_v34 m ρ c]
  try rfl

theorem W13_v36 (c : Dev nD) : W13 m ρ c (Proc.devRef .tc main_v36) = (extractStridedSlice S20000x64 ![0, 64] (OUTk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) slices_S20000x128_S20000x64_0_64) := by
  refine (seg4_v36 (W12 m ρ c)).trans ?_
  rw [W12_v34 m ρ c]
  try rfl

end Cert.KernelIdeal.Stages

end
-- ==== Proof.LibRowGatherScatter.lean ====
/-
  Rows of a matrix, gathered and scatter-added: what `stablehlo.gather` and an accumulating
  `stablehlo.scatter` of WHOLE ROWS read and hit, at coordinates.

  A node table `[N, C]` (or a vector `[N]`) is gathered at a list of `E` start indices `[E, 1]`: result row `e`
  is the operand row `idx[e, 0]`, read signed and clamped into `[0, N − 1]`. The scatter goes the other way: update
  row `e` is added into operand row `idx[e, 0]`, read signed and NOT clamped (an index outside `[0, N)` lands
  nowhere). Each statement is for an arbitrary record of dimension numbers whose fields are fixed by hypotheses, so it
  applies to any constant that has those fields.

  Pointwise: `gather_rows_row`, `gather_rows_col`, `gather_entries` (which operand element a result element reads);
  `resultIdx?_eq_some_iff`, `scatter_rows`, `scatter_entries` (which operand element an update element lands on).
  Whole arrays at an element: `gather_rows_apply`, `gather_entries_apply`, and at exact arithmetic
  `scatterAdd_rows_apply`, `scatterAdd_entries_apply` (the sum over update indices re-indexed as a sum over the
  edges that land on the row). Last, the wrap of a negative index (`select (x < 0) (x + n) x`) on an index that is
  already a row: `select_slt_addi`, `wrap_of_nonneg`, `clamp_wrap_row`.
-/
import Idealize.ShloMosaic.PureOps.Ideal
import Idealize.ShloMosaic.Lib.ValueIdx

noncomputable section

open scoped BigOperators

open Idealize.ShloMosaic Idealize.ShloMosaic.ValueIdx

namespace RowGatherScatter

/-! ## Gather of whole rows -/

/-- A gather of whole rows of a matrix (one start index per result row, the row axis collapsed, the
    column axis an offset axis of full width): result element `(e, c)` reads operand row
    `idx[e, 0]`, read signed and clamped into `[0, N − 1]`. -/
theorem gather_rows_row {N E C w : Nat}
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec (⟨2, ![E, 1]⟩ : Shape) w) (j : (⟨2, ![E, C]⟩ : Shape).Idx) :
    (d.operandIdx j idx 0).val = min (idx (ix2 (j 0) 0)).toInt.toNat (N - 1) := by
  obtain ⟨od, cd, ob, sb, sm, iv, ss, wf⟩ := d
  simp only at h1 h2 h3 h4 h5 h6 h7
  subst h1 h2 h3 h4 h5 h6 h7
  show GatherDims.start _ j idx 0 + GatherDims.batchCoord _ j 0 + GatherDims.offCoord _ j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ hc, GatherDims.siIdx (⟨[1], [0], [], [], [0], 1, ![1, C], wf⟩ :
      GatherDims (⟨2, ![N, C]⟩ : Shape) (⟨2, ![E, 1]⟩ : Shape) (⟨2, ![E, C]⟩ : Shape)) j
      ⟨List.idxOf (0 : Fin 2) [0], hc⟩ = ix2 (j 0) 0 := by
    intro hc; funext b; refine Fin.ext ?_
    match b with
    | ⟨0, _⟩ => rfl
    | ⟨1, _⟩ => rfl
  rw [hsi]
  rfl

/-- … and column `c` of that row: the column coordinate is kept. -/
theorem gather_rows_col {N E C w : Nat}
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec (⟨2, ![E, 1]⟩ : Shape) w) (j : (⟨2, ![E, C]⟩ : Shape).Idx) :
    d.operandIdx j idx 1 = j 1 := by
  obtain ⟨od, cd, ob, sb, sm, iv, ss, wf⟩ := d
  simp only at h1 h2 h3 h4 h5 h6 h7
  subst h1 h2 h3 h4 h5 h6 h7
  refine Fin.ext ?_
  show GatherDims.start _ j idx 1 + GatherDims.batchCoord _ j 1 + GatherDims.offCoord _ j 1 = _
  rw [GatherDims.batchCoord_eq_zero _ _ _ List.not_mem_nil]
  unfold GatherDims.start
  rw [dif_neg (show (1 : Fin 2) ∉ [0] by decide)]
  unfold GatherDims.offCoord
  rw [dif_pos ((GatherDims.mem_sKept _ _).mpr ⟨show (1 : Fin 2) ∉ [0] by decide, List.not_mem_nil⟩)]
  simp only [Nat.add_zero, Nat.zero_add]
  rfl

/-- A gather of single entries of a vector (one start index per result entry, the one operand axis
    collapsed): result entry `e` reads operand entry `idx[e, 0]`, read signed and clamped into
    `[0, N − 1]`. -/
theorem gather_entries {N E w : Nat}
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (idx : IVec (⟨2, ![E, 1]⟩ : Shape) w) (j : (⟨1, ![E]⟩ : Shape).Idx) :
    (d.operandIdx j idx 0).val = min (idx (ix2 (j 0) 0)).toInt.toNat (N - 1) := by
  obtain ⟨od, cd, ob, sb, sm, iv, ss, wf⟩ := d
  simp only at h1 h2 h3 h4 h5 h6 h7
  subst h1 h2 h3 h4 h5 h6 h7
  show GatherDims.start _ j idx 0 + GatherDims.batchCoord _ j 0 + GatherDims.offCoord _ j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ hc, GatherDims.siIdx (⟨[], [0], [], [], [0], 1, ![1], wf⟩ :
      GatherDims (⟨1, ![N]⟩ : Shape) (⟨2, ![E, 1]⟩ : Shape) (⟨1, ![E]⟩ : Shape)) j
      ⟨List.idxOf (0 : Fin 1) [0], hc⟩ = ix2 (j 0) 0 := by
    intro hc; funext b; refine Fin.ext ?_
    match b with
    | ⟨0, _⟩ => rfl
    | ⟨1, _⟩ => rfl
  rw [hsi]
  rfl

/-! ## Scatter of whole rows -/

/-- An update lands on operand element `i` exactly when, on every operand axis, the window's start
    (read signed, not clamped) plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    constructor
    · intro e a
      have e' := congrFun (Option.some.inj e) a
      have e'' : (d.start j idx a + (d.window j a : ℤ)).toNat = (i a).val := congrArg Fin.val e'
      have := (h a).1
      omega
    · intro e
      congr 1
      funext a
      refine Fin.ext ?_
      show (d.start j idx a + (d.window j a : ℤ)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- A scatter of whole rows into a matrix (one scatter index per update row, the row axis inserted,
    the column axis a window axis): update element `(e, c)` lands on operand element `(n, c')`
    exactly when the scatter index `idx[e, 0]`, read signed, is `n` and `c = c'`. An index outside
    `[0, N)` lands nowhere. -/
theorem scatter_rows {N E C w : Nat}
    (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1)
    (idx : IVec (⟨2, ![E, 1]⟩ : Shape) w) (j : (⟨2, ![E, C]⟩ : Shape).Idx) (i : (⟨2, ![N, C]⟩ : Shape).Idx) :
    d.resultIdx? j idx = some i ↔ (idx (ix2 (j 0) 0)).toInt = ((i 0).val : ℤ) ∧ (j 1).val = (i 1).val := by
  rw [resultIdx?_eq_some_iff]
  obtain ⟨uw, iw, sd, iv, wf⟩ := d
  simp only at h1 h2 h3 h4
  subst h1 h2 h3 h4
  have h10 : (1 : Fin 2) ∉ [0] := by decide
  have hs0 : ScatterDims.start (⟨[1], [0], [0], 1, wf⟩ :
      ScatterDims (⟨2, ![N, C]⟩ : Shape) (⟨2, ![E, 1]⟩ : Shape) (⟨2, ![E, C]⟩ : Shape)) j idx 0
      = (idx (ix2 (j 0) 0)).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[1], [0], [0], 1, wf⟩ :
      ScatterDims (⟨2, ![N, C]⟩ : Shape) (⟨2, ![E, 1]⟩ : Shape) (⟨2, ![E, C]⟩ : Shape)) j 0 = 0 := by
    unfold ScatterDims.window
    rw [dif_neg]
    intro h
    simp only [Shape.kept, List.mem_filter, decide_eq_true_eq] at h
    exact h.2 (List.mem_singleton.mpr rfl)
  have hs1 : ScatterDims.start (⟨[1], [0], [0], 1, wf⟩ :
      ScatterDims (⟨2, ![N, C]⟩ : Shape) (⟨2, ![E, 1]⟩ : Shape) (⟨2, ![E, C]⟩ : Shape)) j idx 1 = 0 := by
    unfold ScatterDims.start
    rw [dif_neg h10]
  have hw1 : ScatterDims.window (⟨[1], [0], [0], 1, wf⟩ :
      ScatterDims (⟨2, ![N, C]⟩ : Shape) (⟨2, ![E, 1]⟩ : Shape) (⟨2, ![E, C]⟩ : Shape)) j 1 = (j 1).val := by
    unfold ScatterDims.window
    rw [dif_pos (by
      simp only [Shape.kept, List.mem_filter, decide_eq_true_eq]
      exact ⟨List.mem_finRange _, h10⟩)]
    rfl
  constructor
  · intro h
    have a0 := h 0
    have a1 := h 1
    rw [hs0, hw0] at a0
    rw [hs1, hw1] at a1
    refine ⟨by simpa using a0, by exact_mod_cast (by simpa using a1)⟩
  · rintro ⟨e0, e1⟩ a
    match a with
    | ⟨0, _⟩ =>
      show ScatterDims.start _ j idx 0 + (ScatterDims.window _ j 0 : ℤ) = _
      rw [hs0, hw0, e0]; simp
    | ⟨1, _⟩ =>
      show ScatterDims.start _ j idx 1 + (ScatterDims.window _ j 1 : ℤ) = _
      rw [hs1, hw1, e1]; simp

/-- A scatter of single entries into a vector (one scatter index per update entry, the one operand
    axis inserted): update entry `e` lands on operand entry `n` exactly when the scatter index
    `idx[e, 0]`, read signed, is `n`. -/
theorem scatter_entries {N E w : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (idx : IVec (⟨2, ![E, 1]⟩ : Shape) w) (j : (⟨1, ![E]⟩ : Shape).Idx) (i : (⟨1, ![N]⟩ : Shape).Idx) :
    d.resultIdx? j idx = some i ↔ (idx (ix2 (j 0) 0)).toInt = ((i 0).val : ℤ) := by
  rw [resultIdx?_eq_some_iff]
  obtain ⟨uw, iw, sd, iv, wf⟩ := d
  simp only at h1 h2 h3 h4
  subst h1 h2 h3 h4
  have hs0 : ScatterDims.start (⟨[], [0], [0], 1, wf⟩ :
      ScatterDims (⟨1, ![N]⟩ : Shape) (⟨2, ![E, 1]⟩ : Shape) (⟨1, ![E]⟩ : Shape)) j idx 0
      = (idx (ix2 (j 0) 0)).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[], [0], [0], 1, wf⟩ :
      ScatterDims (⟨1, ![N]⟩ : Shape) (⟨2, ![E, 1]⟩ : Shape) (⟨1, ![E]⟩ : Shape)) j 0 = 0 := by
    unfold ScatterDims.window
    rw [dif_neg]
    intro h
    simp only [Shape.kept, List.mem_filter, decide_eq_true_eq] at h
    exact h.2 (List.mem_singleton.mpr rfl)
  constructor
  · intro h
    have a0 := h 0
    rw [hs0, hw0] at a0
    simpa using a0
  · intro e0 a
    match a with
    | ⟨0, _⟩ =>
      show ScatterDims.start _ j idx 0 + (ScatterDims.window _ j 0 : ℤ) = _
      rw [hs0, hw0, e0]; simp

/-! ## The two operations read at an element of the whole array -/

/-- The operand row a gather reads for result row (edge) `e`: the start index `idx[e, 0]`, read
    signed and clamped into `[0, N − 1]`. -/
def grow {N : Nat} (hN : 0 < N) {E w : Nat} (idx : IVec (⟨2, ![E, 1]⟩ : Shape) w) (e : Fin E) : Fin N :=
  ⟨min (idx (ix2 e 0)).toInt.toNat (N - 1), by omega⟩

/-- The clamped row's value. -/
theorem grow_val {N : Nat} (hN : 0 < N) {E w : Nat} (idx : IVec (⟨2, ![E, 1]⟩ : Shape) w) (e : Fin E) :
    (grow hN idx e).val = min (idx (ix2 e 0)).toInt.toNat (N - 1) := rfl

/-- A start index that is already a row `v < N` is read as that row. -/
theorem grow_eq_of_toInt {N : Nat} (hN : 0 < N) {E w : Nat} (idx : IVec (⟨2, ![E, 1]⟩ : Shape) w) (e : Fin E)
    (v : Fin N) (h : (idx (ix2 e 0)).toInt = (v.val : ℤ)) : grow hN idx e = v := by
  refine Fin.ext ?_
  rw [grow_val, h, Int.toNat_natCast]
  have := v.isLt
  omega

/-- THE ROW GATHER AT `(e, c)`: the matrix at the clamped row of edge `e`, column `c`. -/
theorem gather_rows_apply {α : Type} {N E C w : Nat} (hN : 0 < N)
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec (⟨2, ![E, 1]⟩ : Shape) w) (e : Fin E) (c : Fin C) :
    Host.gather d x idx (ix2 e c) = x (ix2 (grow hN idx e) c) := by
  unfold Host.gather
  congr 1
  funext a
  match a with
  | ⟨0, _⟩ => exact Fin.ext (gather_rows_row d h1 h2 h3 h4 h5 h6 h7 idx (ix2 e c))
  | ⟨1, _⟩ => exact gather_rows_col d h1 h2 h3 h4 h5 h6 h7 idx (ix2 e c)

/-- THE ENTRY GATHER AT `e`: the vector at the clamped start index of edge `e`. -/
theorem gather_entries_apply {α : Type} {N E w : Nat} (hN : 0 < N)
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec (⟨2, ![E, 1]⟩ : Shape) w) (e : Fin E) :
    Host.gather d x idx (ix1 e) = x (ix1 (grow hN idx e)) := by
  unfold Host.gather
  congr 1
  funext a
  match a with
  | ⟨0, _⟩ => exact Fin.ext (gather_entries d h1 h2 h3 h4 h5 h6 h7 idx (ix1 e))

/-- THE ROW SCATTER-ADD AT `(v, c)`, exact arithmetic: the operand's element plus the sum, over the
    edges `e` whose scatter index `idx[e, 0]` (read signed) is the row `v`, of the update's element
    `(e, c)`. -/
theorem scatterAdd_rows_apply {φ : FTy} {N E C w : Nat}
    (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1)
    (z : FVec Ideal (⟨2, ![N, C]⟩ : Shape) φ) (idx : IVec (⟨2, ![E, 1]⟩ : Shape) w)
    (upd : FVec Ideal (⟨2, ![E, C]⟩ : Shape) φ) (v : Fin N) (c : Fin C) :
    Host.scatterAdd (F := Ideal) d z idx upd (ix2 v c)
      = z (ix2 v c) + ∑ e ∈ Finset.univ.filter (fun e : Fin E => (idx (ix2 e 0)).toInt = (v.val : ℤ)), upd (ix2 e c) := by
  show z (ix2 v c) + ∑ j ∈ Finset.univ.filter (fun j => d.resultIdx? j idx = some (ix2 v c)), upd j = _
  congr 1
  have key : ∀ j : (⟨2, ![E, C]⟩ : Shape).Idx, d.resultIdx? j idx = some (ix2 v c) ↔
      (idx (ix2 (j 0) 0)).toInt = (v.val : ℤ) ∧ (j 1).val = c.val :=
    fun j => scatter_rows d h1 h2 h3 h4 idx j (ix2 v c)
  have back : ∀ j : (⟨2, ![E, C]⟩ : Shape).Idx, (j 1).val = c.val → ix2 (j 0) c = j := by
    intro j hj
    have : j 1 = c := Fin.ext hj
    rw [← this]; exact (eq_ix2 j).symm
  refine Finset.sum_nbij' (fun j => (j 0 : Fin E)) (fun e => ix2 e c) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e c)).mpr ⟨(Finset.mem_filter.mp he).2, rfl⟩⟩
  · intro j hj
    exact back j ((key j).mp (Finset.mem_filter.mp hj).2).2
  · intro e _
    rfl
  · intro j hj
    exact congrArg upd (back j ((key j).mp (Finset.mem_filter.mp hj).2).2).symm

/-- THE ENTRY SCATTER-ADD AT `v`, exact arithmetic: the operand's entry plus the sum, over the edges
    `e` whose scatter index `idx[e, 0]` (read signed) is `v`, of the update's entry `e`. -/
theorem scatterAdd_entries_apply {φ : FTy} {N E w : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (z : FVec Ideal (⟨1, ![N]⟩ : Shape) φ) (idx : IVec (⟨2, ![E, 1]⟩ : Shape) w)
    (upd : FVec Ideal (⟨1, ![E]⟩ : Shape) φ) (v : Fin N) :
    Host.scatterAdd (F := Ideal) d z idx upd (ix1 v)
      = z (ix1 v) + ∑ e ∈ Finset.univ.filter (fun e : Fin E => (idx (ix2 e 0)).toInt = (v.val : ℤ)), upd (ix1 e) := by
  show z (ix1 v) + ∑ j ∈ Finset.univ.filter (fun j => d.resultIdx? j idx = some (ix1 v)), upd j = _
  congr 1
  have key : ∀ j : (⟨1, ![E]⟩ : Shape).Idx, d.resultIdx? j idx = some (ix1 v) ↔
      (idx (ix2 (j 0) 0)).toInt = (v.val : ℤ) :=
    fun j => scatter_entries d h1 h2 h3 h4 idx j (ix1 v)
  refine Finset.sum_nbij' (fun j => (j 0 : Fin E)) (fun e => ix1 e) ?_ ?_ ?_ ?_ ?_
  · intro j hj
    exact Finset.mem_filter.mpr ⟨Finset.mem_univ _, (key j).mp (Finset.mem_filter.mp hj).2⟩
  · intro e he
    exact Finset.mem_filter.mpr ⟨Finset.mem_univ _, (key (ix1 e)).mpr (Finset.mem_filter.mp he).2⟩
  · intro j _
    exact (eq_ix1 j).symm
  · intro e _
    rfl
  · intro j _
    exact congrArg upd (eq_ix1 j)

/-! ## The wrap of a negative index -/

/-- A select between `x + n` and `x` on the signed comparison `x < z` is the `if` on it. -/
theorem select_slt_addi {w : Nat} (x z n : BitVec w) :
    Scalar.select (IntOp.cmpi .slt x z) (IntOp.addi x n) x = if x.toInt < z.toInt then x + n else x := by
  by_cases h : x.toInt < z.toInt
  · simp [Scalar.select, IntOp.cmpi, IntOp.addi, BitVec.slt, h]
  · simp [Scalar.select, IntOp.cmpi, IntOp.addi, BitVec.slt, h]

/-- The same for whole arrays, read at an element. -/
theorem select_slt_addi_apply {s : Shape} {w : Nat} (x z n : IVec s w) (i : s.Idx) :
    select (cmpi .slt x z) (addi x n) x i = if (x i).toInt < (z i).toInt then x i + n i else x i :=
  select_slt_addi (x i) (z i) (n i)

/-- An index that is not negative is not wrapped. -/
theorem wrap_of_nonneg {w : Nat} (x n : BitVec w) (h : 0 ≤ x.toInt) :
    Scalar.select (IntOp.cmpi .slt x 0#w) (IntOp.addi x n) x = x := by
  rw [select_slt_addi, if_neg]
  rw [BitVec.toInt_zero]; omega

/-- An index that is already a row `v < N` survives the wrap and the gather's clamp into `[0, N − 1]`:
    both leave `v`. -/
theorem clamp_wrap_row {w : Nat} (b n : BitVec w) (v N : Nat) (hb : b.toInt = (v : ℤ)) (hv : v < N) :
    min (Scalar.select (IntOp.cmpi .slt b 0#w) (IntOp.addi b n) b).toInt.toNat (N - 1) = v := by
  rw [wrap_of_nonneg b n (by rw [hb]; exact Int.natCast_nonneg _), hb, Int.toNat_natCast]
  omega

/-- The plain form: with `w = if b < 0 then b + n else b` for a `b` that reads as the row `v < N`,
    the clamp of `w` into `[0, N − 1]` is `v`. -/
theorem clamp_wrap_row' {w : Nat} (b n : BitVec w) (v N : Nat) (hb : b.toInt = (v : ℤ)) (hv : v < N) :
    min (if b.toInt < 0 then b + n else b).toInt.toNat (N - 1) = v := by
  rw [if_neg (by rw [hb]; exact not_lt.mpr (Int.natCast_nonneg _)), hb, Int.toNat_natCast]
  omega

end RowGatherScatter

end
-- ==== Proof.LibEdgeGraph.lean ====
/-
  The graph of two index columns, and the host operations of a message-passing layer read at an entry.

  An edge list is two columns of E signed words: the gather reads the table's row named by the first (clamped into the
  table), the accumulating scatter adds row e into the row named by the second (nowhere when that is outside the table).
  So the scatter-add of gathered rows into zeros is, at (v, c), the aggregate of the table over the edges into v, and
  the scatter-add of ones the degree. A gather guarded by an in-range mask (rows whose index is outside the table are
  replaced by a fill value) is the plain gather when every index is in range.
-/
import Idealize.ShloMosaic.PureOps.Ideal.Laws
import Idealize.ShloMosaic.Lib.ValueIdx
import Idealize.ShloMosaic.Lib.Affine
import Idealize.ShloMosaic.PureOps.Reduce
import proofs.«124056_j2044404433054_2_alg».proof.Proof.LibRowGatherScatter
import proofs.«124056_j2044404433054_2_alg».proof.Proof.LibMeanLayers

noncomputable section

open scoped BigOperators

namespace Cert.Sage

open Idealize.ShloMosaic Idealize.ShloMosaic.ValueIdx RowGatherScatter

/-- The graph of a column of source indices and a column of destination indices. -/
def graphOf {N E w : ℕ} (hN : 0 < N) (idxS idxD : IVec (⟨2, ![E, 1]⟩ : Shape) w) : Graph N E where
  inE v := Finset.univ.filter fun e : Fin E => (idxD (ix2 e 0)).toInt = (v.val : ℤ)
  src e := grow hN idxS e

/-- A matrix as a table of rows. -/
def tab {N C : ℕ} {φ : FTy} (y : FVec Ideal (⟨2, ![N, C]⟩ : Shape) φ) : Fin N → Fin C → EReal := fun v k => y (ix2 v k)

/-- A vector as a function of its position. -/
def vec {C : ℕ} {φ : FTy} (y : FVec Ideal (⟨1, ![C]⟩ : Shape) φ) : Fin C → EReal := fun k => y (ix1 k)

/-- ROWS GATHERED AND SCATTER-ADDED INTO ZEROS are the aggregate of the table. -/
theorem scatterAdd_gather_eq_agg {φ : FTy} {N E C w : Nat} (hN : 0 < N)
    (g : GatherDims (⟨2, ![N, C]⟩ : Shape) (⟨2, ![E, 1]⟩ : Shape) (⟨2, ![E, C]⟩ : Shape))
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (d : ScatterDims (⟨2, ![N, C]⟩ : Shape) (⟨2, ![E, 1]⟩ : Shape) (⟨2, ![E, C]⟩ : Shape))
    (d1 : d.updateWindowDims = [1]) (d2 : d.insertedWindowDims = [0]) (d3 : d.scatterDimsToOperandDims = [0])
    (d4 : d.indexVectorDim = 1)
    (z y : FVec Ideal (⟨2, ![N, C]⟩ : Shape) φ) (hz : ∀ i, z i = zero) (idxS idxD : IVec (⟨2, ![E, 1]⟩ : Shape) w)
    (v : Fin N) (c : Fin C) :
    Host.scatterAdd (F := Ideal) d z idxD (Host.gather g y idxS) (ix2 v c) = agg (graphOf hN idxS idxD) (tab y) v c := by
  rw [scatterAdd_rows_apply d d1 d2 d3 d4, hz]
  refine congrArg (zero + ·) (Finset.sum_congr rfl fun e _ => ?_)
  exact gather_rows_apply hN g g1 g2 g3 g4 g5 g6 g7 y idxS e c

/-- ONES SCATTER-ADDED INTO ZEROS count the edges into a node. -/
theorem scatterAdd_ones_eq_deg {φ : FTy} {N E w : Nat} (hN : 0 < N)
    (d : ScatterDims (⟨1, ![N]⟩ : Shape) (⟨2, ![E, 1]⟩ : Shape) (⟨1, ![E]⟩ : Shape))
    (d1 : d.updateWindowDims = []) (d2 : d.insertedWindowDims = [0]) (d3 : d.scatterDimsToOperandDims = [0])
    (d4 : d.indexVectorDim = 1)
    (z : FVec Ideal (⟨1, ![N]⟩ : Shape) φ) (hz : ∀ i, z i = zero) (u : FVec Ideal (⟨1, ![E]⟩ : Shape) φ)
    (hu : ∀ i, u i = one) (idxS idxD : IVec (⟨2, ![E, 1]⟩ : Shape) w) (v : Fin N) :
    Host.scatterAdd (F := Ideal) d z idxD u (ix1 v) = deg (graphOf hN idxS idxD) v := by
  rw [scatterAdd_entries_apply d d1 d2 d3 d4, hz]
  exact congrArg (zero + ·) (Finset.sum_congr rfl fun e _ => hu _)

/-- A fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi (1#1 : BitVec 1) 1#1 = 1#1 from by decide]
    exact foldl_andi_one f hf l

/-- A reduction by `and` from 1 of an array of ones is one everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_one x hx _

/-- A select whose condition is one everywhere is its first branch. -/
theorem select_of_all_one {s : Shape} {α : Type} (m : IVec s 1) (a b : s.Idx → α) (hm : ∀ i, m i = 1#1) :
    select m a b = a := by
  funext i
  show Scalar.select (m i) (a i) (b i) = a i
  rw [hm i]
  rfl

/-- The wrap of a negative index leaves a word that is not negative as it is. -/
theorem wrap_eq_self {w : Nat} (x n : BitVec w) (h : 0 ≤ x.toInt) :
    Scalar.select (IntOp.cmpi .slt x 0#w) (IntOp.addi x n) x = x := wrap_of_nonneg x n h

end Cert.Sage

end
-- ==== Proof.KernelSage.lean ====
/-
  The idealized kernel program's stages in the words of the graph layer: when every source index is a row of the node
  table the guarded gather is the plain gather, the neighbours' sums are the graph's aggregate, the reciprocal-degree
  column its reciprocal, and each region's array the layer with the aggregate scaled by that reciprocal; the last region
  computes each head from the aggregate of the projected table.
-/
import proofs.«124056_j2044404433054_2_alg».proof.Proof.KernelTerms
import proofs.«124056_j2044404433054_2_alg».proof.Proof.LibEdgeGraph
import proofs.«124056_j2044404433054_2_alg».proof.Proof.LibColumnBroadcast
import proofs.«124056_j2044404433054_2_alg».proof.Proof.LibJoinColumns
import Idealize.ShloMosaic.Lib.ValueLayout

set_option maxRecDepth 16384

noncomputable section

open scoped BigOperators

namespace Cert.KernelIdeal.Stages

open Cert.KernelIdeal Cert.KernelIdeal.Gen Idealize.ShloMosaic Idealize.ShloMosaic.ValueIdx Cert.Sage RowGatherScatter

theorem hN : 0 < 20000 := by decide

/-- The graph the kernel program aggregates over. -/
def gK (a1 : IVec S2x320000 32) : Graph 20000 320000 := graphOf hN (takeIdx (srcV a1)) (dstIdx (dstV a1))

/-- Every source index is a row of the node table. -/
def SrcOk (a1 : IVec S2x320000 32) : Prop := ∀ j : S320000.Idx, 0 ≤ (srcV a1 j).toInt ∧ (srcV a1 j).toInt < 20000

/-- Then every edge passes the in-range test of the guarded gather. -/
theorem takeMask_one (a1 : IVec S2x320000 32) (h : SrcOk a1) (j : S320000.Idx) : takeMask (srcV a1) j = 1#1 := by
  unfold takeMask
  refine reduce_andi_of_all_one _ _ _ _ (fun i => ?_) (fun _ => rfl) j
  have key : ∃ j', takeIdx (srcV a1) i
      = Scalar.select (IntOp.cmpi .slt (srcV a1 j') 0#32) (IntOp.addi (srcV a1 j') 20000#32) (srcV a1 j') := ⟨_, rfl⟩
  obtain ⟨j', hj'⟩ := key
  obtain ⟨hge, hlt⟩ := h j'
  show IntOp.andi (IntOp.cmpi .sge (takeIdx (srcV a1) i) 0#32) (IntOp.cmpi .sle (takeIdx (srcV a1) i) 19999#32) = 1#1
  rw [hj', wrap_eq_self _ _ hge]
  have e0 : (0#32 : BitVec 32).toInt = 0 := by decide
  have e1 : (19999#32 : BitVec 32).toInt = 19999 := by decide
  exact IntOp.andi_eq_one.mpr ⟨IntOp.cmpi_sge.mpr (by rw [e0]; exact hge), IntOp.cmpi_sle.mpr (by rw [e1]; omega)⟩

theorem take128_eq (y : FVec Ideal S20000x128 .f32) (a1 : IVec S2x320000 32) (h : SrcOk a1) :
    take128 y (srcV a1) = Host.gather gather_S20000x128_S320000x1_S320000x128_1_0_n_n_0_1_1128 y (takeIdx (srcV a1)) :=
  select_of_all_one _ _ _ fun i => takeMask_one a1 h _

theorem take256_eq (y : FVec Ideal S20000x256 .f32) (a1 : IVec S2x320000 32) (h : SrcOk a1) :
    take256 y (srcV a1) = Host.gather gather_S20000x256_S320000x1_S320000x256_1_0_n_n_0_1_1256 y (takeIdx (srcV a1)) :=
  select_of_all_one _ _ _ fun i => takeMask_one a1 h _

/-- The neighbours' sums are the graph's aggregate. -/
theorem seg128_apply (y : FVec Ideal S20000x128 .f32) (a1 : IVec S2x320000 32) (h : SrcOk a1) (P : Fin 20000) (k : Fin 128) :
    seg128 (take128 y (srcV a1)) (dstV a1) (ix2 P k) = agg (gK a1) (tab y) P k := by
  rw [take128_eq y a1 h]
  exact scatterAdd_gather_eq_agg (φ := .f32) hN gather_S20000x128_S320000x1_S320000x128_1_0_n_n_0_1_1128 rfl rfl rfl rfl rfl rfl rfl scatter_S20000x128_S320000x1_S320000x128_1_0_0_1 rfl rfl rfl rfl
    (broadcastInDim S20000x128 ![] bcast_S_S20000x128 (constant (F := Ideal) S_ .f32 0x00000000#32)) y (fun _ => rfl) (takeIdx (srcV a1)) (dstIdx (dstV a1)) P k

theorem seg256_apply (y : FVec Ideal S20000x256 .f32) (a1 : IVec S2x320000 32) (h : SrcOk a1) (P : Fin 20000) (k : Fin 256) :
    seg256 (take256 y (srcV a1)) (dstV a1) (ix2 P k) = agg (gK a1) (tab y) P k := by
  rw [take256_eq y a1 h]
  exact scatterAdd_gather_eq_agg (φ := .f32) hN gather_S20000x256_S320000x1_S320000x256_1_0_n_n_0_1_1256 rfl rfl rfl rfl rfl rfl rfl scatter_S20000x256_S320000x1_S320000x256_1_0_0_1 rfl rfl rfl rfl
    (broadcastInDim S20000x256 ![] bcast_S_S20000x256 (constant (F := Ideal) S_ .f32 0x00000000#32)) y (fun _ => rfl) (takeIdx (srcV a1)) (dstIdx (dstV a1)) P k

/-- The reciprocal-degree column. -/
theorem invd_apply (a1 : IVec S2x320000 32) (P : Fin 20000) : invd (dstV a1) (ix2 P (0 : Fin 1)) = rdeg (gK a1) P := by
  unfold invd
  rw [ColumnBroadcast.shapeCast_a_a1_apply]
  have hd := scatterAdd_ones_eq_deg (φ := .f32) hN scatter_S20000_S320000x1_S320000_n_0_0_1 rfl rfl rfl rfl (broadcastInDim S20000 ![] bcast_S_S20000 (constant (F := Ideal) S_ .f32 0x00000000#32)) (fun _ => rfl)
    (broadcastInDim S320000 ![] bcast_S_S320000 (constant (F := Ideal) S_ .f32 0x3F800000#32)) (fun _ => rfl)
    (takeIdx (srcV a1)) (dstIdx (dstV a1)) P
  simp only [Host.divf, maximumf]
  rw [hd]
  rfl

section
variable (a0 : FVec Ideal S20000x128 .f32) (a1 : IVec S2x320000 32) (a2 : FVec Ideal S128x256 .f32) (a3 : FVec Ideal S256 .f32) (a4 : FVec Ideal S128x256 .f32) (a5 : FVec Ideal S256x256 .f32) (a6 : FVec Ideal S256 .f32) (a7 : FVec Ideal S256x256 .f32) (a8 : FVec Ideal S128x256 .f32) (a9 : FVec Ideal S256 .f32) (a10 : FVec Ideal S256x64 .f32) (a11 : FVec Ideal S64 .f32) (a12 : FVec Ideal S256x64 .f32) (a13 : FVec Ideal S256x64 .f32) (a14 : FVec Ideal S64 .f32) (a15 : FVec Ideal S256x64 .f32)

/-- THE PROJECTION, a column of the left weights. -/
theorem PJk_left (P : Fin 20000) (c : Fin 64) (c' : Fin 128) (hc : c'.val = c.val) :
    PJk a0 a1 a2 a3 a4 a5 a6 a7 a8 a9 a10 a13 (ix2 P c') = lin (tab (φ := .f32) (H2k a0 a1 a2 a3 a4 a5 a6 a7 a8 a9) P) (tab a10) c := by
  unfold PJk Region2.G
  show ∑ k : Fin 256, H2k a0 a1 a2 a3 a4 a5 a6 a7 a8 a9 (ix2 P k)
    * concatenate S256x128 1 [⟨S256x64, a10⟩, ⟨S256x64, a13⟩] concatenates_S256x64_S256x64_S256x128_d1 (ix2 k c') = _
  simp only [JoinColumns.left_apply a10 a13 _ _ c c' hc]
  rfl

/-- THE PROJECTION, a column of the right weights. -/
theorem PJk_right (P : Fin 20000) (c : Fin 64) (c' : Fin 128) (hc : c'.val = 64 + c.val) :
    PJk a0 a1 a2 a3 a4 a5 a6 a7 a8 a9 a10 a13 (ix2 P c') = lin (tab (φ := .f32) (H2k a0 a1 a2 a3 a4 a5 a6 a7 a8 a9) P) (tab a13) c := by
  unfold PJk Region2.G
  show ∑ k : Fin 256, H2k a0 a1 a2 a3 a4 a5 a6 a7 a8 a9 (ix2 P k)
    * concatenate S256x128 1 [⟨S256x64, a10⟩, ⟨S256x64, a13⟩] concatenates_S256x64_S256x64_S256x128_d1 (ix2 k c') = _
  simp only [JoinColumns.right_apply a10 a13 _ _ c c' hc]
  rfl

variable (h : SrcOk a1)
include h

/-- LAYER 1. -/
theorem Hk_apply (P : Fin 20000) (q : Fin 256) :
    Hk a0 a1 a2 a3 a4 (ix2 P q) = max (convScaled (gK a1) (tab a0) (tab a2) (vec a3) (tab a4) P q) zero := by
  unfold Hk Region0.G S1k
  show max ((∑ k : Fin 128, (seg128 (take128 a0 (srcV a1)) (dstV a1) (ix2 P k) * invd (dstV a1) (ix2 P (0 : Fin 1))) * a2 (ix2 k q)
      + ∑ k : Fin 128, a0 (ix2 P k) * a4 (ix2 k q)) + shapeCast S1x256 a3 shapeCasts_S256_S1x256 (ix2 (0 : Fin 1) q)) zero = _
  simp only [seg128_apply _ a1 h, invd_apply, shapeCast_a_1a_apply]
  rfl

/-- LAYER 2. -/
theorem H2k_apply (P : Fin 20000) (q : Fin 256) :
    H2k a0 a1 a2 a3 a4 a5 a6 a7 a8 a9 (ix2 P q)
      = max (convScaled (gK a1) (tab (φ := .f32) (Hk a0 a1 a2 a3 a4)) (tab a5) (vec a6) (tab a7) P q) zero
        + (lin (tab a0 P) (tab a8) q + vec a9 q) := by
  unfold H2k Region1.G S2k
  show max ((∑ k : Fin 256, (seg256 (take256 (Hk a0 a1 a2 a3 a4) (srcV a1)) (dstV a1) (ix2 P k) * invd (dstV a1) (ix2 P (0 : Fin 1))) * a5 (ix2 k q)
      + ∑ k : Fin 256, Hk a0 a1 a2 a3 a4 (ix2 P k) * a7 (ix2 k q)) + shapeCast S1x256 a6 shapeCasts_S256_S1x256 (ix2 (0 : Fin 1) q)) zero
      + (∑ k : Fin 128, a0 (ix2 P k) * a8 (ix2 k q) + shapeCast S1x256 a9 shapeCasts_S256_S1x256 (ix2 (0 : Fin 1) q)) = _
  simp only [seg256_apply _ a1 h, invd_apply, shapeCast_a_1a_apply]
  rfl

/-- THE MEAN HEAD: column c of the last region's array. -/
theorem OUTk_left (P : Fin 20000) (c : Fin 64) (c' : Fin 128) (hc : c'.val = c.val) :
    OUTk a0 a1 a2 a3 a4 a5 a6 a7 a8 a9 a10 a11 a12 a13 a14 a15 (ix2 P c')
      = headProjected (gK a1) (tab (φ := .f32) (H2k a0 a1 a2 a3 a4 a5 a6 a7 a8 a9)) (tab a10) (vec a11) (tab a12) P c := by
  have hlt : ((ix2 P c' : S20000x128.Idx) 1).val < 64 := by show c'.val < 64; omega
  have hcc : (⟨((ix2 P c' : S20000x128.Idx) 1).val, hlt⟩ : Fin 64) = c := Fin.ext hc
  unfold OUTk Region3.G
  rw [dif_pos hlt, hcc]
  show ((S3k a0 a1 a2 a3 a4 a5 a6 a7 a8 a9 a10 a13 (ix2 P c') * invd (dstV a1) (ix2 P (0 : Fin 1)))
      + shapeCast S1x64 a11 shapeCasts_S64_S1x64 (ix2 (0 : Fin 1) c))
      + ∑ k : Fin 256, H2k a0 a1 a2 a3 a4 a5 a6 a7 a8 a9 (ix2 P k) * a12 (ix2 k c) = _
  unfold S3k
  rw [seg128_apply _ a1 h, invd_apply, shapeCast_a_1a_apply]
  unfold headProjected agg
  simp only [tab, PJk_left a0 a1 a2 a3 a4 a5 a6 a7 a8 a9 a10 a13 _ c c' hc]
  rfl

/-- THE LOG-DEVIATION HEAD: column 64 + c of the last region's array. -/
theorem OUTk_right (P : Fin 20000) (c : Fin 64) (c' : Fin 128) (hc : c'.val = 64 + c.val) :
    OUTk a0 a1 a2 a3 a4 a5 a6 a7 a8 a9 a10 a11 a12 a13 a14 a15 (ix2 P c')
      = headProjected (gK a1) (tab (φ := .f32) (H2k a0 a1 a2 a3 a4 a5 a6 a7 a8 a9)) (tab a13) (vec a14) (tab a15) P c := by
  have hge : ¬ ((ix2 P c' : S20000x128.Idx) 1).val < 64 := by show ¬ c'.val < 64; omega
  have hcc : ∀ pf, (⟨((ix2 P c' : S20000x128.Idx) 1).val - 64, pf⟩ : Fin 64) = c := fun pf => Fin.ext (by show c'.val - 64 = c.val; omega)
  unfold OUTk Region3.G
  rw [dif_neg hge]
  simp only [hcc]
  show ((S3k a0 a1 a2 a3 a4 a5 a6 a7 a8 a9 a10 a13 (ix2 P c') * invd (dstV a1) (ix2 P (0 : Fin 1)))
      + shapeCast S1x64 a14 shapeCasts_S64_S1x64 (ix2 (0 : Fin 1) c))
      + ∑ k : Fin 256, H2k a0 a1 a2 a3 a4 a5 a6 a7 a8 a9 (ix2 P k) * a15 (ix2 k c) = _
  unfold S3k
  rw [seg128_apply _ a1 h, invd_apply, shapeCast_a_1a_apply]
  unfold headProjected agg
  simp only [tab, PJk_right a0 a1 a2 a3 a4 a5 a6 a7 a8 a9 a10 a13 _ c c' hc]
  rfl

end

end Cert.KernelIdeal.Stages

end
-- ==== Proof.RefValue.lean ====
/-
  The reference program's stages read at an entry: each of its two layers and two heads is the mean-aggregation layer of
  the graph given by its source and destination index columns.
-/
import proofs.«124056_j2044404433054_2_alg».proof.Proof.Gen.ReferenceIdeal.Read
import proofs.«124056_j2044404433054_2_alg».proof.Proof.LibEdgeGraph

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx Cert.Sage

theorem hN : 0 < 20000 := by decide

/-- The graph the reference aggregates over: its wrapped source column and its destination column. -/
def gR (x1 : IVec S2x320000 32) : Graph 20000 320000 := graphOf hN (val_main_v9 (F := Ideal) x1) (val_main_v12 (F := Ideal) x1)

/-- The broadcast of max (degree, 1) to a column of any row. -/
theorem mdeg_row (x1 : IVec S2x320000 32) (P : Fin 20000) : val_main_v19 (F := Ideal) x1 (ix1 P) = mdeg (gR x1) P := by
  rw [val_main_v19_apply]
  unfold val_main_v17
  have := scatterAdd_ones_eq_deg (φ := .f32) hN scatter_S20000_S320000x1_S320000_n_0_0_1 rfl rfl rfl rfl (val_main_v15 (F := Ideal)) (fun _ => rfl)
    (val_main_v14 (F := Ideal)) (fun _ => rfl) (val_main_v9 (F := Ideal) x1) (val_main_v16 (F := Ideal) x1) P
  rw [this]
  rfl

/-- The neighbours' sums of a table. -/
theorem seg128_apply (y : FVec Ideal S20000x128 .f32) (x1 : IVec S2x320000 32) (P : Fin 20000) (k : Fin 128) :
    Host.scatterAdd (F := Ideal) scatter_S20000x128_S320000x1_S320000x128_1_0_0_1 (val_main_v11 (F := Ideal)) (val_main_v12 (F := Ideal) x1)
      (Host.gather gather_S20000x128_S320000x1_S320000x128_1_0_n_n_0_1_1128 y (val_main_v9 (F := Ideal) x1)) (ix2 P k)
      = agg (gR x1) (tab y) P k :=
  scatterAdd_gather_eq_agg (φ := .f32) hN gather_S20000x128_S320000x1_S320000x128_1_0_n_n_0_1_1128 rfl rfl rfl rfl rfl rfl rfl
    scatter_S20000x128_S320000x1_S320000x128_1_0_0_1 rfl rfl rfl rfl (val_main_v11 (F := Ideal)) y (fun _ => rfl) _ _ P k

theorem seg256_apply (y : FVec Ideal S20000x256 .f32) (x1 : IVec S2x320000 32) (P : Fin 20000) (k : Fin 256) :
    Host.scatterAdd (F := Ideal) scatter_S20000x256_S320000x1_S320000x256_1_0_0_1 (val_main_v37 (F := Ideal)) (val_main_v12 (F := Ideal) x1)
      (Host.gather gather_S20000x256_S320000x1_S320000x256_1_0_n_n_0_1_1256 y (val_main_v9 (F := Ideal) x1)) (ix2 P k)
      = agg (gR x1) (tab y) P k :=
  scatterAdd_gather_eq_agg (φ := .f32) hN gather_S20000x256_S320000x1_S320000x256_1_0_n_n_0_1_1256 rfl rfl rfl rfl rfl rfl rfl
    scatter_S20000x256_S320000x1_S320000x256_1_0_0_1 rfl rfl rfl rfl (val_main_v37 (F := Ideal)) y (fun _ => rfl) _ _ P k

/-- LAYER 1 at (P, q). -/
theorem h1_apply (x0 : FVec Ideal S20000x128 .f32) (x1 : IVec S2x320000 32) (x2 : FVec Ideal S128x256 .f32) (x3 : FVec Ideal S256 .f32) (x4 : FVec Ideal S128x256 .f32) (P : Fin 20000) (q : Fin 256) :
    val_main_v29 (F := Ideal) x0 x1 x2 x3 x4 (ix2 P q) = max (conv (gR x1) (tab x0) (tab x2) (vec x3) (tab x4) P q) zero := by
  have e1 : ∀ k : Fin 128, lidx_main_v23 (ix2 P q) k = ix2 P k := fun k => funext fun a => by match a with | ⟨0, _⟩ => rfl | ⟨1, _⟩ => rfl
  have e2 : ∀ k : Fin 128, ridx_main_v23 (ix2 P q) k = ix2 k q := fun k => funext fun a => by match a with | ⟨0, _⟩ => rfl | ⟨1, _⟩ => rfl
  have e3 : ∀ k : Fin 128, lidx_main_v27 (ix2 P q) k = ix2 P k := fun k => funext fun a => by match a with | ⟨0, _⟩ => rfl | ⟨1, _⟩ => rfl
  have e4 : ∀ k : Fin 128, ridx_main_v27 (ix2 P q) k = ix2 k q := fun k => funext fun a => by match a with | ⟨0, _⟩ => rfl | ⟨1, _⟩ => rfl
  have e5 : idx_main_v24 (idx_main_v25 (ix2 P q)) = ix1 q := funext fun a => by match a with | ⟨0, _⟩ => rfl
  have e6 : ∀ k : Fin 128, idx_main_v20 (idx_main_v21 (ix2 P k)) = ix1 P := fun k => funext fun a => by match a with | ⟨0, _⟩ => rfl
  have hm : ∀ k : Fin 128, val_main_v22 (F := Ideal) x0 x1 (ix2 P k) = Ideal.div (agg (gR x1) (tab x0) P k) (mdeg (gR x1) P) := by
    intro k
    rw [val_main_v22_apply, val_main_v21_apply, val_main_v20_apply, e6, mdeg_row]
    unfold val_main_v13 val_main_v10
    rw [seg128_apply]
    rfl
  rw [val_main_v29_apply, val_main_v28_apply, val_main_v26_apply, val_main_v23_apply, val_main_v27_apply, val_main_v25_apply,
    val_main_v24_apply, e5]
  simp only [e1, e2, e3, e4, hm]
  rfl

/-- LAYER 2 (with the linear image of the input features) at (P, q). -/
theorem h2_apply (x0 : FVec Ideal S20000x128 .f32) (x1 : IVec S2x320000 32) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 : FVec Ideal S128x256 .f32) (x9 : FVec Ideal S256 .f32) (P : Fin 20000) (q : Fin 256) :
    val_main_v60 (F := Ideal) x0 x1 x2 x3 x4 x5 x6 x7 x8 x9 (ix2 P q)
      = max (conv (gR x1) (tab (φ := .f32) (val_main_v29 (F := Ideal) x0 x1 x2 x3 x4)) (tab x5) (vec x6) (tab x7) P q) zero
        + (lin (tab x0 P) (tab x8) q + vec x9 q) := by
  have e1 : ∀ k : Fin 256, lidx_main_v49 (ix2 P q) k = ix2 P k := fun k => funext fun a => by match a with | ⟨0, _⟩ => rfl | ⟨1, _⟩ => rfl
  have e2 : ∀ k : Fin 256, ridx_main_v49 (ix2 P q) k = ix2 k q := fun k => funext fun a => by match a with | ⟨0, _⟩ => rfl | ⟨1, _⟩ => rfl
  have e3 : ∀ k : Fin 256, lidx_main_v53 (ix2 P q) k = ix2 P k := fun k => funext fun a => by match a with | ⟨0, _⟩ => rfl | ⟨1, _⟩ => rfl
  have e4 : ∀ k : Fin 256, ridx_main_v53 (ix2 P q) k = ix2 k q := fun k => funext fun a => by match a with | ⟨0, _⟩ => rfl | ⟨1, _⟩ => rfl
  have e5 : ∀ k : Fin 128, lidx_main_v56 (ix2 P q) k = ix2 P k := fun k => funext fun a => by match a with | ⟨0, _⟩ => rfl | ⟨1, _⟩ => rfl
  have e6 : ∀ k : Fin 128, ridx_main_v56 (ix2 P q) k = ix2 k q := fun k => funext fun a => by match a with | ⟨0, _⟩ => rfl | ⟨1, _⟩ => rfl
  have e7 : idx_main_v50 (idx_main_v51 (ix2 P q)) = ix1 q := funext fun a => by match a with | ⟨0, _⟩ => rfl
  have e8 : idx_main_v57 (idx_main_v58 (ix2 P q)) = ix1 q := funext fun a => by match a with | ⟨0, _⟩ => rfl
  have ehmm : ∀ k : Fin 256, idx_main_v46 (idx_main_v47 (ix2 P k)) = ix1 P := fun k => funext fun a => by match a with | ⟨0, _⟩ => rfl
  have hm : ∀ k : Fin 256, val_main_v48 (F := Ideal) x0 x1 x2 x3 x4 (ix2 P k) = Ideal.div (agg (gR x1) (tab (φ := .f32) (val_main_v29 (F := Ideal) x0 x1 x2 x3 x4)) P k) (mdeg (gR x1) P) := by
    intro k
    rw [val_main_v48_apply, val_main_v47_apply, val_main_v46_apply, ehmm]
    have hd : val_main_v45 (F := Ideal) x1 (ix1 P) = mdeg (gR x1) P := mdeg_row x1 P
    rw [hd]
    have hs : val_main_v39 (F := Ideal) x0 x1 x2 x3 x4 (ix2 P k) = agg (gR x1) (tab (φ := .f32) (val_main_v29 (F := Ideal) x0 x1 x2 x3 x4)) P k := seg256_apply (val_main_v29 (F := Ideal) x0 x1 x2 x3 x4) x1 P k
    rw [hs]
    rfl
  rw [val_main_v60_apply, val_main_v55_apply, val_main_v54_apply, val_main_v52_apply, val_main_v49_apply, val_main_v53_apply,
    val_main_v51_apply, val_main_v50_apply, e7, val_main_v59_apply, val_main_v56_apply, val_main_v58_apply, val_main_v57_apply, e8]
  simp only [e1, e2, e3, e4, e5, e6, hm]
  rfl

/-- THE MEAN HEAD at (P, c). -/
theorem mu_apply (x0 : FVec Ideal S20000x128 .f32) (x1 : IVec S2x320000 32) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 : FVec Ideal S128x256 .f32) (x9 : FVec Ideal S256 .f32) (x10 : FVec Ideal S256x64 .f32) (x11 : FVec Ideal S64 .f32) (x12 : FVec Ideal S256x64 .f32) (P : Fin 20000) (c : Fin 64) :
    val_main_v85 (F := Ideal) x0 x1 x2 x3 x4 x5 x6 x7 x8 x9 x10 x11 x12 (ix2 P c)
      = conv (gR x1) (tab (φ := .f32) (val_main_v60 (F := Ideal) x0 x1 x2 x3 x4 x5 x6 x7 x8 x9)) (tab x10) (vec x11) (tab x12) P c := by
  have e1 : ∀ k : Fin 256, lidx_main_v80 (ix2 P c) k = ix2 P k := fun k => funext fun a => by match a with | ⟨0, _⟩ => rfl | ⟨1, _⟩ => rfl
  have e2 : ∀ k : Fin 256, ridx_main_v80 (ix2 P c) k = ix2 k c := fun k => funext fun a => by match a with | ⟨0, _⟩ => rfl | ⟨1, _⟩ => rfl
  have e3 : ∀ k : Fin 256, lidx_main_v84 (ix2 P c) k = ix2 P k := fun k => funext fun a => by match a with | ⟨0, _⟩ => rfl | ⟨1, _⟩ => rfl
  have e4 : ∀ k : Fin 256, ridx_main_v84 (ix2 P c) k = ix2 k c := fun k => funext fun a => by match a with | ⟨0, _⟩ => rfl | ⟨1, _⟩ => rfl
  have e7 : idx_main_v81 (idx_main_v82 (ix2 P c)) = ix1 c := funext fun a => by match a with | ⟨0, _⟩ => rfl
  have ehmm : ∀ k : Fin 256, idx_main_v77 (idx_main_v78 (ix2 P k)) = ix1 P := fun k => funext fun a => by match a with | ⟨0, _⟩ => rfl
  have hm : ∀ k : Fin 256, val_main_v79 (F := Ideal) x0 x1 x2 x3 x4 x5 x6 x7 x8 x9 (ix2 P k) = Ideal.div (agg (gR x1) (tab (φ := .f32) (val_main_v60 (F := Ideal) x0 x1 x2 x3 x4 x5 x6 x7 x8 x9)) P k) (mdeg (gR x1) P) := by
    intro k
    rw [val_main_v79_apply, val_main_v78_apply, val_main_v77_apply, ehmm]
    have hd : val_main_v76 (F := Ideal) x1 (ix1 P) = mdeg (gR x1) P := mdeg_row x1 P
    rw [hd]
    have hs : val_main_v70 (F := Ideal) x0 x1 x2 x3 x4 x5 x6 x7 x8 x9 (ix2 P k) = agg (gR x1) (tab (φ := .f32) (val_main_v60 (F := Ideal) x0 x1 x2 x3 x4 x5 x6 x7 x8 x9)) P k := seg256_apply (val_main_v60 (F := Ideal) x0 x1 x2 x3 x4 x5 x6 x7 x8 x9) x1 P k
    rw [hs]
    rfl
  rw [val_main_v85_apply, val_main_v83_apply, val_main_v80_apply, val_main_v84_apply,
    val_main_v82_apply, val_main_v81_apply, e7]
  simp only [e1, e2, e3, e4, hm]
  rfl

/-- THE LOG-DEVIATION HEAD at (P, c). -/
theorem ls_apply (x0 : FVec Ideal S20000x128 .f32) (x1 : IVec S2x320000 32) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 : FVec Ideal S128x256 .f32) (x9 : FVec Ideal S256 .f32) (x13 : FVec Ideal S256x64 .f32) (x14 : FVec Ideal S64 .f32) (x15 : FVec Ideal S256x64 .f32) (P : Fin 20000) (c : Fin 64) :
    val_main_v110 (F := Ideal) x0 x1 x2 x3 x4 x5 x6 x7 x8 x9 x13 x14 x15 (ix2 P c)
      = conv (gR x1) (tab (φ := .f32) (val_main_v60 (F := Ideal) x0 x1 x2 x3 x4 x5 x6 x7 x8 x9)) (tab x13) (vec x14) (tab x15) P c := by
  have e1 : ∀ k : Fin 256, lidx_main_v105 (ix2 P c) k = ix2 P k := fun k => funext fun a => by match a with | ⟨0, _⟩ => rfl | ⟨1, _⟩ => rfl
  have e2 : ∀ k : Fin 256, ridx_main_v105 (ix2 P c) k = ix2 k c := fun k => funext fun a => by match a with | ⟨0, _⟩ => rfl | ⟨1, _⟩ => rfl
  have e3 : ∀ k : Fin 256, lidx_main_v109 (ix2 P c) k = ix2 P k := fun k => funext fun a => by match a with | ⟨0, _⟩ => rfl | ⟨1, _⟩ => rfl
  have e4 : ∀ k : Fin 256, ridx_main_v109 (ix2 P c) k = ix2 k c := fun k => funext fun a => by match a with | ⟨0, _⟩ => rfl | ⟨1, _⟩ => rfl
  have e7 : idx_main_v106 (idx_main_v107 (ix2 P c)) = ix1 c := funext fun a => by match a with | ⟨0, _⟩ => rfl
  have ehmm : ∀ k : Fin 256, idx_main_v102 (idx_main_v103 (ix2 P k)) = ix1 P := fun k => funext fun a => by match a with | ⟨0, _⟩ => rfl
  have hm : ∀ k : Fin 256, val_main_v104 (F := Ideal) x0 x1 x2 x3 x4 x5 x6 x7 x8 x9 (ix2 P k) = Ideal.div (agg (gR x1) (tab (φ := .f32) (val_main_v60 (F := Ideal) x0 x1 x2 x3 x4 x5 x6 x7 x8 x9)) P k) (mdeg (gR x1) P) := by
    intro k
    rw [val_main_v104_apply, val_main_v103_apply, val_main_v102_apply, ehmm]
    have hd : val_main_v101 (F := Ideal) x1 (ix1 P) = mdeg (gR x1) P := mdeg_row x1 P
    rw [hd]
    have hs : val_main_v95 (F := Ideal) x0 x1 x2 x3 x4 x5 x6 x7 x8 x9 (ix2 P k) = agg (gR x1) (tab (φ := .f32) (val_main_v60 (F := Ideal) x0 x1 x2 x3 x4 x5 x6 x7 x8 x9)) P k := seg256_apply (val_main_v60 (F := Ideal) x0 x1 x2 x3 x4 x5 x6 x7 x8 x9) x1 P k
    rw [hs]
    rfl
  rw [val_main_v110_apply, val_main_v108_apply, val_main_v105_apply, val_main_v109_apply,
    val_main_v107_apply, val_main_v106_apply, e7]
  simp only [e1, e2, e3, e4, hm]
  rfl

end Cert.ReferenceIdeal.RefValue

end
-- ==== Proof.PreDecode.lean ====
/-
  What the precondition says of the arguments: every entry of every float argument is a real number, and every source
  index (row 0 of the edge list) is a row of the node table, 0 ≤ src < 20000.
-/
import proofs.«124056_j2044404433054_2_alg».proof.Pre_finite_inputs
import Idealize.ShloMosaic.PureOps.Ideal.Laws
import Idealize.ShloMosaic.Lib.ValueIdx
import Idealize.ShloMosaic.Lib.ReduceAll
import proofs.«124056_j2044404433054_2_alg».proof.Proof.LibRealSums

noncomputable section

namespace Cert.PreFacts

open Cert.Pre_finite_inputs Idealize.ShloMosaic Idealize.ShloMosaic.ValueIdx RealSums

/-- The f32 word of +infinity. -/
theorem ofBits_inf : Ideal.ofBits .f32 0x7F800000#32 = ⊤ := by simp [Ideal.ofBits, Ideal.ieee]

/-- An extended real whose absolute value is below +infinity is a real number. -/
theorem isReal_of_abs_lt (x : EReal) (h : Ideal.cmp .olt (max x (-x)) (Ideal.ofBits .f32 0x7F800000#32) = 1#1) : IsReal x := by
  rw [ofBits_inf] at h
  have hb : ∀ b : Bool, BitVec.ofBool b = 1#1 → b = true := by decide
  have h' : max x (-x) < ⊤ := by
    have := hb _ h
    simpa [Ideal.cmp] using this
  induction x using EReal.rec with
  | bot => simp at h'
  | coe r => exact ⟨r, rfl⟩
  | top => simp at h'

variable [hP : Cert.Pre_finite_inputs.Facts]

instance : Subsingleton S_.Idx := ⟨fun a b => funext fun d => d.elim0⟩

/-- The source column of the edge list: row 0, as a vector of 320000 words. -/
def srcOf (a1 : IVec S2x320000 32) : IVec S320000 32 :=
  shapeCast S320000 (extractStridedSlice S1x320000 ![0, 0] a1 (by decide)) (by decide)

/-- The precondition, read. -/
structure Good (a0 : FVec Ideal S20000x128 .f32) (a1 : IVec S2x320000 32) (a2 : FVec Ideal S128x256 .f32) (a3 : FVec Ideal S256 .f32) (a4 : FVec Ideal S128x256 .f32) (a5 : FVec Ideal S256x256 .f32) (a6 : FVec Ideal S256 .f32) (a7 : FVec Ideal S256x256 .f32) (a8 : FVec Ideal S128x256 .f32) (a9 : FVec Ideal S256 .f32) (a10 : FVec Ideal S256x64 .f32) (a11 : FVec Ideal S64 .f32) (a12 : FVec Ideal S256x64 .f32) (a13 : FVec Ideal S256x64 .f32) (a14 : FVec Ideal S64 .f32) (a15 : FVec Ideal S256x64 .f32) : Prop where
  r0 : ∀ i, IsReal (a0 i)
  r2 : ∀ i, IsReal (a2 i)
  r3 : ∀ i, IsReal (a3 i)
  r4 : ∀ i, IsReal (a4 i)
  r5 : ∀ i, IsReal (a5 i)
  r6 : ∀ i, IsReal (a6 i)
  r7 : ∀ i, IsReal (a7 i)
  r8 : ∀ i, IsReal (a8 i)
  r9 : ∀ i, IsReal (a9 i)
  r10 : ∀ i, IsReal (a10 i)
  r11 : ∀ i, IsReal (a11 i)
  r12 : ∀ i, IsReal (a12 i)
  r13 : ∀ i, IsReal (a13 i)
  r14 : ∀ i, IsReal (a14 i)
  r15 : ∀ i, IsReal (a15 i)
  src_ge : ∀ j, 0 ≤ (srcOf a1 j).toInt
  src_lt : ∀ j, (srcOf a1 j).toInt < 20000

theorem real_of_all {s : Shape} (a : FVec Ideal s .f32) (inf : FVec Ideal s .f32) (hinf : ∀ i, inf i = Ideal.ofBits .f32 0x7F800000#32)
    {ax : List (Fin s.rank)} (hr : s.ReducesTo ax S_) (hu : 0 < S_.numel)
    (h : Host.reduce IntOp.andi (cmpf .olt (Host.absf a) inf) (constantI S_ 1 1#1) hr hu ix0 = 1#1) (i : s.Idx) : IsReal (a i) := by
  have := Host.reduce_andi_all _ _ hr hu ix0 h i
  refine isReal_of_abs_lt (a i) ?_
  rw [← hinf i]
  exact this

theorem good_of_pre (a0 : FVec Ideal S20000x128 .f32) (a1 : IVec S2x320000 32) (a2 : FVec Ideal S128x256 .f32) (a3 : FVec Ideal S256 .f32) (a4 : FVec Ideal S128x256 .f32) (a5 : FVec Ideal S256x256 .f32) (a6 : FVec Ideal S256 .f32) (a7 : FVec Ideal S256x256 .f32) (a8 : FVec Ideal S128x256 .f32) (a9 : FVec Ideal S256 .f32) (a10 : FVec Ideal S256x64 .f32) (a11 : FVec Ideal S64 .f32) (a12 : FVec Ideal S256x64 .f32) (a13 : FVec Ideal S256x64 .f32) (a14 : FVec Ideal S64 .f32) (a15 : FVec Ideal S256x64 .f32)
    (h : Cert.Pre_finite_inputs.fn (F := Ideal) a0 a1 a2 a3 a4 a5 a6 a7 a8 a9 a10 a11 a12 a13 a14 a15 = fun _ => 1#1) : Good a0 a1 a2 a3 a4 a5 a6 a7 a8 a9 a10 a11 a12 a13 a14 a15 := by
  have h0 := congrFun h ix0
  simp only [fn, fn_part1, fn_part2, fn_part3, fn_part4, andi, IntOp.andi_eq_one] at h0
  obtain ⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, hge⟩, hlt⟩ := h0
  refine ⟨fun i => real_of_all a0 _ (fun _ => rfl) _ _ h0 i, fun i => real_of_all a2 _ (fun _ => rfl) _ _ h2 i, fun i => real_of_all a3 _ (fun _ => rfl) _ _ h3 i, fun i => real_of_all a4 _ (fun _ => rfl) _ _ h4 i, fun i => real_of_all a5 _ (fun _ => rfl) _ _ h5 i, fun i => real_of_all a6 _ (fun _ => rfl) _ _ h6 i, fun i => real_of_all a7 _ (fun _ => rfl) _ _ h7 i, fun i => real_of_all a8 _ (fun _ => rfl) _ _ h8 i, fun i => real_of_all a9 _ (fun _ => rfl) _ _ h9 i, fun i => real_of_all a10 _ (fun _ => rfl) _ _ h10 i, fun i => real_of_all a11 _ (fun _ => rfl) _ _ h11 i, fun i => real_of_all a12 _ (fun _ => rfl) _ _ h12 i, fun i => real_of_all a13 _ (fun _ => rfl) _ _ h13 i, fun i => real_of_all a14 _ (fun _ => rfl) _ _ h14 i, fun i => real_of_all a15 _ (fun _ => rfl) _ _ h15 i, ?_, ?_⟩
  · intro j
    have := Host.reduce_andi_all _ _ _ _ ix0 hge j
    have h2 : (0#32 : BitVec 32).toInt ≤ (srcOf a1 j).toInt := IntOp.cmpi_sge.mp this
    have e : (0#32 : BitVec 32).toInt = 0 := by decide
    rw [e] at h2
    exact h2
  · intro j
    have := Host.reduce_andi_all _ _ _ _ ix0 hlt j
    have h2 : (srcOf a1 j).toInt < (20000#32 : BitVec 32).toInt := IntOp.cmpi_slt.mp this
    have e : (20000#32 : BitVec 32).toInt = 20000 := by decide
    rw [e] at h2
    exact h2

end Cert.PreFacts

end
-- ==== Proof.FinalBridge.lean ====
/-
  The two programs compute the same two arrays: under the precondition (every float entry a real number, every source
  index a row of the node table) each layer of the kernel program is the reference's layer, entry by entry, and each
  head computed from the aggregate of the projected table is the reference's head, whose mean is taken before the product.
-/
import proofs.«124056_j2044404433054_2_alg».proof.Proof.KernelSage
import proofs.«124056_j2044404433054_2_alg».proof.Proof.RefValue
import proofs.«124056_j2044404433054_2_alg».proof.Proof.PreDecode

set_option maxRecDepth 16384

noncomputable section

open scoped BigOperators

namespace Cert.Bridge

open Cert.KernelIdeal Idealize.ShloMosaic Idealize.ShloMosaic.ValueIdx Cert.Sage RealSums
open Cert.KernelIdeal.Stages Cert.ReferenceIdeal.Read Cert.ReferenceIdeal.RefValue

variable (a0 : FVec Ideal S20000x128 .f32) (a1 : IVec S2x320000 32) (a2 : FVec Ideal S128x256 .f32) (a3 : FVec Ideal S256 .f32) (a4 : FVec Ideal S128x256 .f32) (a5 : FVec Ideal S256x256 .f32) (a6 : FVec Ideal S256 .f32) (a7 : FVec Ideal S256x256 .f32) (a8 : FVec Ideal S128x256 .f32) (a9 : FVec Ideal S256 .f32) (a10 : FVec Ideal S256x64 .f32) (a11 : FVec Ideal S64 .f32) (a12 : FVec Ideal S256x64 .f32) (a13 : FVec Ideal S256x64 .f32) (a14 : FVec Ideal S64 .f32) (a15 : FVec Ideal S256x64 .f32)

/-- Both programs aggregate over one graph: the same wrapped source column, the same destination column. -/
theorem graphs_eq : gK a1 = gR a1 := rfl

variable [Cert.Pre_finite_inputs.Facts] (hG : Cert.PreFacts.Good a0 a1 a2 a3 a4 a5 a6 a7 a8 a9 a10 a11 a12 a13 a14 a15)

include hG in
theorem srcOk : SrcOk a1 := fun j => ⟨hG.src_ge j, hG.src_lt j⟩

include hG in
/-- LAYER 1: the same array. -/
theorem H_eq : Hk a0 a1 a2 a3 a4 = val_main_v29 (F := Ideal) a0 a1 a2 a3 a4 := by
  funext i
  obtain ⟨P, q, rfl⟩ : ∃ (P : Fin 20000) (q : Fin 256), i = ix2 P q := ⟨i 0, i 1, eq_ix2 i⟩
  rw [Hk_apply a0 a1 a2 a3 a4 (srcOk a0 a1 a2 a3 a4 a5 a6 a7 a8 a9 a10 a11 a12 a13 a14 a15 hG), convScaled_eq, graphs_eq]
  exact (h1_apply a0 a1 a2 a3 a4 P q).symm

include hG in
/-- LAYER 2: the same array. -/
theorem H2_eq : H2k a0 a1 a2 a3 a4 a5 a6 a7 a8 a9 = val_main_v60 (F := Ideal) a0 a1 a2 a3 a4 a5 a6 a7 a8 a9 := by
  funext i
  obtain ⟨P, q, rfl⟩ : ∃ (P : Fin 20000) (q : Fin 256), i = ix2 P q := ⟨i 0, i 1, eq_ix2 i⟩
  rw [H2k_apply a0 a1 a2 a3 a4 a5 a6 a7 a8 a9 (srcOk a0 a1 a2 a3 a4 a5 a6 a7 a8 a9 a10 a11 a12 a13 a14 a15 hG), convScaled_eq, graphs_eq, H_eq a0 a1 a2 a3 a4 a5 a6 a7 a8 a9 a10 a11 a12 a13 a14 a15 hG]
  exact (h2_apply a0 a1 a2 a3 a4 a5 a6 a7 a8 a9 P q).symm

include hG in
/-- The first hidden layer's entries are real numbers. -/
theorem real_H (P : Fin 20000) (q : Fin 256) : IsReal (val_main_v29 (F := Ideal) a0 a1 a2 a3 a4 (ix2 P q)) := by
  rw [h1_apply]
  exact isReal_max (isReal_conv _ _ _ _ _ (fun v k => hG.r0 _) (fun k q => hG.r2 _) (fun q => hG.r3 _) (fun k q => hG.r4 _) P q) isReal_zero'

include hG in
/-- The second hidden layer's entries are real numbers. -/
theorem real_H2 (P : Fin 20000) (q : Fin 256) : IsReal (val_main_v60 (F := Ideal) a0 a1 a2 a3 a4 a5 a6 a7 a8 a9 (ix2 P q)) := by
  rw [h2_apply]
  exact isReal_add
    (isReal_max (isReal_conv _ _ _ _ _ (fun v k => real_H a0 a1 a2 a3 a4 a5 a6 a7 a8 a9 a10 a11 a12 a13 a14 a15 hG v k) (fun k q => hG.r5 _) (fun q => hG.r6 _) (fun k q => hG.r7 _) P q) isReal_zero')
    (isReal_add (isReal_lin _ _ (fun k => hG.r0 _) (fun k q => hG.r8 _) q) (hG.r9 _))

include hG in
/-- THE MEAN HEAD: the same array. -/
theorem MU_eq : extractStridedSlice S20000x64 ![0, 0] (OUTk a0 a1 a2 a3 a4 a5 a6 a7 a8 a9 a10 a11 a12 a13 a14 a15) Cert.KernelIdeal.Gen.slices_S20000x128_S20000x64_0_0
    = val_main_v85 (F := Ideal) a0 a1 a2 a3 a4 a5 a6 a7 a8 a9 a10 a11 a12 := by
  funext i
  obtain ⟨P, c, rfl⟩ : ∃ (P : Fin 20000) (c : Fin 64), i = ix2 P c := ⟨i 0, i 1, eq_ix2 i⟩
  have hc : c.val < 128 := by omega
  rw [slice2_axis1_apply 0 _ _ P c (⟨c.val, hc⟩ : Fin 128) (by simp),
    OUTk_left a0 a1 a2 a3 a4 a5 a6 a7 a8 a9 a10 a11 a12 a13 a14 a15 (srcOk a0 a1 a2 a3 a4 a5 a6 a7 a8 a9 a10 a11 a12 a13 a14 a15 hG) P c (⟨c.val, hc⟩ : Fin 128) rfl, H2_eq a0 a1 a2 a3 a4 a5 a6 a7 a8 a9 a10 a11 a12 a13 a14 a15 hG, graphs_eq,
    headProjected_eq (gR a1) (tab (φ := .f32) (val_main_v60 (F := Ideal) a0 a1 a2 a3 a4 a5 a6 a7 a8 a9)) (tab a10) (vec a11) (tab a12)
      (fun v k => real_H2 a0 a1 a2 a3 a4 a5 a6 a7 a8 a9 a10 a11 a12 a13 a14 a15 hG v k) (fun k q => hG.r10 _) P c]
  exact (mu_apply a0 a1 a2 a3 a4 a5 a6 a7 a8 a9 a10 a11 a12 P c).symm

include hG in
/-- THE LOG-DEVIATION HEAD: the same array. -/
theorem LS_eq : extractStridedSlice S20000x64 ![0, 64] (OUTk a0 a1 a2 a3 a4 a5 a6 a7 a8 a9 a10 a11 a12 a13 a14 a15) Cert.KernelIdeal.Gen.slices_S20000x128_S20000x64_0_64
    = val_main_v110 (F := Ideal) a0 a1 a2 a3 a4 a5 a6 a7 a8 a9 a13 a14 a15 := by
  funext i
  obtain ⟨P, c, rfl⟩ : ∃ (P : Fin 20000) (c : Fin 64), i = ix2 P c := ⟨i 0, i 1, eq_ix2 i⟩
  have hc : 64 + c.val < 128 := by omega
  rw [slice2_axis1_apply 64 _ _ P c (⟨64 + c.val, hc⟩ : Fin 128) rfl,
    OUTk_right a0 a1 a2 a3 a4 a5 a6 a7 a8 a9 a10 a11 a12 a13 a14 a15 (srcOk a0 a1 a2 a3 a4 a5 a6 a7 a8 a9 a10 a11 a12 a13 a14 a15 hG) P c (⟨64 + c.val, hc⟩ : Fin 128) rfl, H2_eq a0 a1 a2 a3 a4 a5 a6 a7 a8 a9 a10 a11 a12 a13 a14 a15 hG, graphs_eq,
    headProjected_eq (gR a1) (tab (φ := .f32) (val_main_v60 (F := Ideal) a0 a1 a2 a3 a4 a5 a6 a7 a8 a9)) (tab a13) (vec a14) (tab a15)
      (fun v k => real_H2 a0 a1 a2 a3 a4 a5 a6 a7 a8 a9 a10 a11 a12 a13 a14 a15 hG v k) (fun k q => hG.r13 _) P c]
  exact (ls_apply a0 a1 a2 a3 a4 a5 a6 a7 a8 a9 a13 a14 a15 P c).symm

end Cert.Bridge

end
-- ==== Proof.lean ====
/-
  The certificate of a two-layer mean-aggregation graph encoder with two linear heads (mean and log-deviation), a kernel
  program of four row-blocked TensorCore regions among host gathers and scatter-adds, against its plain reference.

  Both programs aggregate over the graph of the edge list: the sum over the edges into a node of the source node's row,
  divided by max (degree, 1). The kernel multiplies by the reciprocal instead of dividing and adds the bias last (the same
  extended real), gathers with an in-range guard (the plain gather when every source index is a row of the node table: the
  precondition's second half), and computes the two heads from the aggregate of the PROJECTED table, scaling afterwards:
  the same number when every entry is real (the precondition's first half: every float argument is finite, so every
  intermediate entry is a finite sum of products of reals).

  The three frames are the generated ones (the reference's from its generated run); the idealization rewrote nothing.
-/
import proofs.«124056_j2044404433054_2_alg».proof.Defs
import proofs.«124056_j2044404433054_2_alg».proof.Proof.Gen.Kernel
import proofs.«124056_j2044404433054_2_alg».proof.Proof.Gen.Kernel.Skeleton
import proofs.«124056_j2044404433054_2_alg».proof.Proof.Gen.Kernel.Launch
import proofs.«124056_j2044404433054_2_alg».proof.Proof.Gen.Kernel.Points
import proofs.«124056_j2044404433054_2_alg».proof.Proof.Gen.Kernel.Frame
import proofs.«124056_j2044404433054_2_alg».proof.Proof.Gen.KernelIdeal
import proofs.«124056_j2044404433054_2_alg».proof.Proof.Gen.KernelIdeal.Skeleton
import proofs.«124056_j2044404433054_2_alg».proof.Proof.Gen.KernelIdeal.Launch
import proofs.«124056_j2044404433054_2_alg».proof.Proof.Gen.KernelIdeal.Points
import proofs.«124056_j2044404433054_2_alg».proof.Proof.Gen.KernelIdeal.Frame
import proofs.«124056_j2044404433054_2_alg».proof.Proof.Gen.ReferenceIdeal
import proofs.«124056_j2044404433054_2_alg».proof.Proof.Gen.Pre_finite_inputs
import proofs.«124056_j2044404433054_2_alg».proof.Proof.Gen.ReferenceIdeal.Read
import proofs.«124056_j2044404433054_2_alg».proof.Proof.KernelValue
import proofs.«124056_j2044404433054_2_alg».proof.Proof.FinalBridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 8000000 in
/-- Both programs end with the mean head and the log-deviation head of the same two-layer graph encoder. -/
theorem algebraic : Cert.algebraic_KernelIdeal_ReferenceIdeal := by
  intro m ρ m' ρ' hpre hagree
  have hG : ∀ c : Dev Cert.KernelIdeal.nD, Cert.PreFacts.Good (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) :=
    fun c => Cert.PreFacts.good_of_pre _ _ _ _ _ _ _ _ _ _ _ _ _ _ _ _ (hpre c)
  refine ⟨fun c => extractStridedSlice Cert.KernelIdeal.S20000x64 ![0, 0] (Cert.KernelIdeal.Stages.OUTk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) Cert.KernelIdeal.Gen.slices_S20000x128_S20000x64_0_0,
    fun c => extractStridedSlice Cert.KernelIdeal.S20000x64 ![0, 64] (Cert.KernelIdeal.Stages.OUTk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) Cert.KernelIdeal.Gen.slices_S20000x128_S20000x64_0_64, ?_, ?_⟩
  · refine (θ_run Cert.KernelIdeal.defs _ _).mono (fun r h c => ?_) (Cert.KernelIdeal.Named.run_named (F := Ideal) m ρ)
    exact ⟨(h c).1.trans (Cert.KernelIdeal.Stages.W13_v35 m ρ c), (h c).2.1.trans (Cert.KernelIdeal.Stages.W13_v36 m ρ c), (h c).2.2⟩
  · refine (θ_run Cert.ReferenceIdeal.defs _ _).mono (fun r h c => ?_) (Cert.ReferenceIdeal.Value.run (F := Ideal) m' ρ')
    obtain ⟨g0, g1, g2, g3, g4, g5, g6, g7, g8, g9, g10, g11, g12, g13, g14, g15⟩ := hagree c
    refine ⟨(h c).1.trans ?_, (h c).2.1.trans ?_, (h c).2.2⟩
    · rw [Cert.ReferenceIdeal.Read.val_main_v85_eq, g0, g1, g2, g3, g4, g5, g6, g7, g8, g9, g10, g11, g12]
      exact (Cert.Bridge.MU_eq _ _ _ _ _ _ _ _ _ _ _ _ _ _ _ _ (hG c)).symm
    · rw [Cert.ReferenceIdeal.Read.val_main_v110_eq, g0, g1, g2, g3, g4, g5, g6, g7, g8, g9, g13, g14, g15]
      exact (Cert.Bridge.LS_eq _ _ _ _ _ _ _ _ _ _ _ _ _ _ _ _ (hG c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
